-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Pre_finite_inputs_ReferenceIdeal.lean ====
abbrev S1024x4096 : Shape := ⟨2, ![1024, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1024x4096 .f32) (main_arg1 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S1024x512 : Shape := ⟨2, ![1024, 512]⟩
abbrev S512 : Shape := ⟨1, ![512]⟩
abbrev S8x1024 : Shape := ⟨2, ![8, 1024]⟩
abbrev S7 : Shape := ⟨1, ![7]⟩
abbrev S_ : Shape := ⟨0, ![]⟩
abbrev S1024 : Shape := ⟨1, ![1024]⟩
abbrev S1x1024 : Shape := ⟨2, ![1, 1024]⟩
abbrev S1 : Shape := ⟨1, ![1]⟩
abbrev S1x512 : Shape := ⟨2, ![1, 512]⟩
abbrev S1024x1 : Shape := ⟨2, ![1024, 1]⟩

abbrev nBuf : Space → Nat
  | .hbm => 3
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S1024x512, .bf16⟩
  | .local _ .vmem, ⟨0, _⟩ => ⟨S1024x512, .f32⟩
  | .local _ .vmem, ⟨1, _⟩ => ⟨S512, .f32⟩
  | .local _ .vmem, ⟨2, _⟩ => ⟨S1024x512, .bf16⟩
  | .local _ .vmem, ⟨3, _⟩ => ⟨S8x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  { ofTc nBuf bufTy 1 17 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : Index := Scalar.indexCast v2
  let c0_29 : Index := 0#32
  ![v39.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  ![v2.toNat, 0]
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v43 : BitVec 32 := Scalar.addi v2 c1_i32_31
  let c8_i32_32 : BitVec 32 := 8#32
  let v44 : BitVec 32 := Scalar.remsi v43 c8_i32_32
  let c1_i32_35 : BitVec 32 := 1#32
  let v45 : BitVec 32 := Scalar.muli v44 c1_i32_35
  let v46 : BitVec 32 := Scalar.addi c0_i32_36 v45
  v46.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_39 : BitVec 32 := 2#32
  let v53 : BitVec 32 := Scalar.addi v2 c2_i32_39
  let c8_i32_40 : BitVec 32 := 8#32
  let v54 : BitVec 32 := Scalar.remsi v53 c8_i32_40
  let c1_i32_43 : BitVec 32 := 1#32
  let v55 : BitVec 32 := Scalar.muli v54 c1_i32_43
  let v56 : BitVec 32 := Scalar.addi c0_i32_44 v55
  v56.toNat
def k0_dev10 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_47 : BitVec 32 := 3#32
  let v63 : BitVec 32 := Scalar.addi v2 c3_i32_47
  let c8_i32_48 : BitVec 32 := 8#32
  let v64 : BitVec 32 := Scalar.remsi v63 c8_i32_48
  let c1_i32_51 : BitVec 32 := 1#32
  let v65 : BitVec 32 := Scalar.muli v64 c1_i32_51
  let v66 : BitVec 32 := Scalar.addi c0_i32_52 v65
  v66.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v73 : BitVec 32 := Scalar.addi v2 c4_i32_55
  let c8_i32_56 : BitVec 32 := 8#32
  let v74 : BitVec 32 := Scalar.remsi v73 c8_i32_56
  let c1_i32_59 : BitVec 32 := 1#32
  let v75 : BitVec 32 := Scalar.muli v74 c1_i32_59
  let v76 : BitVec 32 := Scalar.addi c0_i32_60 v75
  v76.toNat
def k0_dev12 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_63 : BitVec 32 := 5#32
  let v83 : BitVec 32 := Scalar.addi v2 c5_i32_63
  let c8_i32_64 : BitVec 32 := 8#32
  let v84 : BitVec 32 := Scalar.remsi v83 c8_i32_64
  let c1_i32_67 : BitVec 32 := 1#32
  let v85 : BitVec 32 := Scalar.muli v84 c1_i32_67
  let v86 : BitVec 32 := Scalar.addi c0_i32_68 v85
  v86.toNat
def k0_dev13 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_71 : BitVec 32 := 6#32
  let v93 : BitVec 32 := Scalar.addi v2 c6_i32_71
  let c8_i32_72 : BitVec 32 := 8#32
  let v94 : BitVec 32 := Scalar.remsi v93 c8_i32_72
  let c1_i32_75 : BitVec 32 := 1#32
  let v95 : BitVec 32 := Scalar.muli v94 c1_i32_75
  let v96 : BitVec 32 := Scalar.addi c0_i32_76 v95
  v96.toNat
def k0_dev14 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_79 : BitVec 32 := 7#32
  let v103 : BitVec 32 := Scalar.addi v2 c7_i32_79
  let c8_i32_80 : BitVec 32 := 8#32
  let v104 : BitVec 32 := Scalar.remsi v103 c8_i32_80
  let c1_i32_83 : BitVec 32 := 1#32
  let v105 : BitVec 32 := Scalar.muli v104 c1_i32_83
  let v106 : BitVec 32 := Scalar.addi c0_i32_84 v105
  v106.toNat
def k0_off3 (d0 : Dev nD) (c1_i32_88 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v119 : BitVec 32 := Scalar.subi v2 c1_i32_88
  let c8_i32_89 : BitVec 32 := 8#32
  let v120 : BitVec 32 := Scalar.addi v119 c8_i32_89
  let c8_i32_90 : BitVec 32 := 8#32
  let v121 : BitVec 32 := Scalar.remsi v120 c8_i32_90
  let c0_i32_95 : BitVec 32 := 0#32
  ![v121.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  reduces_S1024x512_S1024 : S1024x512.Reduces [1] S1024
  shapeCasts_S1024_S1x1024 : S1024.ShapeCasts S1x1024
  h_S1x1024 : 0 < S1x1024.numel
  shapeCasts_S1x1024_S1x1024 : S1x1024.ShapeCasts S1x1024
  hamt_7 : (7#32 : BitVec 32).msb = false
  inb_S7_S1_0 : ∀ a, (![0] : Fin 1 → Nat) a + S1.size a ≤ S7.size a
  squeezes_S1_S_ : S1.Squeezes S_
  inb_S7_S1_1 : ∀ a, (![1] : Fin 1 → Nat) a + S1.size a ≤ S7.size a
  inb_S7_S1_2 : ∀ a, (![2] : Fin 1 → Nat) a + S1.size a ≤ S7.size a
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  inb_S7_S1_6 : ∀ a, (![6] : Fin 1 → Nat) a + S1.size a ≤ S7.size a
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S1024x512 : S1x512.Broadcasts S1024x512
  inb_S8x1024_S8x1024_0_0 : ∀ a, (![0, 0] : Fin 2 → Nat) a + S8x1024.size a ≤ S8x1024.size a
  h_S8x1024 : 0 < S8x1024.numel
  reduces_S8x1024_S1024 : S8x1024.Reduces [0] S1024
  shapeCasts_S1x1024_S1024x1 : S1x1024.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  hcc0_scratch1 : 3 + S7.numel ≤ 17
  hcc0_scratch2 : 10 + S7.numel ≤ 17
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x1024.size a ≤ S8x1024.size a
  k0_off2_inb : ∀ d0 : Dev nD, ∀ a, (k0_off2 d0) a + S1x1024.size a ≤ S8x1024.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off3_inb : ∀ d0 : Dev nD, ∀ (r : Fin 7), ∀ a, (k0_off3 d0 (BitVec.ofNat 32 (1 + r.val))) a + S1x1024.size a ≤ S8x1024.size a
  hstage0_0 : ∀ j, (stage0_0 j).IsWhole
  hstage0_1 : ∀ j, (stage0_1 j).IsWhole
  hstage0_2 : ∀ j, (stage0_2 j).IsWhole

variable [Facts₀]

abbrev cc0_scratch1 : DmaSems sig S7 := SemArray.consecutive 3 S7 hcc0_scratch1
abbrev cc0_scratch2 : DmaSems sig S7 := SemArray.consecutive 10 S7 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096 : Shape := ⟨1, ![4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S1024x4096, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1x4096, .f32⟩
  | .hbm, ⟨14, _⟩ => ⟨S1024x4096, .f32⟩
  | .hbm, ⟨15, _⟩ => ⟨S1024x4096, .f32⟩
  | .hbm, ⟨16, _⟩ => ⟨S1024x4096, .f32⟩
  | .hbm, ⟨17, _⟩ => ⟨S1024x4096, .f32⟩
  | .hbm, ⟨18, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S1024x1_S1024x4096_0_1 : S1024x1.BroadcastsInDim S1024x4096 (![0, 1] : Fin 2 → Fin S1024x4096.rank)
  bitsLt_bf16_f32 : FTy.bits .bf16 < FTy.bits .f32

variable [Facts₀]

class Facts : Prop extends Facts₀ where

variable [Facts]
-- ==== Proof.Spec.lean ====
/-
  What each device's result block is, as one pure term of every device's argument blocks.

  Device `c` of the eight holds a block `X c` of 512 columns of the 1024 × 4096 input and the matching 512 entries
  `G c` of the scale vector. Every device first sums the squares of its own block along each row (1024 partial sums),
  the eight devices exchange these rows, so that each ends with the same 8 × 1024 table whose row `d` is device
  `d`'s partial sums; the table summed down its columns is the full row-wise sum of squares over all 4096 columns,
  and the device scales its own block by the scale vector and by the reciprocal root of (that sum / 4096 + eps).
-/
import proofs.«900465_g7700000000000466_dist_rmsnorm_colshard_i_m1024_n512_v7x_i8_bf16_1_alg».proof.Proof.Gen.KernelIdeal.Skeleton
import Idealize.ShloMosaic.Lib.ValueIdx

noncomputable section

namespace Cert.KernelIdeal.Spec

open Idealize.ShloMosaic Cert.KernelIdeal Cert.KernelIdeal.Gen

variable {F : FTy → Type} [FloatOps F]

/-- The exchanged table: entry (d, r) is device `d`'s partial sum of squares of row `r`. -/
def gathered (X : Dev nD → Vec F S1024x512 .f32) : Vec F S8x1024 .f32 :=
  fun i => k0_pay2 (X (i 0)) (ValueIdx.ix2 (0 : Fin 1) (i 1))

/-- Device `c`'s result block: its own block scaled by the scale vector and by the reciprocal root of the mean square
    of the whole row, the mean taken over the exchanged table. -/
def outOf (X : Dev nD → Vec F S1024x512 .f32) (G : Dev nD → Vec F S512 .f32) (c : Dev nD) : FVec F S1024x512 .bf16 :=
  k0_pay4 (k0_pay3 (k0_pay1 (X c)) (G c)) (gathered X)

end Cert.KernelIdeal.Spec

end
-- ==== Proof.BridgeLaw.lean ====
/-
  The laws of the extended reals that join the two programs.

  One row of the 1024 × 4096 array has a sum of squares `s`; both programs scale an entry of the row by the scale
  vector's entry and by (s / 4096 + ε)^(-1/2). The reference divides by the square root, the kernel multiplies by the
  reciprocal root: on the extended reals these agree at every positive argument, the infinite one included (both
  sides are then zero). The argument is positive whatever the row holds, because a square is never negative — the
  square of either infinity is +∞ — and ε is a positive real. The kernel forms `s` as eight partial sums of 512
  squares, one per column block: the same sum, regrouped.
-/
import Idealize.ShloMosaic.PureOps.Ideal
import Idealize.ShloMosaic.PureOps.Ideal.Laws
import Mathlib.Logic.Equiv.Fin.Basic
import Mathlib.Algebra.BigOperators.Fin

noncomputable section

namespace Cert.Bridge

open Idealize.ShloMosaic
open scoped BigOperators

/-! ## The two float words -/

/-- The divisor's word denotes the real 4096. -/
theorem ofBits_4096 : Ideal.ofBits .f32 0x45800000#32 = ((4096 : ℝ) : EReal) := by
  simp [Ideal.ofBits, Ideal.ieee, -EReal.coe_mul]; norm_num

/-- The word of ε denotes a positive real (10995116 · 2⁻⁴⁰, about 1e-5). -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## Squares, and the mean of squares plus ε -/

/-- A square of an extended real is never negative. -/
theorem mul_self_nonneg (a : EReal) : 0 ≤ a * a :=
  EReal.mul_nonneg_iff.mpr ((le_total 0 a).elim (fun h => .inl ⟨h, h⟩) (fun h => .inr ⟨h, h⟩))

/-- A sum of squares is never negative. -/
theorem sum_sq_nonneg {ι : Type} (t : Finset ι) (f : ι → EReal) : 0 ≤ ∑ k ∈ t, f k * f k :=
  Finset.sum_nonneg fun k _ => mul_self_nonneg (f k)

/-- A nonnegative sum, divided by 4096, plus ε, is positive (possibly +∞). -/
theorem mean_pos {s : EReal} (hs : 0 ≤ s) :
    0 < Ideal.div s (Ideal.ofBits .f32 0x45800000#32) + Ideal.ofBits .f32 0x3727C5AC#32 := by
  obtain ⟨e, he, hE⟩ := ofBits_eps
  rw [ofBits_4096, hE, Ideal.div_coe (by norm_num : (4096 : ℝ) ≠ 0)]
  exact (EReal.coe_pos.mpr he).trans_le
    (le_add_of_nonneg_left (EReal.mul_nonneg hs (EReal.coe_nonneg.mpr (by norm_num))))

/-! ## Dividing by the root is multiplying by the reciprocal root -/

/-- At a positive extended real `v`: `y / √v = y · v^(-1/2)`. At +∞ the root is +∞, whose inverse is 0, and the
    reciprocal root is 0. -/
theorem div_sqrt_eq_mul_rsqrt {v : EReal} (hv : 0 < v) (y : EReal) :
    Ideal.div y (Ideal.sqrt v) = y * Ideal.rsqrt v := by
  induction v using EReal.rec with
  | bot => exact absurd hv (not_lt.mpr bot_le)
  | top => rw [Ideal.sqrt_top, Ideal.rsqrt_top, Ideal.div, if_neg EReal.top_ne_zero, EReal.inv_top]
  | coe r =>
    have hr : 0 < r := EReal.coe_pos.mp hv
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div, if_neg (by exact_mod_cast hs), EReal.coe_inv]

/-- The law between the two programs at one entry: `a` the entry, `g` the scale, `s ≥ 0` the row's sum of squares. -/
theorem scale_law (a g s : EReal) (hs : 0 ≤ s) :
    Ideal.div (g * a)
        (Ideal.sqrt (Ideal.div s (Ideal.ofBits .f32 0x45800000#32) + Ideal.ofBits .f32 0x3727C5AC#32))
      = a * g * Ideal.rsqrt (Ideal.div s (Ideal.ofBits .f32 0x45800000#32) + Ideal.ofBits .f32 0x3727C5AC#32) := by
  rw [div_sqrt_eq_mul_rsqrt (mean_pos hs), mul_comm g a]

/-! ## A sum over 4096 columns as eight sums over 512 -/

/-- Column `j` of 4096 is column `k` of block `d`, `j = 512 d + k`: the sum over the columns is the sum over the blocks
    of the sums inside each. -/
theorem sum_blocks {M : Type} [AddCommMonoid M] (f : Fin 4096 → M) :
    ∑ j : Fin 4096, f j = ∑ d : Fin 8, ∑ k : Fin 512, f ⟨d.val * 512 + k.val, by omega⟩ := by
  rw [← Equiv.sum_comp (finProdFinEquiv (m := 8) (n := 512)) f, Fintype.sum_prod_type]
  refine Finset.sum_congr rfl fun d _ => Finset.sum_congr rfl fun k _ => congrArg f (Fin.ext ?_)
  show k.val + 512 * d.val = d.val * 512 + k.val
  omega

end Cert.Bridge

end
-- ==== Proof.BridgeRef.lean ====
/-
  The reference program's result as a function of its two argument arrays, and that function read at one entry.

  The reference holds the whole 1024 × 4096 array `A` and the whole scale vector `B`. Its result at row `r`, column `j`
  is `(B j · A r j) / √((0 + ∑ₖ (A r k)²) / 4096 + ε)`, the sum over all 4096 columns of the row; the last operation is a
  change of float format, which is the identity on the extended reals.
-/
import proofs.«900465_g7700000000000466_dist_rmsnorm_colshard_i_m1024_n512_v7x_i8_bf16_1_alg».proof.Defs
import proofs.«900465_g7700000000000466_dist_rmsnorm_colshard_i_m1024_n512_v7x_i8_bf16_1_alg».proof.Proof.Gen.ReferenceIdeal.Run
import proofs.«900465_g7700000000000466_dist_rmsnorm_colshard_i_m1024_n512_v7x_i8_bf16_1_alg».proof.Proof.Gen.ReferenceIdeal.Read
import proofs.«900465_g7700000000000466_dist_rmsnorm_colshard_i_m1024_n512_v7x_i8_bf16_1_alg».proof.Proof.Gen.Pre_finite_inputs_ReferenceIdeal
import Idealize.ShloMosaic.Lib.ValueIdx
import Idealize.ShloMosaic.PureOps.Ideal.Laws

noncomputable section

namespace Cert.Bridge

open Idealize.ShloMosaic Idealize.SL.Sem Idealize.ShloMosaic.ValueIdx
open scoped BigOperators

/-- The reference's result array as a function of its argument arrays: the last stage of its seventeen operations. -/
def refOut (A : (⟨Cert.ReferenceIdeal.S1024x4096, .f32⟩ : BufTy).Contents (Elt Ideal))
    (B : (⟨Cert.ReferenceIdeal.S4096, .f32⟩ : BufTy).Contents (Elt Ideal)) :
    (⟨Cert.ReferenceIdeal.S1024x4096, .bf16⟩ : BufTy).Contents (Elt Ideal) :=
  Cert.ReferenceIdeal.Read.val_main_v13 (F := Ideal) A B

/-- Every execution of the reference ends with its result array at `refOut` of the arguments' initial contents, the
    arguments unchanged. -/
theorem ref_run
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13)
            = refOut (m' (((0 : Dev Cert.ReferenceIdeal.nD).tc : Thread Cert.ReferenceIdeal.nD Cert.ReferenceIdeal.τ).loc Cert.ReferenceIdeal.main_arg0))
                (m' (((0 : Dev Cert.ReferenceIdeal.nD).tc : Thread Cert.ReferenceIdeal.nD Cert.ReferenceIdeal.τ).loc Cert.ReferenceIdeal.main_arg1))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans (Cert.ReferenceIdeal.Read.val_main_v13_eq (F := Ideal) _ _), (h 0).2⟩)
    (Cert.ReferenceIdeal.Value.run (F := Ideal) m' g')

/-- The reference runs and leaves its arguments unchanged: its run with the result forgotten. -/
theorem frame_ref : Cert.frame_ReferenceIdeal := fun m ρ _ =>
  (θ_run Cert.ReferenceIdeal.defs _ _).mono (fun _ h c => (h c).2) (Cert.ReferenceIdeal.Value.run (F := Ideal) m ρ)

/-- The reference's result at row `r`, column `j`. -/
theorem refOut_apply (A : (⟨Cert.ReferenceIdeal.S1024x4096, .f32⟩ : BufTy).Contents (Elt Ideal))
    (B : (⟨Cert.ReferenceIdeal.S4096, .f32⟩ : BufTy).Contents (Elt Ideal)) (r : Fin 1024) (j : Fin 4096) :
    refOut A B (ix2 r j)
      = Ideal.div (B (ix1 j) * A (ix2 r j))
          (Ideal.sqrt (Ideal.div (Ideal.ofBits .f32 0x00000000#32 + ∑ k : Fin 4096, A (ix2 r k) * A (ix2 r k))
            (Ideal.ofBits .f32 0x45800000#32) + Ideal.ofBits .f32 0x3727C5AC#32)) := by
  open Cert.ReferenceIdeal.Read in
  unfold refOut
  rw [val_main_v13_apply, val_main_v12_apply, val_main_v10_apply, val_main_v9_apply, val_main_v8_apply,
    val_main_v11_apply, val_main_v7_apply, val_main_v6_apply, val_main_v4_apply, val_main_v5_apply,
    val_main_cst_1_apply, val_main_v3_apply, val_main_cst_0_apply, val_main_v2_apply, val_main_v1_apply,
    val_main_cst_apply]
  have e8 : idx_main_v8 (idx_main_v9 (ix2 r j)) = ix1 j :=
    funext fun a => Fin.ext (by match a with | ⟨0, _⟩ => rfl)
  have e1 : ∀ k : Fin 4096, idx_main_v1 (idx_main_v2 (idx_main_v11 (ix2 r j))) k = ix2 r k :=
    fun k => funext fun a => Fin.ext (by match a with | ⟨0, _⟩ => rfl | ⟨1, _⟩ => rfl)
  simp only [e8, e1, val_main_v0_apply, Ideal.truncf_def, Ideal.hostDivf_def, Ideal.mulf_def,
    Ideal.hostUnary_sqrt_def, Ideal.addf_def, Ideal.ofBits_def]

/-- info: 'Cert.Bridge.ref_run' depends on axioms: [propext, Classical.choice, Quot.sound] -/
#guard_msgs in #print axioms ref_run
/-- info: 'Cert.Bridge.frame_ref' depends on axioms: [propext, Classical.choice, Quot.sound] -/
#guard_msgs in #print axioms frame_ref
/-- info: 'Cert.Bridge.refOut_apply' depends on axioms: [propext, Classical.choice, Quot.sound] -/
#guard_msgs in #print axioms refOut_apply

end Cert.Bridge

end
-- ==== Proof.BridgeKernel.lean ====
/-
  Each device's result block read at one entry.

  On device `c` the result at row `r`, column `q` of its 1024 × 512 block is the block's entry times the scale
  vector's entry `q`, times the reciprocal root of (the column sum of the exchanged 8 × 1024 table at `r`) / 4096 + ε;
  entry (d, r) of the table is device `d`'s sum of the 512 squares of row `r` of its own block. The changes of float
  format and the same-shape casts in between are the identity on the extended reals.
-/
import proofs.«900465_g7700000000000466_dist_rmsnorm_colshard_i_m1024_n512_v7x_i8_bf16_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx Cert.KernelIdeal Cert.KernelIdeal.Gen
open scoped BigOperators

/-! ## Two layout operations of a row-wise statistic: a row turned into a column, a column spread over the columns -/

/-- A `[1, a]` row cast to an `[a, 1]` column reads, at `(i, u)`, the row at `(0, i)`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The four payloads -/

/-- The first payload is a same-shape cast and a change of format: the identity. -/
theorem pay1_eq (x : FVec Ideal S1024x512 .f32) : k0_pay1 (F := Ideal) x = x := by
  unfold k0_pay1
  dsimp only
  rw [shapeCast_self]
  rfl

/-- The second payload at `(u, r)`: the sum of the squares of row `r` of the block. -/
theorem pay2_apply (x : FVec Ideal S1024x512 .f32) (u : Fin 1) (r : Fin 1024) :
    k0_pay2 (F := Ideal) x (ix2 u r) = ∑ k : Fin 512, x (ix2 r k) * x (ix2 r k) := by
  unfold k0_pay2
  dsimp only
  rw [shapeCast_self, pay1_eq]
  refine (shapeCast_a_1a_apply _ _ u r).trans ?_
  refine (Ideal.multiReduction_add_single _ _ _ _ _ (ix1 r)).trans ?_
  refine Finset.sum_congr rfl fun k _ => ?_
  have e : reduces_S1024x512_S1024.lift (ix1 r) k = ix2 r k :=
    funext fun a => Fin.ext (by match a with | ⟨0, _⟩ => rfl | ⟨1, _⟩ => rfl)
  rw [e]
  rfl

/-- The third payload at `(r, q)`: the entry times the scale vector's entry `q`. -/
theorem pay3_apply (y : FVec Ideal S1024x512 .bf16) (g : FVec Ideal S512 .f32) (r : Fin 1024) (q : Fin 512) :
    k0_pay3 (F := Ideal) y g (ix2 r q) = y (ix2 r q) * g (ix1 q) := by
  unfold k0_pay3
  rw [shapeCast_self]
  refine (mulf_apply _ _ _).trans ?_
  refine congrArg (y (ix2 r q) * ·) ?_
  refine (broadcastTo_1b_ab_apply _ _ r q).trans ?_
  exact shapeCast_a_1a_apply _ _ (0 : Fin 1) q

/-- The exchanged table summed down its columns, as a row, at `(0, r)`: the sum over the eight devices. -/
theorem table_sum_apply (t : FVec Ideal S8x1024 .f32) (r : Fin 1024) :
    shapeCast S1x1024
        (multiReduction .add [0] S1024 t 0x00000000#32 reduces_S8x1024_S1024 (.inl rfl) rfl)
        shapeCasts_S1024_S1x1024 (ix2 (0 : Fin 1) r)
      = ∑ d : Fin 8, t (ix2 d r) := by
  refine (shapeCast_a_1a_apply _ _ (0 : Fin 1) r).trans ?_
  refine (Ideal.multiReduction_add_single _ _ _ _ _ (ix1 r)).trans ?_
  refine Finset.sum_congr rfl fun d _ => ?_
  have e : reduces_S8x1024_S1024.lift (ix1 r) d = ix2 d r :=
    funext fun a => Fin.ext (by match a with | ⟨0, _⟩ => rfl | ⟨1, _⟩ => rfl)
  rw [e]
  rfl

/-- The fourth payload at `(r, q)`: the entry times the reciprocal root of (the table's column sum at `r`) / 4096 + ε. -/
theorem pay4_apply (y : FVec Ideal S1024x512 .bf16) (t : FVec Ideal S8x1024 .f32) (r : Fin 1024) (q : Fin 512) :
    k0_pay4 (F := Ideal) y t (ix2 r q)
      = y (ix2 r q) * Ideal.rsqrt (Ideal.div (∑ d : Fin 8, t (ix2 d r)) (Ideal.ofBits .f32 0x45800000#32)
          + Ideal.ofBits .f32 0x3727C5AC#32) := by
  unfold k0_pay4
  refine (mulf_apply _ _ _).trans ?_
  refine congrArg (y (ix2 r q) * ·) ?_
  refine (broadcastTo_a1_ab_apply _ _ r q).trans ?_
  refine (truncf_apply (s := S1024x1) (φ := .f32) (ψ := .bf16) _ bitsLt_bf16_f32 (ix2 r (0 : Fin 1))).trans ?_
  refine (shapeCast_1a_a1_apply _ _ r (0 : Fin 1)).trans ?_
  exact congrArg (fun s => Ideal.rsqrt (Ideal.div s (Ideal.ofBits .f32 0x45800000#32)
    + Ideal.ofBits .f32 0x3727C5AC#32)) (table_sum_apply t r)

/-! ## The specification's term -/

/-- Device `c`'s result block at `(r, q)`: its entry, times its scale entry, times the reciprocal root of the mean over
    all eight blocks of the squares of row `r`, plus ε. -/
theorem outOf_apply (X : Dev nD → Vec Ideal S1024x512 .f32) (G : Dev nD → Vec Ideal S512 .f32) (c : Dev nD)
    (r : Fin 1024) (q : Fin 512) :
    Cert.KernelIdeal.Spec.outOf (F := Ideal) X G c (ix2 r q)
      = X c (ix2 r q) * G c (ix1 q)
          * Ideal.rsqrt (Ideal.div (∑ d : Fin 8, ∑ k : Fin 512, X d (ix2 r k) * X d (ix2 r k))
              (Ideal.ofBits .f32 0x45800000#32) + Ideal.ofBits .f32 0x3727C5AC#32) := by
  unfold Cert.KernelIdeal.Spec.outOf
  rw [pay4_apply, pay3_apply, pay1_eq]
  refine congrArg (fun s => X c (ix2 r q) * G c (ix1 q)
    * Ideal.rsqrt (Ideal.div s (Ideal.ofBits .f32 0x45800000#32) + Ideal.ofBits .f32 0x3727C5AC#32)) ?_
  refine Finset.sum_congr rfl fun d _ => ?_
  exact pay2_apply (X d) (0 : Fin 1) r

/-- info: 'Cert.Bridge.outOf_apply' depends on axioms: [propext, Classical.choice, Quot.sound] -/
#guard_msgs in #print axioms outOf_apply

end Cert.Bridge

end
-- ==== Proof.Bridge.lean ====
/-
  The identity that joins each device's result block to its block of the reference's result.

  The 1024 × 4096 array `A` is cut along its columns into eight blocks of 512 columns, the scale vector `B` into eight
  pieces of 512 entries; device `c` holds block `c` of each. Column `q` of block `c` is column `512 c + q` of the whole.
  At that entry the reference gives `(B · A) / √(s / 4096 + ε)` with `s` the sum of the squares of the whole row, and the
  device gives `(A · B) · (s' / 4096 + ε)^(-1/2)` with `s'` the sum over the eight blocks of each block's sum of squares
  of the row: `s' = s` by regrouping the sum, and the two scalings agree because `s / 4096 + ε` is positive — a sum of
  squares of extended reals is never negative, so no entry needs to be finite for this.
-/
import proofs.«900465_g7700000000000466_dist_rmsnorm_colshard_i_m1024_n512_v7x_i8_bf16_1_alg».proof.Defs
import proofs.«900465_g7700000000000466_dist_rmsnorm_colshard_i_m1024_n512_v7x_i8_bf16_1_alg».proof.Proof.Spec
import proofs.«900465_g7700000000000466_dist_rmsnorm_colshard_i_m1024_n512_v7x_i8_bf16_1_alg».proof.Proof.Gen.Pre_finite_inputs_Kernel
import proofs.«900465_g7700000000000466_dist_rmsnorm_colshard_i_m1024_n512_v7x_i8_bf16_1_alg».proof.Proof.BridgeLaw
import proofs.«900465_g7700000000000466_dist_rmsnorm_colshard_i_m1024_n512_v7x_i8_bf16_1_alg».proof.Proof.BridgeRef
import proofs.«900465_g7700000000000466_dist_rmsnorm_colshard_i_m1024_n512_v7x_i8_bf16_1_alg».proof.Proof.BridgeKernel
import Idealize.ShloMosaic.Lib.Layout

noncomputable section

namespace Cert.Bridge

open Idealize.ShloMosaic Idealize.SL.Sem Idealize.ShloMosaic.ValueIdx
open scoped BigOperators

/-! ## Where a block's entry lies in the whole -/

/-- Row `r`, column `k` of block `d` of the array is row `r`, column `512 d + k` of the whole. -/
theorem idx_cols (h : Layout.Tiles ⟨2, ![1024, 512]⟩ ⟨2, ![1024, 4096]⟩ 1 8) (d : Fin 8) (r : Fin 1024) (k : Fin 512) :
    h.idx d (ix2 r k) = ix2 r (⟨d.val * 512 + k.val, by omega⟩ : Fin 4096) :=
  funext fun a => Fin.ext (by match a with | ⟨0, _⟩ => rfl | ⟨1, _⟩ => rfl)

/-- Entry `k` of piece `d` of the scale vector is entry `512 d + k` of the whole. -/
theorem idx_vec (h : Layout.Tiles ⟨1, ![512]⟩ ⟨1, ![4096]⟩ 0 8) (d : Fin 8) (k : Fin 512) :
    h.idx d (ix1 k) = ix1 (⟨d.val * 512 + k.val, by omega⟩ : Fin 4096) :=
  funext fun a => Fin.ext (by match a with | ⟨0, _⟩ => rfl)

/-! ## The identity over plain arrays -/

/-- For any whole array `A` and scale vector `B`: the specification's term at the eight blocks, on device `c`, is
    block `c` of the reference's result. -/
theorem block_identity (A : (⟨2, ![1024, 4096]⟩ : Shape).Idx → EReal) (B : (⟨1, ![4096]⟩ : Shape).Idx → EReal)
    (c : Fin 8) :
    Cert.KernelIdeal.Spec.outOf (F := Ideal)
        (fun d => Layout.block ⟨2, ![1024, 512]⟩ ⟨2, ![1024, 4096]⟩ 1 8 d A)
        (fun d => Layout.block ⟨1, ![512]⟩ ⟨1, ![4096]⟩ 0 8 d B) c
      = Layout.block ⟨2, ![1024, 512]⟩ ⟨2, ![1024, 4096]⟩ 1 8 c (refOut A B) := by
  funext i
  obtain ⟨r, q, rfl⟩ : ∃ (r : Fin 1024) (q : Fin 512), i = ix2 r q := ⟨i 0, i 1, eq_ix2 i⟩
  rw [outOf_apply]
  simp only [Layout.block_apply, idx_cols, idx_vec]
  rw [refOut_apply, Ideal.ofBits_zero_f32, zero_add, sum_blocks (fun j => A (ix2 r j) * A (ix2 r j))]
  exact (scale_law _ _ _ (Finset.sum_nonneg fun d _ =>
    sum_sq_nonneg Finset.univ (fun k : Fin 512 => A (ix2 r (⟨d.val * 512 + k.val, by omega⟩ : Fin 4096))))).symm

/-! ## The identity between the two programs' memories -/

/-- From memories where each device's argument buffers hold their blocks of the reference's argument arrays, the
    specification's term of the devices' buffers, on device `c`, is block `c` of the reference's result. (The
    finiteness of the inputs is not used: the law holds at the infinities too.) -/
theorem out_eq_block
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg1)))
    (c : Dev Cert.KernelIdeal.nD) :
    Cert.KernelIdeal.Spec.outOf (F := Ideal)
        (fun d => m ((d.tc : Thread Cert.KernelIdeal.nD Cert.KernelIdeal.τ).loc Cert.KernelIdeal.main_arg0))
        (fun d => m ((d.tc : Thread Cert.KernelIdeal.nD Cert.KernelIdeal.τ).loc Cert.KernelIdeal.main_arg1)) c
      = Layout.block ⟨2, ![1024, 512]⟩ ⟨2, ![1024, 4096]⟩ 1 8 c
          (refOut (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) := by
  have hX : (fun d : Dev Cert.KernelIdeal.nD =>
        m ((d.tc : Thread Cert.KernelIdeal.nD Cert.KernelIdeal.τ).loc Cert.KernelIdeal.main_arg0))
      = fun d => Layout.block ⟨2, ![1024, 512]⟩ ⟨2, ![1024, 4096]⟩ 1 8 d (m' (((0 : Dev Cert.ReferenceIdeal.nD).tc : Thread Cert.ReferenceIdeal.nD Cert.ReferenceIdeal.τ).loc Cert.ReferenceIdeal.main_arg0)) :=
    funext fun d => (hagree d).1
  have hG : (fun d : Dev Cert.KernelIdeal.nD =>
        m ((d.tc : Thread Cert.KernelIdeal.nD Cert.KernelIdeal.τ).loc Cert.KernelIdeal.main_arg1))
      = fun d => Layout.block ⟨1, ![512]⟩ ⟨1, ![4096]⟩ 0 8 d (m' (((0 : Dev Cert.ReferenceIdeal.nD).tc : Thread Cert.ReferenceIdeal.nD Cert.ReferenceIdeal.τ).loc Cert.ReferenceIdeal.main_arg1)) :=
    funext fun d => (hagree d).2
  rw [hX, hG]
  exact block_identity _ _ c

/-- info: 'Cert.Bridge.out_eq_block' depends on axioms: [propext, Classical.choice, Quot.sound] -/
#guard_msgs in #print axioms out_eq_block

end Cert.Bridge

end
-- ==== Proof.Proto.lean ====
/-
  The exchange protocol of the eight devices, as a schedule of duties.

  Every device signals each of the seven others once on the shared entry semaphore and waits for seven units: a
  device that has passed this wait knows every peer is inside the kernel. Device `c` then copies its own row of
  partial sums (row `c` of its 8 × 1024 table) into row `c` of each peer's table: copy `j` (j = 0..6) goes to the
  device `j + 1` places further round the ring, pays that device's receive cell `j` and its own send cell `j`.
  So receive cell `j` of device `c` is paid exactly once, by the device `j + 1` places before it, whose row it lands.
-/
import proofs.«900465_g7700000000000466_dist_rmsnorm_colshard_i_m1024_n512_v7x_i8_bf16_1_alg».proof.Proof.Spec
import proofs.«900465_g7700000000000466_dist_rmsnorm_colshard_i_m1024_n512_v7x_i8_bf16_1_alg».proof.Proof.Gen.KernelIdeal.Launch
import proofs.«900465_g7700000000000466_dist_rmsnorm_colshard_i_m1024_n512_v7x_i8_bf16_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (one duty per cell) beside the exchange's (seven duty names) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring: who is `j + 1` places further, who is `j + 1` places before -/

/-- The device `j + 1` places after `c`: where `c`'s signal `j` and copy `j` go. -/
def tgt (j : Fin 7) (c : Dev nD) : Dev nD := ⟨(c.val + (j.val + 1)) % 8, Nat.mod_lt _ (by decide)⟩
/-- The device `j + 1` places before `c`: whose signal `j` and copy `j` reach `c`. -/
def src (j : Fin 7) (c : Dev nD) : Dev nD := ⟨((c.val + 7) - j.val) % 8, Nat.mod_lt _ (by decide)⟩
/-- The copy by which the device that signalled `c` with its signal `j` is reached from `c`. -/
def rev (j : Fin 7) : Fin 7 := ⟨6 - j.val, by omega⟩

theorem src_tgt (j : Fin 7) (c : Dev nD) : src j (tgt j c) = c := by revert j c; decide
theorem tgt_src (j : Fin 7) (c : Dev nD) : tgt j (src j c) = c := by revert j c; decide
theorem tgt_rev (j : Fin 7) (c : Dev nD) : tgt (rev j) c = src j c := by revert j c; decide
theorem rev_rev (j : Fin 7) : rev (rev j) = j := by revert j; decide
theorem tgt_ne (j : Fin 7) (c : Dev nD) : tgt j c ≠ c := by revert j c; decide
theorem src_ne (j : Fin 7) (c : Dev nD) : src j c ≠ c := by revert j c; decide
theorem tgt_inj (c : Dev nD) : Function.Injective (fun j => tgt j c) := by revert c; decide
theorem src_inj (c : Dev nD) : Function.Injective (fun j => src j c) := by revert c; decide

/-- Round the ring by `j + 1` places, as a permutation of the devices. -/
def ring (j : Fin 7) : Dev nD ≃ Dev nD := ⟨tgt j, src j, src_tgt j, tgt_src j⟩

/-- The program's device chains: signal `j` and copy `j` both name the device `j + 1` places further. -/
theorem dev1_eq (c : Dev nD) : (⟨k0_dev1 c, k0_dev1_lt c⟩ : Dev nD) = tgt 0 c := Fin.ext (k0_dev1_eq c)
theorem dev2_eq (c : Dev nD) : (⟨k0_dev2 c, k0_dev2_lt c⟩ : Dev nD) = tgt 1 c := Fin.ext (k0_dev2_eq c)
theorem dev3_eq (c : Dev nD) : (⟨k0_dev3 c, k0_dev3_lt c⟩ : Dev nD) = tgt 2 c := Fin.ext (k0_dev3_eq c)
theorem dev4_eq (c : Dev nD) : (⟨k0_dev4 c, k0_dev4_lt c⟩ : Dev nD) = tgt 3 c := Fin.ext (k0_dev4_eq c)
theorem dev5_eq (c : Dev nD) : (⟨k0_dev5 c, k0_dev5_lt c⟩ : Dev nD) = tgt 4 c := Fin.ext (k0_dev5_eq c)
theorem dev6_eq (c : Dev nD) : (⟨k0_dev6 c, k0_dev6_lt c⟩ : Dev nD) = tgt 5 c := Fin.ext (k0_dev6_eq c)
theorem dev7_eq (c : Dev nD) : (⟨k0_dev7 c, k0_dev7_lt c⟩ : Dev nD) = tgt 6 c := Fin.ext (k0_dev7_eq c)
theorem dev8_eq (c : Dev nD) : (⟨k0_dev8 c, k0_dev8_lt c⟩ : Dev nD) = tgt 0 c := Fin.ext (k0_dev8_eq c)
theorem dev9_eq (c : Dev nD) : (⟨k0_dev9 c, k0_dev9_lt c⟩ : Dev nD) = tgt 1 c := Fin.ext (k0_dev9_eq c)
theorem dev10_eq (c : Dev nD) : (⟨k0_dev10 c, k0_dev10_lt c⟩ : Dev nD) = tgt 2 c := Fin.ext (k0_dev10_eq c)
theorem dev11_eq (c : Dev nD) : (⟨k0_dev11 c, k0_dev11_lt c⟩ : Dev nD) = tgt 3 c := Fin.ext (k0_dev11_eq c)
theorem dev12_eq (c : Dev nD) : (⟨k0_dev12 c, k0_dev12_lt c⟩ : Dev nD) = tgt 4 c := Fin.ext (k0_dev12_eq c)
theorem dev13_eq (c : Dev nD) : (⟨k0_dev13 c, k0_dev13_lt c⟩ : Dev nD) = tgt 5 c := Fin.ext (k0_dev13_eq c)
theorem dev14_eq (c : Dev nD) : (⟨k0_dev14 c, k0_dev14_lt c⟩ : Dev nD) = tgt 6 c := Fin.ext (k0_dev14_eq c)

/-! ## The cells -/

/-- The shared entry semaphore (the runtime's, not scoped to the kernel). -/
abbrev barS : Sem sig := (SemArray.scalar (sig.barrier 0 rfl) : Sems sig S_).sem
/-- Send semaphore `j` and receive semaphore `j`, as the program slices them out of its two arrays of seven. -/
abbrev sendS (j : Fin 7) : DmaSem sig := ⟨3 + j.val, by show 3 + j.val < 17; omega⟩
abbrev recvS (j : Fin 7) : DmaSem sig := ⟨10 + j.val, by show 10 + j.val < 17; omega⟩

theorem sendS_spelt0 : ((cc0_scratch1.slice (Rect.unit (s := S7) ![0] S1.size inb_S7_S1_0)).squeeze S_ squeezes_S1_S_).sem = sendS 0 := by decide
theorem recvS_spelt0 : ((cc0_scratch2.slice (Rect.unit (s := S7) ![0] S1.size inb_S7_S1_0)).squeeze S_ squeezes_S1_S_).sem = recvS 0 := by decide
theorem sendS_spelt6 : ((cc0_scratch1.slice (Rect.unit (s := S7) ![6] S1.size inb_S7_S1_6)).squeeze S_ squeezes_S1_S_).sem = sendS 6 := by decide
theorem recvS_spelt6 : ((cc0_scratch2.slice (Rect.unit (s := S7) ![6] S1.size inb_S7_S1_6)).squeeze S_ squeezes_S1_S_).sem = recvS 6 := by decide

abbrev barCell (c : Dev nD) : GSem nD τ sig := ((c : Thread nD τ), .reg barS)
abbrev sendCell (j : Fin 7) (c : Dev nD) : GSem nD τ sig := ((c : Thread nD τ), .dma (sendS j))
abbrev recvCell (j : Fin 7) (c : Dev nD) : GSem nD τ sig := ((c : Thread nD τ), .dma (recvS j))

/-! ## The buffers -/

abbrev xM : Memref sig .tc .vmem S1024x512 .f32 := Memref.whole cc0_stg0_0
abbrev gM : Memref sig .tc .vmem S512 .f32 := Memref.whole cc0_stg1_0
abbrev oM : Memref sig .tc .vmem S1024x512 .bf16 := Memref.whole cc0_stg2_0
/-- The 8 × 1024 table of partial sums, -/
abbrev cM : Memref sig .tc .vmem S8x1024 .f32 := Memref.whole cc0_scratch0
/-- and its row `d`, as the program slices it. -/
abbrev rowM (d : Dev nD) : Memref sig .tc .vmem S1x1024 .f32 :=
  cM.slice (Rect.unit (s := S8x1024) (k0_off2 d) S1x1024.size (k0_off2_inb d)) (fun _ => rfl)

/-- The words one row's transfer credits. -/
abbrev N : ℕ := (rowM (0 : Dev nD)).view.dmaCredit

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Contents -/

/-- Device `c`'s block of the input and of the scale vector, as its staging buffers hold them. -/
def xblk (c : Dev nD) : (cc0_stg0_0 : Ref sig .tc).ty.Contents (Elt F) :=
  (win0_0.blk (0 : Fin 1)).view.read (Elt F) (m ((c : Thread nD τ).loc main_arg0))
def gblk (c : Dev nD) : (cc0_stg1_0 : Ref sig .tc).ty.Contents (Elt F) :=
  (win0_1.blk (0 : Fin 1)).view.read (Elt F) (m ((c : Thread nD τ).loc main_arg1))

/-- The table every device ends with: row `d` is device `d`'s partial sums. -/
def tbl : (cc0_scratch0 : Ref sig .tc).ty.Contents (Elt F) := Spec.gathered (xblk m)

/-- The result block of device `c`. -/
def outAt (c : Dev nD) : (cc0_stg2_0 : Ref sig .tc).ty.Contents (Elt F) := Spec.outOf (xblk m) (gblk m) c

/-- Row `d` of device `p`'s table, held outright at contents `f`. -/
def rowPts (p d : Dev nD) (q : PosShare TreeShare) (f : Buf (Elt F) ((rowM d).view.loc (p : Thread nD τ))) : sProp 𝕄 :=
  (rowM d).view.loc (p : Thread nD τ) ↦[(rowM d).view.set]{q} f

/-! ## The schedule -/

/-- Which of the exchange's cells a semaphore is: the entry semaphore, send `j`, receive `j`, or none (a staging
    semaphore of the launch). -/
inductive Role where
  | bar | send (j : Fin 7) | recv (j : Fin 7) | none
deriving DecidableEq

def role : SemLoc sig → Role
  | .reg _ => .bar
  | .dma q =>
    if h : 3 ≤ q.val ∧ q.val < 10 then .send ⟨q.val - 3, by omega⟩
    else if h' : 10 ≤ q.val then .recv ⟨q.val - 10, by have : q.val < 17 := q.isLt; omega⟩
    else .none

theorem role_bar : role (.reg barS) = .bar := rfl
theorem role_send (j : Fin 7) : role (.dma (sendS j)) = .send j := by revert j; decide
theorem role_recv (j : Fin 7) : role (.dma (recvS j)) = .recv j := by revert j; decide

theorem N_pos : 0 < N := View.dmaCredit_pos _ (by decide)

/-- What device `p`'s signal `j` hands the device `c` it reaches: row `c` of `p`'s table outright, at whatever it
    holds, and that `p` stands at round 0 of its receive cell `rev j` — the two things `c`'s copy `rev j`, which
    lands in that row and pays that cell, needs. -/
def barPayFrom (p c : Dev nD) (j : Fin 7) : sProp 𝕄 :=
  iprop((∃ f, rowPts p c fullShare f) ∗ reached ER (recvCell (rev j) p) 0)
/-- What the landing of copy `j` hands device `c`: the row of the device `j + 1` places before it, holding that
    device's partial sums. -/
def recvPay (j : Fin 7) (c : Dev nD) : sProp 𝕄 := rowPts c (src j c) fullShare (tbl m)
/-- What the end of copy `j`'s reading hands back: the share of its own row the copy read through. -/
def sendPay (j : Fin 7) (c : Dev nD) : sProp 𝕄 := rowPts c c (Transfers.shareTok fullShare 7 j) (tbl m)

/-- One round per cell. The entry cell of `c`: seven duties of one unit, duty `j` paid by the device `j + 1` places
    before `c`. A send or receive cell: one duty (named 0) of a row's credit. -/
def exRd : Rounds.Schedule (GSem nD τ sig) (Fin 7) 𝕄 where
  duties g r := if r = 0 ∧ g.1.2 = .tc then
      (match role g.2 with | .bar => Finset.univ | .send _ => {0} | .recv _ => {0} | .none => ∅) else ∅
  amount g _ _ := match role g.2 with | .bar => 1 | _ => N
  payload g _ d := match role g.2 with
    | .bar => barPayFrom (src d g.1.1) g.1.1 d
    | .send j => sendPay m j g.1.1
    | .recv j => recvPay m j g.1.1
    | .none => iprop(emp)
  amount_pos g _ _ _ := by
    cases h : role g.2 <;> simp only [h] <;> first | exact Nat.one_pos | exact N_pos

instance exRd_payload_storable (g : GSem nD τ sig) (r : ℕ) (d : Fin 7) :
    BI.Storable (upEmb : UEmb _ 𝕄) ((exRd (F := F) m).payload g r d) := by
  show BI.Storable upEmb (match role g.2 with
    | .bar => barPayFrom (src d g.1.1) g.1.1 d
    | .send j => sendPay m j g.1.1
    | .recv j => recvPay m j g.1.1
    | .none => iprop(emp))
  unfold barPayFrom sendPay recvPay rowPts
  split <;> infer_instance

section Sched
variable (c : Dev nD) (j : Fin 7)

theorem duties_bar : (exRd (F := F) m).duties (barCell c) 0 = Finset.univ := by
  dsimp only [exRd]; rw [if_pos ⟨rfl, rfl⟩]; rfl
theorem duties_send : (exRd (F := F) m).duties (sendCell j c) 0 = {0} := by
  dsimp only [exRd]; rw [if_pos ⟨rfl, rfl⟩, role_send]
theorem duties_recv : (exRd (F := F) m).duties (recvCell j c) 0 = {0} := by
  dsimp only [exRd]; rw [if_pos ⟨rfl, rfl⟩, role_recv]
theorem duties_later (g : GSem nD τ sig) : ∀ r, 1 ≤ r → (exRd (F := F) m).duties g r = ∅ :=
  fun r hr => by dsimp only [exRd]; rw [if_neg fun h => by omega]

theorem amount_bar (d : Fin 7) : (exRd (F := F) m).amount (barCell c) 0 d = 1 := rfl
theorem amount_send (d : Fin 7) : (exRd (F := F) m).amount (sendCell j c) 0 d = N := by
  dsimp only [exRd]; rw [role_send]
theorem amount_recv (d : Fin 7) : (exRd (F := F) m).amount (recvCell j c) 0 d = N := by
  dsimp only [exRd]; rw [role_recv]

theorem expect_bar : (exRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (exRd (F := F) m).expect (sendCell j c) 0 = N := by
  unfold Schedule.expect Schedule.amountOf; rw [duties_send, Finset.sum_singleton, amount_send]
theorem expect_recv : (exRd (F := F) m).expect (recvCell j c) 0 = N := by
  unfold Schedule.expect Schedule.amountOf; rw [duties_recv, Finset.sum_singleton, amount_recv]

theorem payload_bar (d : Fin 7) : (exRd (F := F) m).payload (barCell c) 0 d = barPayFrom (src d c) c d := rfl
/-- The duty `c` itself pays on the entry cell of the device its signal `j` reaches. -/
theorem payload_bar_tgt : (exRd (F := F) m).payload (barCell (tgt j c)) 0 j = barPayFrom c (tgt j c) j := by
  rw [payload_bar, src_tgt]
theorem payload_send (d : Fin 7) : (exRd (F := F) m).payload (sendCell j c) 0 d = sendPay m j c := by
  dsimp only [exRd]; rw [role_send]
theorem payload_recv (d : Fin 7) : (exRd (F := F) m).payload (recvCell j c) 0 d = recvPay m j c := by
  dsimp only [exRd]; rw [role_recv]

theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The whole of the entry cell's round: the seven peers' payloads. -/
theorem rest_bar : bigSep ((exRd (F := F) m).duties (barCell c) 0 \ ∅) (fun d => (exRd (F := F) m).payload (barCell c) 0 d)
    = iprop(barPayFrom (src 0 c) c 0 ∗ barPayFrom (src 1 c) c 1 ∗ barPayFrom (src 2 c) c 2 ∗ barPayFrom (src 3 c) c 3
        ∗ barPayFrom (src 4 c) c 4 ∗ barPayFrom (src 5 c) c 5 ∗ barPayFrom (src 6 c) c 6) := by
  rw [Finset.sdiff_empty, duties_bar, bigSep_fin7]; rfl
theorem rest_send : bigSep ((exRd (F := F) m).duties (sendCell j c) 0 \ ∅) (fun d => (exRd (F := F) m).payload (sendCell j c) 0 d) = sendPay m j c := by
  rw [Finset.sdiff_empty, duties_send, bigSep_singleton, payload_send]
theorem rest_recv : bigSep ((exRd (F := F) m).duties (recvCell j c) 0 \ ∅) (fun d => (exRd (F := F) m).payload (recvCell j c) 0 d) = recvPay m j c := by
  rw [Finset.sdiff_empty, duties_recv, bigSep_singleton, payload_recv]

end Sched

/-! ## What each device owes at launch; the levels -/

/-- The credit copy `j` of `c` owes the receive cell `j` of the device it goes to, and the unit signal `j` owes that
    device's entry cell. -/
def rT (c : Dev nD) (j : Fin 7) : CellTallies nD τ sig Unit := tallyAt (recvCell j (tgt j c)) () N
def bT (c : Dev nD) (j : Fin 7) : CellTallies nD τ sig Unit := tallyAt (barCell (tgt j c)) () 1

/-- What `c` still owes before its copy `k` (copies `k`..6 outstanding), summed so that copy `k` peels the last
    summand; -/
def OR6 (c : Dev nD) : CellTallies nD τ sig Unit := 0 + rT c 6
def OR5 (c : Dev nD) : CellTallies nD τ sig Unit := OR6 c + rT c 5
def OR4 (c : Dev nD) : CellTallies nD τ sig Unit := OR5 c + rT c 4
def OR3 (c : Dev nD) : CellTallies nD τ sig Unit := OR4 c + rT c 3
def OR2 (c : Dev nD) : CellTallies nD τ sig Unit := OR3 c + rT c 2
def OR1 (c : Dev nD) : CellTallies nD τ sig Unit := OR2 c + rT c 1
def OR0 (c : Dev nD) : CellTallies nD τ sig Unit := OR1 c + rT c 0
/-- and before its signal `k` (all seven copies and signals `k`..6 outstanding). -/
def OB6 (c : Dev nD) : CellTallies nD τ sig Unit := OR0 c + bT c 6
def OB5 (c : Dev nD) : CellTallies nD τ sig Unit := OB6 c + bT c 5
def OB4 (c : Dev nD) : CellTallies nD τ sig Unit := OB5 c + bT c 4
def OB3 (c : Dev nD) : CellTallies nD τ sig Unit := OB4 c + bT c 3
def OB2 (c : Dev nD) : CellTallies nD τ sig Unit := OB3 c + bT c 2
def OB1 (c : Dev nD) : CellTallies nD τ sig Unit := OB2 c + bT c 1
/-- Everything, at launch. -/
def O₀ (c : Dev nD) : CellTallies nD τ sig Unit := OB1 c + bT c 0

/-- Seven summands added last-first onto `a` are `a` plus their sum (in any commutative monoid). -/
theorem nest7 {M : Type} [AddCommMonoid M] (a : M) (f : Fin 7 → M) :
    ((((((a + f 6) + f 5) + f 4) + f 3) + f 2) + f 1) + f 0 = a + ∑ j : Fin 7, f j := by
  rw [Fin.sum_univ_seven]
  abel

theorem OR0_eq (c : Dev nD) : OR0 c = ∑ j : Fin 7, rT c j := by
  unfold OR0 OR1 OR2 OR3 OR4 OR5 OR6
  rw [nest7 0 (rT c), zero_add]
/-- The same as one sum over the copies and one over the signals. -/
theorem O₀_eq (c : Dev nD) : O₀ c = (∑ j : Fin 7, rT c j) + ∑ j : Fin 7, bT c j := by
  unfold O₀ OB1 OB2 OB3 OB4 OB5 OB6
  rw [nest7 (OR0 c) (bT c), OR0_eq]

def L (g : GSem nD τ sig) : Finset Unit := if g.1.2 = .tc then {()} else ∅
/-- Entry cells at 1, receive cells at 2, everything else (staging, send) at 0: a device waits on its entry cell
    owing only receive credit, and on its receive cells owing nothing. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (j : Fin 7) (c : Dev nD) (u : Unit) : lv (recvCell j c) u = 2 := by unfold lv; rw [role_recv]

/-- A positive entry of a sum of tallies is a positive entry of one of them. -/
theorem sum_tally_pos {ι : Type} (s : Finset ι) (T : ι → CellTallies nD τ sig Unit) {g : GSem nD τ sig} {u : Unit}
    (h : 0 < (∑ i ∈ s, T i) g u) : ∃ i ∈ s, 0 < T i g u := by
  classical
  induction s using Finset.induction_on with
  | empty => simp at h
  | insert a s ha ih =>
    rw [Finset.sum_insert ha, Pi.add_apply, Finsupp.add_apply] at h
    rcases Nat.add_pos_iff_pos_or_pos.mp h with h1 | h2
    · exact ⟨a, Finset.mem_insert_self _ _, h1⟩
    · obtain ⟨i, hi, hp⟩ := ih h2; exact ⟨i, Finset.mem_insert_of_mem hi, hp⟩

theorem tallyAt_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem OR0_pos {c : Dev nD} {g : GSem nD τ sig} {u : Unit} (h : 0 < OR0 c g u) : ∃ j, g = recvCell j (tgt j c) := by
  rw [OR0_eq] at h
  obtain ⟨j, -, hj⟩ := sum_tally_pos _ _ h
  exact ⟨j, tallyAt_pos (by unfold rT at hj; exact hj)⟩

theorem O₀_pos {c : Dev nD} {g : GSem nD τ sig} {u : Unit} (h : 0 < O₀ c g u) :
    (∃ j, g = recvCell j (tgt j c)) ∨ ∃ j, g = barCell (tgt j c) := by
  rw [O₀_eq, Pi.add_apply, Finsupp.add_apply] at h
  rcases Nat.add_pos_iff_pos_or_pos.mp h with h1 | h2
  · obtain ⟨j, -, hj⟩ := sum_tally_pos _ _ h1; exact .inl ⟨j, tallyAt_pos (by unfold rT at hj; exact hj)⟩
  · obtain ⟨j, -, hj⟩ := sum_tally_pos _ _ h2; exact .inr ⟨j, tallyAt_pos (by unfold bT at hj; exact hj)⟩

omit [FloatOps F] in
/-- A wait on a cell at level 0 (a staging cell of the launch) is below everything a device can owe. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact Nat.le_of_eq hq)
      (fun g u hg => by
        rcases O₀_pos hg with ⟨j, rfl⟩ | ⟨j, rfl⟩
        · rw [lv_recv]; decide
        · rw [lv_bar]; decide)
  · rw [MayWait_zero]; iintro -; iempintro

omit [FloatOps F] in
/-- At its entry wait a device owes receive credit only: above its entry cell. -/
theorem mayWait_bar (c : Dev nD) :
    (levAts L lv : sProp 𝕄) ⊢ MayWait (c : Thread nD τ) (.reg barS) () (OR0 c) :=
  MayOwe.of_cut (L := L) (lev := lv) 1 (fun p hp => by rw [Finset.mem_singleton.mp hp, L_tc]; exact Finset.mem_singleton_self _)
    (fun g u hg => by obtain ⟨j, rfl⟩ := OR0_pos hg; exact Finset.mem_singleton_self _)
    (fun p hp => by rw [Finset.mem_singleton.mp hp]; exact Nat.le_refl _)
    (fun g u hg => by obtain ⟨j, rfl⟩ := OR0_pos hg; rw [lv_recv]; decide)

end Cert.KernelIdeal.Proto

end
-- ==== Proof.Cells.lean ====
/-
  The exchange's cells as one family, and the table's rows as element sets.

  Each device has fifteen cells: its entry cell, seven send cells and seven receive cells. Row `d` of the 8 × 1024
  table is the set of its entries whose first coordinate is `d`; the eight rows are pairwise disjoint and cover the table.
-/
import proofs.«900465_g7700000000000466_dist_rmsnorm_colshard_i_m1024_n512_v7x_i8_bf16_1_alg».proof.Proof.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The fifteen cells of a device -/

/-- 0: the entry cell; 1 + j: send cell `j`; 8 + j: receive cell `j`. -/
abbrev csem : Fin 15 → SemLoc sig := fun | 0 => .reg barS | 1 => .dma (sendS 0) | 2 => .dma (sendS 1) | 3 => .dma (sendS 2) | 4 => .dma (sendS 3) | 5 => .dma (sendS 4) | 6 => .dma (sendS 5) | 7 => .dma (sendS 6) | 8 => .dma (recvS 0) | 9 => .dma (recvS 1) | 10 => .dma (recvS 2) | 11 => .dma (recvS 3) | 12 => .dma (recvS 4) | 13 => .dma (recvS 5) | 14 => .dma (recvS 6)
abbrev kcell (ck : Dev nD × Fin 15) : GSem nD τ sig := ((ck.1 : Thread nD τ), csem ck.2)

theorem csem_injective : Function.Injective csem := by decide
theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The kernel's own (scoped) semaphores, as the launch indexes them: the seven send and seven receive semaphores. -/
abbrev osem : Fin 14 → SemLoc sig := fun k => csem ⟨k.val + 1, by omega⟩

/-! ## The rows -/

/-- Row `d` as a set of the table's entries. -/
abbrev rowSet (d : Dev nD) : Finset (cc0_scratch0 : Ref sig .tc).ty.Idx := (rowM d).view.set

theorem row_set (d : Dev nD) :
    ((rowM d).view.set : Finset (cc0_scratch0 : Ref sig .tc).ty.Idx) = (Rect.unit (s := S8x1024) (k0_off2 d) S1x1024.size (k0_off2_inb d)).set :=
  View.set_slice_whole _ _

/-- Row `d` is the entries whose first coordinate is `d`. -/
theorem mem_row (d : Dev nD) (i : (cc0_scratch0 : Ref sig .tc).ty.Idx) :
    Iff (i ∈ ((rowM d).view.set : Finset (cc0_scratch0 : Ref sig .tc).ty.Idx)) ((i 0).val = d.val) := by
  rw [row_set, Rect.mem_set_unit, k0_off2_eq]
  constructor
  · intro h
    have h0 := h 0
    simp only [Matrix.cons_val_zero] at h0
    have : S1x1024.size 0 = 1 := rfl
    omega
  · intro h a
    have h1 : (i 1).val < 1024 := (i 1).isLt
    match a with
    | ⟨0, _⟩ => exact ⟨Nat.le_of_eq h.symm, by show (i 0).val < d.val + 1; omega⟩
    | ⟨1, _⟩ => exact ⟨Nat.zero_le _, by show (i 1).val < 0 + 1024; omega⟩

theorem row_disjoint {d d' : Dev nD} (h : d ≠ d') :
    Disjoint ((rowM d).view.set : Finset (cc0_scratch0 : Ref sig .tc).ty.Idx) ((rowM d').view.set : Finset (cc0_scratch0 : Ref sig .tc).ty.Idx) :=
  Finset.disjoint_left.mpr fun i hi hi' => h (Fin.ext (((mem_row d i).mp hi).symm.trans ((mem_row d' i).mp hi')))

/-- Every entry of the table lies in the row its first coordinate names. -/
theorem mem_own_row (i : (cc0_scratch0 : Ref sig .tc).ty.Idx) :
    i ∈ ((rowM (i 0)).view.set : Finset (cc0_scratch0 : Ref sig .tc).ty.Idx) := (mem_row (i 0) i).mpr rfl

theorem rows_cover : (Finset.univ : Finset (Dev nD)).biUnion rowSet = Finset.univ :=
  Finset.eq_univ_of_forall fun i => Finset.mem_biUnion.mpr ⟨i 0, Finset.mem_univ _, mem_own_row i⟩

end Cert.KernelIdeal.Proto

end
-- ==== Proof.Ghost.lean ====
/-
  What a device's body starts from and ends with.

  Device `c` opens the invariants of its own fifteen cells and of the fourteen cells of other devices it pays (the
  entry cell and one receive cell of each of its seven peers); it holds its positions at round 0 of its own cells and
  the twenty-one tokens of the duties it pays: seven entry units, seven landings, seven ends of reading. From the launch
  it has the credit others owe its entry cell (seven units) and its seven receive cells (one row's worth each).
-/
import proofs.«900465_g7700000000000466_dist_rmsnorm_colshard_i_m1024_n512_v7x_i8_bf16_1_alg».proof.Proof.Cells

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The table, whole -/

def scrPts (c : Dev nD) (f : Buf (Elt F) (cM.view.loc (c : Thread nD τ))) : sProp 𝕄 :=
  cM.view.loc (c : Thread nD τ) ↦[cM.view.set]{fullShare} f

omit [FloatOps F] in
theorem scr_set : (cM : Memref sig .tc .vmem S8x1024 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-! ## The ghost state of device `c`, under the names `K` the launch allocated the cells at -/

section Ghost
variable (K : Dev nD × Fin 15 → ℕ) (c : Dev nD)

/-- What it knows for good: the invariants it opens and the rounds it knows reached. -/
def pers : sProp 𝕄 :=
  iprop(cellInv ER (exRd m) (K (c, 0)) (barCell c)
    ∗ cellInv ER (exRd m) (K (c, 1)) (sendCell 0 c)
    ∗ cellInv ER (exRd m) (K (c, 2)) (sendCell 1 c)
    ∗ cellInv ER (exRd m) (K (c, 3)) (sendCell 2 c)
    ∗ cellInv ER (exRd m) (K (c, 4)) (sendCell 3 c)
    ∗ cellInv ER (exRd m) (K (c, 5)) (sendCell 4 c)
    ∗ cellInv ER (exRd m) (K (c, 6)) (sendCell 5 c)
    ∗ cellInv ER (exRd m) (K (c, 7)) (sendCell 6 c)
    ∗ cellInv ER (exRd m) (K (c, 8)) (recvCell 0 c)
    ∗ cellInv ER (exRd m) (K (c, 9)) (recvCell 1 c)
    ∗ cellInv ER (exRd m) (K (c, 10)) (recvCell 2 c)
    ∗ cellInv ER (exRd m) (K (c, 11)) (recvCell 3 c)
    ∗ cellInv ER (exRd m) (K (c, 12)) (recvCell 4 c)
    ∗ cellInv ER (exRd m) (K (c, 13)) (recvCell 5 c)
    ∗ cellInv ER (exRd m) (K (c, 14)) (recvCell 6 c)
    ∗ cellInv ER (exRd m) (K (tgt 0 c, 0)) (barCell (tgt 0 c))
    ∗ cellInv ER (exRd m) (K (tgt 1 c, 0)) (barCell (tgt 1 c))
    ∗ cellInv ER (exRd m) (K (tgt 2 c, 0)) (barCell (tgt 2 c))
    ∗ cellInv ER (exRd m) (K (tgt 3 c, 0)) (barCell (tgt 3 c))
    ∗ cellInv ER (exRd m) (K (tgt 4 c, 0)) (barCell (tgt 4 c))
    ∗ cellInv ER (exRd m) (K (tgt 5 c, 0)) (barCell (tgt 5 c))
    ∗ cellInv ER (exRd m) (K (tgt 6 c, 0)) (barCell (tgt 6 c))
    ∗ cellInv ER (exRd m) (K (tgt 0 c, 8)) (recvCell 0 (tgt 0 c))
    ∗ cellInv ER (exRd m) (K (tgt 1 c, 9)) (recvCell 1 (tgt 1 c))
    ∗ cellInv ER (exRd m) (K (tgt 2 c, 10)) (recvCell 2 (tgt 2 c))
    ∗ cellInv ER (exRd m) (K (tgt 3 c, 11)) (recvCell 3 (tgt 3 c))
    ∗ cellInv ER (exRd m) (K (tgt 4 c, 12)) (recvCell 4 (tgt 4 c))
    ∗ cellInv ER (exRd m) (K (tgt 5 c, 13)) (recvCell 5 (tgt 5 c))
    ∗ cellInv ER (exRd m) (K (tgt 6 c, 14)) (recvCell 6 (tgt 6 c))
    ∗ reached ER (barCell (tgt 0 c)) 0
    ∗ reached ER (barCell (tgt 1 c)) 0
    ∗ reached ER (barCell (tgt 2 c)) 0
    ∗ reached ER (barCell (tgt 3 c)) 0
    ∗ reached ER (barCell (tgt 4 c)) 0
    ∗ reached ER (barCell (tgt 5 c)) 0
    ∗ reached ER (barCell (tgt 6 c)) 0
    ∗ reached ER (recvCell 0 (tgt 0 c)) 0
    ∗ reached ER (recvCell 1 (tgt 1 c)) 0
    ∗ reached ER (recvCell 2 (tgt 2 c)) 0
    ∗ reached ER (recvCell 3 (tgt 3 c)) 0
    ∗ reached ER (recvCell 4 (tgt 4 c)) 0
    ∗ reached ER (recvCell 5 (tgt 5 c)) 0
    ∗ reached ER (recvCell 6 (tgt 6 c)) 0
    ∗ reached ER (sendCell 0 c) 0
    ∗ reached ER (sendCell 1 c) 0
    ∗ reached ER (sendCell 2 c) 0
    ∗ reached ER (sendCell 3 c) 0
    ∗ reached ER (sendCell 4 c) 0
    ∗ reached ER (sendCell 5 c) 0
    ∗ reached ER (sendCell 6 c) 0
    ∗ reached ER (recvCell 0 c) 0
    ∗ reached ER (recvCell 1 c) 0
    ∗ reached ER (recvCell 2 c) 0
    ∗ reached ER (recvCell 3 c) 0
    ∗ reached ER (recvCell 4 c) 0
    ∗ reached ER (recvCell 5 c) 0
    ∗ reached ER (recvCell 6 c) 0)

instance pers_persistent : BI.Persistent (pers m K c) := by unfold pers; infer_instance

/-- What it holds: its positions and the tokens of the duties it pays. -/
def lin : sProp 𝕄 :=
  iprop(atPos ER (barCell c) 0 ∅ 0
    ∗ atPos ER (sendCell 0 c) 0 ∅ 0
    ∗ atPos ER (sendCell 1 c) 0 ∅ 0
    ∗ atPos ER (sendCell 2 c) 0 ∅ 0
    ∗ atPos ER (sendCell 3 c) 0 ∅ 0
    ∗ atPos ER (sendCell 4 c) 0 ∅ 0
    ∗ atPos ER (sendCell 5 c) 0 ∅ 0
    ∗ atPos ER (sendCell 6 c) 0 ∅ 0
    ∗ atPos ER (recvCell 0 c) 0 ∅ 0
    ∗ atPos ER (recvCell 1 c) 0 ∅ 0
    ∗ atPos ER (recvCell 2 c) 0 ∅ 0
    ∗ atPos ER (recvCell 3 c) 0 ∅ 0
    ∗ atPos ER (recvCell 4 c) 0 ∅ 0
    ∗ atPos ER (recvCell 5 c) 0 ∅ 0
    ∗ atPos ER (recvCell 6 c) 0 ∅ 0
    ∗ dutyTok ER (barCell (tgt 0 c)) 0 (0 : Fin 7)
    ∗ dutyTok ER (barCell (tgt 1 c)) 0 (1 : Fin 7)
    ∗ dutyTok ER (barCell (tgt 2 c)) 0 (2 : Fin 7)
    ∗ dutyTok ER (barCell (tgt 3 c)) 0 (3 : Fin 7)
    ∗ dutyTok ER (barCell (tgt 4 c)) 0 (4 : Fin 7)
    ∗ dutyTok ER (barCell (tgt 5 c)) 0 (5 : Fin 7)
    ∗ dutyTok ER (barCell (tgt 6 c)) 0 (6 : Fin 7)
    ∗ dutyTok ER (recvCell 0 (tgt 0 c)) 0 (0 : Fin 7)
    ∗ dutyTok ER (recvCell 1 (tgt 1 c)) 0 (0 : Fin 7)
    ∗ dutyTok ER (recvCell 2 (tgt 2 c)) 0 (0 : Fin 7)
    ∗ dutyTok ER (recvCell 3 (tgt 3 c)) 0 (0 : Fin 7)
    ∗ dutyTok ER (recvCell 4 (tgt 4 c)) 0 (0 : Fin 7)
    ∗ dutyTok ER (recvCell 5 (tgt 5 c)) 0 (0 : Fin 7)
    ∗ dutyTok ER (recvCell 6 (tgt 6 c)) 0 (0 : Fin 7)
    ∗ dutyTok ER (sendCell 0 c) 0 (0 : Fin 7)
    ∗ dutyTok ER (sendCell 1 c) 0 (0 : Fin 7)
    ∗ dutyTok ER (sendCell 2 c) 0 (0 : Fin 7)
    ∗ dutyTok ER (sendCell 3 c) 0 (0 : Fin 7)
    ∗ dutyTok ER (sendCell 4 c) 0 (0 : Fin 7)
    ∗ dutyTok ER (sendCell 5 c) 0 (0 : Fin 7)
    ∗ dutyTok ER (sendCell 6 c) 0 (0 : Fin 7))

def ghost : sProp 𝕄 := iprop(pers m K c ∗ lin (F := F) c)

/-- The credit the launch hands it. -/
def credsOf : sProp 𝕄 :=
  iprop(cred (tallyAt (barCell c) () 7) ∗ cred (tallyAt (recvCell 0 c) () N) ∗ cred (tallyAt (recvCell 1 c) () N) ∗ cred (tallyAt (recvCell 2 c) () N) ∗ cred (tallyAt (recvCell 3 c) () N) ∗ cred (tallyAt (recvCell 4 c) () N) ∗ cred (tallyAt (recvCell 5 c) () N) ∗ cred (tallyAt (recvCell 6 c) () N))

end Ghost

/-- What device `c`'s body starts from: the ghost state at some names, its credit, the level facts; -/
def start (c : Dev nD) : sProp 𝕄 := iprop((∃ K, ghost m K c) ∗ credsOf (F := F) c ∗ levAts L lv)
/-- with the table, at whatever it holds: before the point. -/
def Φ₀ (c : Dev nD) : sProp 𝕄 := iprop(start m c ∗ ∃ f, scrPts c f)
/-- After the point: the table back whole, the fourteen own cells at zero, closed. -/
def Φ₁ (c : Dev nD) : sProp 𝕄 :=
  iprop((∃ f, scrPts (F := F) c f) ∗ semVal (sendCell 0 c) 0 ∗ semVal (sendCell 1 c) 0 ∗ semVal (sendCell 2 c) 0 ∗ semVal (sendCell 3 c) 0 ∗ semVal (sendCell 4 c) 0 ∗ semVal (sendCell 5 c) 0 ∗ semVal (sendCell 6 c) 0 ∗ semVal (recvCell 0 c) 0 ∗ semVal (recvCell 1 c) 0 ∗ semVal (recvCell 2 c) 0 ∗ semVal (recvCell 3 c) 0 ∗ semVal (recvCell 4 c) 0 ∗ semVal (recvCell 5 c) 0 ∗ semVal (recvCell 6 c) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m c
    | ⟨1, _⟩ => gblk m c
    | ⟨2, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

end Cert.KernelIdeal.Proto

end
-- ==== Proof.Deal.lean ====
/-
  The ghost state of the exchange at launch, and how it is dealt to the devices.

  The exchange has fifteen cells on each of the eight devices: an entry cell, seven send cells, seven receive cells.
  Round 0 of an entry cell has seven duties, one per peer; round 0 of a send or receive cell has one. The launch mints,
  for every cell, its round state at counter zero, its owner's position and the mark that round 0 is reached, and for
  every duty its token. A duty's token is minted with the cell it is paid to, so it starts with that cell's owner; the
  device that pays the duty is another one — duty `j` of the entry cell of device `c` is paid by the device `j + 1`
  places before `c`, and so is the one duty of `c`'s receive cell `j` — so the tokens are passed round the ring:
  for each `j`, by the permutation that moves every device `j + 1` places on.
-/
import proofs.«900465_g7700000000000466_dist_rmsnorm_colshard_i_m1024_n512_v7x_i8_bf16_1_alg».proof.Proof.Ghost
import Idealize.ShloMosaic.Lib.Pipeline.Launch
import Idealize.ShloMosaic.Lib.Pipeline.Kit

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores -/

theorem ownSemFacts : Pipeline.OwnSemFacts cfg0.spec osem := by decide

/-! ## The cells and the duty tokens minted at launch -/

def ringCells : Finset (GSem nD τ sig) := Finset.univ.map ⟨kcell, kcell_injective⟩

/-- The duty tokens minted with device `c`'s own cells, by kind and number: kind 0, the seven duties of its entry
    cell; kind 1, the one duty of its receive cell `j`; kind 2, the one duty of its send cell `j`. -/
abbrev tokOf (x : Dev nD × Fin 3 × Fin 7) : GSem nD τ sig × ℕ × Fin 7 := match x.2.1 with
  | 0 => (barCell x.1, 0, x.2.2) | 1 => (recvCell x.2.2 x.1, 0, 0) | 2 => (sendCell x.2.2 x.1, 0, 0)

theorem tokOf_injective : Function.Injective (tokOf : Dev nD × Fin 3 × Fin 7 → GSem nD τ sig × ℕ × Fin 7) := by
  rintro ⟨c, k, j⟩ ⟨c', k', j'⟩ h
  have h1 : c = c' := by
    have := congrArg (fun x : GSem nD τ sig × ℕ × Fin 7 => x.1.1.1) h
    fin_cases k <;> fin_cases k' <;> exact this
  subst h1
  have hs : (tokOf (c, k, j)).1.2 = (tokOf (c, k', j')).1.2 := congrArg (fun x : GSem nD τ sig × ℕ × Fin 7 => x.1.2) h
  have hd : (tokOf (c, k, j)).2.2 = (tokOf (c, k', j')).2.2 := congrArg (fun x : GSem nD τ sig × ℕ × Fin 7 => x.2.2) h
  fin_cases k <;> fin_cases k'
  · have : j = j' := hd
    subst this; rfl
  · exact absurd hs (fun h' => by cases h')
  · exact absurd hs (fun h' => by cases h')
  · exact absurd hs (fun h' => by cases h')
  · have h3 : recvS j = recvS j' := by injection hs
    have h4 : 10 + j.val = 10 + j'.val := congrArg Fin.val h3
    have : j = j' := Fin.ext (by omega)
    subst this; rfl
  · have h3 : recvS j = sendS j' := by injection hs
    have h4 : 10 + j.val = 3 + j'.val := congrArg Fin.val h3
    have := j'.isLt; omega
  · exact absurd hs (fun h' => by cases h')
  · have h3 : sendS j = recvS j' := by injection hs
    have h4 : 3 + j.val = 10 + j'.val := congrArg Fin.val h3
    have := j.isLt; omega
  · have h3 : sendS j = sendS j' := by injection hs
    have h4 : 3 + j.val = 3 + j'.val := congrArg Fin.val h3
    have : j = j' := Fin.ext (by omega)
    subst this; rfl

def ringToks : Finset (GSem nD τ sig × ℕ × Fin 7) := Finset.univ.map ⟨tokOf, tokOf_injective⟩

/-- The launch element: the pipeline's staging cells and tokens beside the exchange's. -/
def u₀ : UU :=
  (initOf (Pipeline.cells cfgs cellOf_inj) (Pipeline.launchToks cfgs cellOf_inj), initOf ringCells ringToks)

/-- The duty tokens minted with device `c`'s own cells: the seven of its entry cell, the one of each receive cell, the
    one of each send cell. -/
def toks (c : Dev nD) : sProp 𝕄 :=
  iprop((bigSep Finset.univ fun j : Fin 7 => dutyTok ER (barCell c) 0 j)
    ∗ (bigSep Finset.univ fun j : Fin 7 => dutyTok ER (recvCell j c) 0 (0 : Fin 7))
    ∗ (bigSep Finset.univ fun j : Fin 7 => dutyTok ER (sendCell j c) 0 (0 : Fin 7)))

/-- What the launch element deals device `c`: of each of its fifteen cells the round state at counter zero, its
    position and the mark that round 0 is reached; and the duty tokens minted with them. -/
def G (c : Dev nD) : sProp 𝕄 :=
  iprop((bigSep Finset.univ fun k : Fin 15 => roundState ER (exRd m) (kcell (c, k)) 0)
    ∗ (bigSep Finset.univ fun k : Fin 15 => iprop(atPos ER (kcell (c, k)) 0 ∅ 0 ∗ reached ER (kcell (c, k)) 0)) ∗ toks c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- The exchange's half of the launch element is every device's `G`. -/
theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin3]; rfl
  iintro HX
  imod (Rounds.fund ER (exRd m) ringCells ringToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element is the pipeline's own and every device's `G`. -/
theorem hu₀_ok : (ownU u₀ : sProp 𝕄)
    ⊢ |={Set.univ}=> iprop(BI.own (EP (initOf (Pipeline.cells cfgs cellOf_inj) (Pipeline.launchToks cfgs cellOf_inj)))
        ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## The semaphores at zero, one by one -/

omit [FloatOps F] in
/-- The kernel's own fourteen semaphores: the seven send and the seven receive semaphores; -/
theorem ownSems0_eq (c : Dev nD) :
    (Pipeline.ownSems0 (Ix := Unit) (Name := ℕ) (U := UU) (Lvl := ℕ) (Val := Elt F) (τ := τ) osem c : sProp 𝕄)
      = iprop(semVal (sendCell 0 c) 0 ∗ semVal (sendCell 1 c) 0 ∗ semVal (sendCell 2 c) 0 ∗ semVal (sendCell 3 c) 0 ∗ semVal (sendCell 4 c) 0 ∗ semVal (sendCell 5 c) 0 ∗ semVal (sendCell 6 c) 0
          ∗ semVal (recvCell 0 c) 0 ∗ semVal (recvCell 1 c) 0 ∗ semVal (recvCell 2 c) 0 ∗ semVal (recvCell 3 c) 0 ∗ semVal (recvCell 4 c) 0 ∗ semVal (recvCell 5 c) 0 ∗ semVal (recvCell 6 c) 0) := by
  rw [Pipeline.ownSems0_eq_of_list c osem [0, 1, 2, 3, 4, 5, 6, 7, 8, 9, 10, 11, 12, 13] (by decide) (by decide)]; rfl
omit [FloatOps F] in
/-- the entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- info: 'Cert.KernelIdeal.Proto.hu₀_ok' depends on axioms: [propext, Classical.choice, Quot.sound] -/
#guard_msgs in #print axioms hu₀_ok
/-- info: 'Cert.KernelIdeal.Proto.ownSems0_eq' depends on axioms: [propext, Classical.choice, Quot.sound] -/
#guard_msgs in #print axioms ownSems0_eq
/-- info: 'Cert.KernelIdeal.Proto.unscopedSems0_eq' depends on axioms: [propext, Classical.choice, Quot.sound] -/
#guard_msgs in #print axioms unscopedSems0_eq

end Cert.KernelIdeal.Proto

end
-- ==== Proof.DealGlob.lean ====
/-
  The global step of the launch: from every device's counters at zero and its share of the launch element to every
  device's ghost state.

  Each device turns its fifteen counters at zero, with the fifteen round states, into fifteen invariants under fresh
  names. The names of all 8 × 15 cells are then chosen at once, the invariants and the marks that round 0 is reached are
  known to every device for good, and each device takes from them the ones it opens: its own fifteen and, of each of its
  seven peers, the entry cell and one receive cell. The duty tokens, minted with the cells they are paid to, are passed
  round the ring to the devices that pay them, `j + 1` places for the tokens numbered `j`.
-/
import proofs.«900465_g7700000000000466_dist_rmsnorm_colshard_i_m1024_n512_v7x_i8_bf16_1_alg».proof.Proof.Deal

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Small tools -/

omit [FloatOps F] in
/-- From a persistent assertion, both of two consequences at once. -/
theorem pers_sep {R A B : sProp 𝕄} [BI.Persistent R] (h1 : R ⊢ A) (h2 : R ⊢ B) : R ⊢ iprop(A ∗ B) := by
  iintro #H
  isplitr
  · iapply h1; iexact H
  · iapply h2; iexact H

omit [FloatOps F] in
/-- A persistent assertion beside a family is beside every member. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## One device: its fifteen counters at zero and round states become fifteen invariants -/

omit [FloatOps F] in
/-- A device's fifteen semaphores at zero: its own fourteen and the entry semaphore. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_fin15]
  exact BI.sep_comm

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 15 => iprop(∃ κ : ℕ, cellInv ER (exRd m) κ (kcell (c, k))))
          ∗ (bigSep Finset.univ fun k : Fin 15 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (exRd m) (kcell (c, k)) 0)
      ⊢ (|={Set.univ}=> bigSep Finset.univ fun k : Fin 15 => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## All devices: the invariants under chosen names, and the marks, known to everyone -/

/-- Every cell's invariant at its chosen name, and the mark that round 0 of every cell is reached. -/
def records (K : Dev nD × Fin 15 → ℕ) : sProp 𝕄 :=
  iprop((bigSep Finset.univ fun ck : Dev nD × Fin 15 => cellInv ER (exRd m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) :
    (bigSep Finset.univ fun ck : Dev nD × Fin 15 => (cellInv ER (exRd m) (K ck) (kcell ck) : sProp 𝕄))
      ⊢ cellInv ER (exRd m) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

theorem rec_inv (K : Dev nD × Fin 15 → ℕ) (ck : Dev nD × Fin 15) :
    records m K ⊢ cellInv ER (exRd m) (K ck) (kcell ck) := by
  unfold records
  iintro ⟨HI, -⟩
  iapply (inv_at m K ck)
  iexact HI

theorem rec_rch (K : Dev nD × Fin 15 → ℕ) (ck : Dev nD × Fin 15) :
    records m K ⊢ reached ER (kcell ck) 0 := by
  unfold records
  iintro ⟨-, HR⟩
  iapply (reached_at (F := F) ck)
  iexact HR

/-- What device `c` knows for good, out of what everyone knows. -/
theorem pers_of_records (K : Dev nD × Fin 15 → ℕ) (c : Dev nD) : records m K ⊢ pers m K c := by
  unfold pers
  exact pers_sep (rec_inv m K (c, 0)) <|
    pers_sep (rec_inv m K (c, 1)) <|
    pers_sep (rec_inv m K (c, 2)) <|
    pers_sep (rec_inv m K (c, 3)) <|
    pers_sep (rec_inv m K (c, 4)) <|
    pers_sep (rec_inv m K (c, 5)) <|
    pers_sep (rec_inv m K (c, 6)) <|
    pers_sep (rec_inv m K (c, 7)) <|
    pers_sep (rec_inv m K (c, 8)) <|
    pers_sep (rec_inv m K (c, 9)) <|
    pers_sep (rec_inv m K (c, 10)) <|
    pers_sep (rec_inv m K (c, 11)) <|
    pers_sep (rec_inv m K (c, 12)) <|
    pers_sep (rec_inv m K (c, 13)) <|
    pers_sep (rec_inv m K (c, 14)) <|
    pers_sep (rec_inv m K (tgt 0 c, 0)) <|
    pers_sep (rec_inv m K (tgt 1 c, 0)) <|
    pers_sep (rec_inv m K (tgt 2 c, 0)) <|
    pers_sep (rec_inv m K (tgt 3 c, 0)) <|
    pers_sep (rec_inv m K (tgt 4 c, 0)) <|
    pers_sep (rec_inv m K (tgt 5 c, 0)) <|
    pers_sep (rec_inv m K (tgt 6 c, 0)) <|
    pers_sep (rec_inv m K (tgt 0 c, 8)) <|
    pers_sep (rec_inv m K (tgt 1 c, 9)) <|
    pers_sep (rec_inv m K (tgt 2 c, 10)) <|
    pers_sep (rec_inv m K (tgt 3 c, 11)) <|
    pers_sep (rec_inv m K (tgt 4 c, 12)) <|
    pers_sep (rec_inv m K (tgt 5 c, 13)) <|
    pers_sep (rec_inv m K (tgt 6 c, 14)) <|
    pers_sep (rec_rch m K (tgt 0 c, 0)) <|
    pers_sep (rec_rch m K (tgt 1 c, 0)) <|
    pers_sep (rec_rch m K (tgt 2 c, 0)) <|
    pers_sep (rec_rch m K (tgt 3 c, 0)) <|
    pers_sep (rec_rch m K (tgt 4 c, 0)) <|
    pers_sep (rec_rch m K (tgt 5 c, 0)) <|
    pers_sep (rec_rch m K (tgt 6 c, 0)) <|
    pers_sep (rec_rch m K (tgt 0 c, 8)) <|
    pers_sep (rec_rch m K (tgt 1 c, 9)) <|
    pers_sep (rec_rch m K (tgt 2 c, 10)) <|
    pers_sep (rec_rch m K (tgt 3 c, 11)) <|
    pers_sep (rec_rch m K (tgt 4 c, 12)) <|
    pers_sep (rec_rch m K (tgt 5 c, 13)) <|
    pers_sep (rec_rch m K (tgt 6 c, 14)) <|
    pers_sep (rec_rch m K (c, 1)) <|
    pers_sep (rec_rch m K (c, 2)) <|
    pers_sep (rec_rch m K (c, 3)) <|
    pers_sep (rec_rch m K (c, 4)) <|
    pers_sep (rec_rch m K (c, 5)) <|
    pers_sep (rec_rch m K (c, 6)) <|
    pers_sep (rec_rch m K (c, 7)) <|
    pers_sep (rec_rch m K (c, 8)) <|
    pers_sep (rec_rch m K (c, 9)) <|
    pers_sep (rec_rch m K (c, 10)) <|
    pers_sep (rec_rch m K (c, 11)) <|
    pers_sep (rec_rch m K (c, 12)) <|
    pers_sep (rec_rch m K (c, 13)) <|
    rec_rch m K (c, 14)

/-! ## The tokens a device pays, and passing the minted tokens round the ring -/

/-- The tokens of the duties device `c` pays: duty `j` of the entry cell of the device `j + 1` places on, the duty of
    that device's receive cell `j`, and the duty of its own send cell `j`. -/
def payToks (c : Dev nD) : sProp 𝕄 :=
  iprop((dutyTok ER (barCell (tgt 0 c)) 0 (0 : Fin 7) ∗ dutyTok ER (barCell (tgt 1 c)) 0 (1 : Fin 7) ∗ dutyTok ER (barCell (tgt 2 c)) 0 (2 : Fin 7) ∗ dutyTok ER (barCell (tgt 3 c)) 0 (3 : Fin 7) ∗ dutyTok ER (barCell (tgt 4 c)) 0 (4 : Fin 7) ∗ dutyTok ER (barCell (tgt 5 c)) 0 (5 : Fin 7) ∗ dutyTok ER (barCell (tgt 6 c)) 0 (6 : Fin 7))
    ∗ (dutyTok ER (recvCell 0 (tgt 0 c)) 0 (0 : Fin 7) ∗ dutyTok ER (recvCell 1 (tgt 1 c)) 0 (0 : Fin 7) ∗ dutyTok ER (recvCell 2 (tgt 2 c)) 0 (0 : Fin 7) ∗ dutyTok ER (recvCell 3 (tgt 3 c)) 0 (0 : Fin 7) ∗ dutyTok ER (recvCell 4 (tgt 4 c)) 0 (0 : Fin 7) ∗ dutyTok ER (recvCell 5 (tgt 5 c)) 0 (0 : Fin 7) ∗ dutyTok ER (recvCell 6 (tgt 6 c)) 0 (0 : Fin 7))
    ∗ (dutyTok ER (sendCell 0 c) 0 (0 : Fin 7) ∗ dutyTok ER (sendCell 1 c) 0 (0 : Fin 7) ∗ dutyTok ER (sendCell 2 c) 0 (0 : Fin 7) ∗ dutyTok ER (sendCell 3 c) 0 (0 : Fin 7) ∗ dutyTok ER (sendCell 4 c) 0 (0 : Fin 7) ∗ dutyTok ER (sendCell 5 c) 0 (0 : Fin 7) ∗ dutyTok ER (sendCell 6 c) 0 (0 : Fin 7)))

/-- What stays with device `c`: its fifteen positions and the tokens it pays. -/
def linear (c : Dev nD) : sProp 𝕄 :=
  iprop((bigSep Finset.univ fun k : Fin 15 => atPos ER (kcell (c, k)) 0 ∅ 0) ∗ payToks c)

omit [FloatOps F] in
theorem lin_of_linear (c : Dev nD) : linear (F := F) c ⊢ lin (F := F) c := by
  unfold linear payToks lin
  rw [bigSep_fin15]
  iintro ⟨⟨P0, P1, P2, P3, P4, P5, P6, P7, P8, P9, P10, P11, P12, P13, P14⟩, ⟨B0, B1, B2, B3, B4, B5, B6⟩, ⟨R0, R1, R2, R3, R4, R5, R6⟩, S0, S1, S2, S3, S4, S5, S6⟩
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [P13]; · iexact P13
  isplitl [P14]; · iexact P14
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [S0]; · iexact S0
  isplitl [S1]; · iexact S1
  isplitl [S2]; · iexact S2
  isplitl [S3]; · iexact S3
  isplitl [S4]; · iexact S4
  isplitl [S5]; · iexact S5
  iexact S6

theorem ghost_intro (K : Dev nD × Fin 15 → ℕ) (c : Dev nD) :
    iprop(records m K ∗ linear (F := F) c) ⊢ iprop(∃ K, ghost m K c) := by
  unfold ghost
  iintro ⟨#HR, HL⟩
  iexists K
  isplitr
  · iapply (pers_of_records m K c); iexact HR
  · iapply (lin_of_linear (F := F) c); iexact HL

/-- The minted tokens of a device, one by one. -/
theorem toks_eq (c : Dev nD) :
    (toks c : sProp 𝕄) = iprop((dutyTok ER (barCell c) 0 (0 : Fin 7) ∗ dutyTok ER (barCell c) 0 (1 : Fin 7) ∗ dutyTok ER (barCell c) 0 (2 : Fin 7) ∗ dutyTok ER (barCell c) 0 (3 : Fin 7) ∗ dutyTok ER (barCell c) 0 (4 : Fin 7) ∗ dutyTok ER (barCell c) 0 (5 : Fin 7) ∗ dutyTok ER (barCell c) 0 (6 : Fin 7))
      ∗ (dutyTok ER (recvCell 0 c) 0 (0 : Fin 7) ∗ dutyTok ER (recvCell 1 c) 0 (0 : Fin 7) ∗ dutyTok ER (recvCell 2 c) 0 (0 : Fin 7) ∗ dutyTok ER (recvCell 3 c) 0 (0 : Fin 7) ∗ dutyTok ER (recvCell 4 c) 0 (0 : Fin 7) ∗ dutyTok ER (recvCell 5 c) 0 (0 : Fin 7) ∗ dutyTok ER (recvCell 6 c) 0 (0 : Fin 7))
      ∗ (dutyTok ER (sendCell 0 c) 0 (0 : Fin 7) ∗ dutyTok ER (sendCell 1 c) 0 (0 : Fin 7) ∗ dutyTok ER (sendCell 2 c) 0 (0 : Fin 7) ∗ dutyTok ER (sendCell 3 c) 0 (0 : Fin 7) ∗ dutyTok ER (sendCell 4 c) 0 (0 : Fin 7) ∗ dutyTok ER (sendCell 5 c) 0 (0 : Fin 7) ∗ dutyTok ER (sendCell 6 c) 0 (0 : Fin 7))) := by
  unfold toks
  rw [bigSep_fin7, bigSep_fin7, bigSep_fin7]

/-- Each device hands on, for every `j`, the token of duty `j` of its entry cell and the token of its receive cell `j`
    to the device `j + 1` places before it: read from the payer's side, device `c` gets those of the device `j + 1`
    places on. The send tokens stay. -/
theorem toks_around :
    (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  rw [bigSep_univ_equiv (ring 0) (fun c : Dev nD => (dutyTok ER (barCell c) 0 (0 : Fin 7) : sProp 𝕄)),
    bigSep_univ_equiv (ring 1) (fun c : Dev nD => (dutyTok ER (barCell c) 0 (1 : Fin 7) : sProp 𝕄)),
    bigSep_univ_equiv (ring 2) (fun c : Dev nD => (dutyTok ER (barCell c) 0 (2 : Fin 7) : sProp 𝕄)),
    bigSep_univ_equiv (ring 3) (fun c : Dev nD => (dutyTok ER (barCell c) 0 (3 : Fin 7) : sProp 𝕄)),
    bigSep_univ_equiv (ring 4) (fun c : Dev nD => (dutyTok ER (barCell c) 0 (4 : Fin 7) : sProp 𝕄)),
    bigSep_univ_equiv (ring 5) (fun c : Dev nD => (dutyTok ER (barCell c) 0 (5 : Fin 7) : sProp 𝕄)),
    bigSep_univ_equiv (ring 6) (fun c : Dev nD => (dutyTok ER (barCell c) 0 (6 : Fin 7) : sProp 𝕄)),
    bigSep_univ_equiv (ring 0) (fun c : Dev nD => (dutyTok ER (recvCell 0 c) 0 (0 : Fin 7) : sProp 𝕄)),
    bigSep_univ_equiv (ring 1) (fun c : Dev nD => (dutyTok ER (recvCell 1 c) 0 (0 : Fin 7) : sProp 𝕄)),
    bigSep_univ_equiv (ring 2) (fun c : Dev nD => (dutyTok ER (recvCell 2 c) 0 (0 : Fin 7) : sProp 𝕄)),
    bigSep_univ_equiv (ring 3) (fun c : Dev nD => (dutyTok ER (recvCell 3 c) 0 (0 : Fin 7) : sProp 𝕄)),
    bigSep_univ_equiv (ring 4) (fun c : Dev nD => (dutyTok ER (recvCell 4 c) 0 (0 : Fin 7) : sProp 𝕄)),
    bigSep_univ_equiv (ring 5) (fun c : Dev nD => (dutyTok ER (recvCell 5 c) 0 (0 : Fin 7) : sProp 𝕄)),
    bigSep_univ_equiv (ring 6) (fun c : Dev nD => (dutyTok ER (recvCell 6 c) 0 (0 : Fin 7) : sProp 𝕄))]
  exact .rfl

/-! ## The global step -/

theorem regroup :
    (bigSep Finset.univ fun c : Dev nD => iprop((bigSep Finset.univ fun k : Fin 15 => iprop(∃ κ : ℕ, cellInv ER (exRd m) κ (kcell (c, k))))
          ∗ (bigSep Finset.univ fun k : Fin 15 => iprop(atPos ER (kcell (c, k)) 0 ∅ 0 ∗ reached ER (kcell (c, k)) 0)) ∗ toks c) : sProp 𝕄)
      ⊢ bigSep Finset.univ (fun c => iprop(∃ K, ghost m K c)) := by
  rw [bigSep_sep', bigSep_sep', ← bigSep_univ_prod (fun ck : Dev nD × Fin 15 => iprop(∃ κ : ℕ, cellInv ER (exRd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (exRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 15 => (atPos ER (kcell (c, k)) 0 ∅ 0 : sProp 𝕄)) payToks).symm)
    isplitl [Hat]; · iexact Hat
    iexact Htk

/-- From every device's semaphores at zero and its share of the launch element: every device's ghost state, under names
    chosen for all the cells at once. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (fun c => iprop(∃ K, ghost m K c)) :=
  ((bigSep_mono fun c _ => core_alloc m c).trans (bigSep_fupd _ _)).trans (BI.fupd_mono (regroup m))

/-- info: 'Cert.KernelIdeal.Proto.glob' depends on axioms: [propext, Classical.choice, Quot.sound] -/
#guard_msgs in #print axioms glob

end Cert.KernelIdeal.Proto

end
-- ==== Proof.LaunchCred.lean ====
/-
  The credit each device is dealt at launch for what the others owe its cells.

  At launch device `d` owes, for each `j` of the seven, one unit to the entry cell of the device `j + 1` places further
  round the ring and a row's credit to that device's receive cell `j`. Going round the ring by `j + 1` places is a
  permutation of the devices, so for each `j` exactly one device owes device `c`'s entry cell a unit and exactly one
  owes its receive cell `j` a row's credit: `c` is dealt seven units on its entry cell and one row's credit on each of
  its seven receive cells.
-/
import proofs.«900465_g7700000000000466_dist_rmsnorm_colshard_i_m1024_n512_v7x_i8_bf16_1_alg».proof.Proof.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One summand at a time -/

/-- The row's credit every device owes on copy `j` reaches device `c` as one row's credit on its receive cell `j`. -/
theorem cred_recv (j : Fin 7) (c : Dev nD) :
    (Pipeline.launchCred (fun d => rT d j) c : sProp 𝕄) ⊢ cred (tallyAt (recvCell j c) () N) :=
  Pipeline.launchCred_tallyAt (.dma (recvS j)) (tgt j) (src j) (tgt_src j) (src_tgt j) () N c

/-- The unit every device owes on signal `j` reaches device `c` as one unit on its entry cell. -/
theorem cred_bar1 (j : Fin 7) (c : Dev nD) :
    (Pipeline.launchCred (fun d => bT d j) c : sProp 𝕄) ⊢ cred (tallyAt (barCell c) () 1) :=
  Pipeline.launchCred_tallyAt (.reg barS) (tgt j) (src j) (tgt_src j) (src_tgt j) () 1 c

/-! ## Seven units on one cell are one credit of seven -/

/-- One more unit on a cell. -/
theorem cred_unit_add (g : GSem nD τ sig) (k : ℕ) :
    (iprop(cred (tallyAt g () 1) ∗ cred (tallyAt g () k)) : sProp 𝕄) ⊢ cred (tallyAt g () (1 + k)) :=
  (cred_add _ _).2.trans (Entails.of_eq (congrArg cred (tallyAt_add g () 1 k)))

/-- Seven units on a cell, held one by one, are the cell's credit of seven. -/
theorem cred_seven (g : GSem nD τ sig) :
    (iprop(cred (tallyAt g () 1) ∗ cred (tallyAt g () 1) ∗ cred (tallyAt g () 1) ∗ cred (tallyAt g () 1)
        ∗ cred (tallyAt g () 1) ∗ cred (tallyAt g () 1) ∗ cred (tallyAt g () 1)) : sProp 𝕄)
      ⊢ cred (tallyAt g () 7) := by
  refine (sep_mono_r <| sep_mono_r <| sep_mono_r <| sep_mono_r <| sep_mono_r (cred_unit_add g 1)).trans ?_
  refine (sep_mono_r <| sep_mono_r <| sep_mono_r <| sep_mono_r (cred_unit_add g 2)).trans ?_
  refine (sep_mono_r <| sep_mono_r <| sep_mono_r (cred_unit_add g 3)).trans ?_
  refine (sep_mono_r <| sep_mono_r (cred_unit_add g 4)).trans ?_
  refine (sep_mono_r (cred_unit_add g 5)).trans ?_
  exact cred_unit_add g 6

/-! ## The launch credit of a device -/

/-- Device `c` is dealt, at launch, seven units on its entry cell and a row's credit on each of its receive cells. -/
theorem creds (c : Dev nD) :
    (Pipeline.launchCred O₀ c : sProp 𝕄) ⊢
      iprop(cred (tallyAt (barCell c) () 7) ∗ cred (tallyAt (recvCell 0 c) () N) ∗ cred (tallyAt (recvCell 1 c) () N)
        ∗ cred (tallyAt (recvCell 2 c) () N) ∗ cred (tallyAt (recvCell 3 c) () N) ∗ cred (tallyAt (recvCell 4 c) () N)
        ∗ cred (tallyAt (recvCell 5 c) () N) ∗ cred (tallyAt (recvCell 6 c) () N)) := by
  have hO : (O₀ : Dev nD → CellTallies nD τ sig Unit)
      = fun d => (∑ j : Fin 7, rT d j) + ∑ j : Fin 7, bT d j := funext O₀_eq
  rw [hO, Pipeline.launchCred_add, Pipeline.launchCred_sum Finset.univ (fun j d => rT d j) c,
    Pipeline.launchCred_sum Finset.univ (fun j d => bT d j) c, bigSep_fin7, bigSep_fin7]
  refine (BI.sep_mono ?_ ?_).trans BI.sep_comm
  · exact BI.sep_mono (cred_recv 0 c) <| BI.sep_mono (cred_recv 1 c) <| BI.sep_mono (cred_recv 2 c) <|
      BI.sep_mono (cred_recv 3 c) <| BI.sep_mono (cred_recv 4 c) <| BI.sep_mono (cred_recv 5 c) (cred_recv 6 c)
  · exact (BI.sep_mono (cred_bar1 0 c) <| BI.sep_mono (cred_bar1 1 c) <| BI.sep_mono (cred_bar1 2 c) <|
      BI.sep_mono (cred_bar1 3 c) <| BI.sep_mono (cred_bar1 4 c) <| BI.sep_mono (cred_bar1 5 c) (cred_bar1 6 c)).trans
      (cred_seven (barCell c))

/-- info: 'Cert.KernelIdeal.Proto.creds' depends on axioms: [propext, Classical.choice, Quot.sound] -/
#guard_msgs in #print axioms creds

end Cert.KernelIdeal.Proto

end
-- ==== Proof.Launch.lean ====
/-
  The launch: from the body's obligation on each device to the run of the whole program.

  Given that each device's body, started from its ghost state, its launch credit and its table at whatever it holds,
  ends with the table back whole and its own fourteen semaphores at zero, every weakly fair execution of the eight
  devices terminates; each device's result array then holds what its body left in the output block — the block scaled
  by the scale vector and by the reciprocal root of the mean square over all eight blocks — and its two argument arrays
  hold what they held.
-/
import proofs.«900465_g7700000000000466_dist_rmsnorm_colshard_i_m1024_n512_v7x_i8_bf16_1_alg».proof.Proof.DealGlob
import proofs.«900465_g7700000000000466_dist_rmsnorm_colshard_i_m1024_n512_v7x_i8_bf16_1_alg».proof.Proof.LaunchCred

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The theorem's side conditions -/

theorem share_eq (c : Dev nD) (w : Fin cfg0.W) : (dats m ρ 0 c).share w = fullShare := by unfold Dat.share; split <;> rfl

/-- What a device's body starts from, out of what the launch hands it: its ghost state, its credit, the level facts. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(start m c ∗ emp) := by
  iintro ⟨-, Hlev, Hcr, -, HG⟩
  ihave Hc := (creds (F := F) c) $$ Hcr
  imodintro
  unfold start credsOf
  isplitl
  · isplitl [HG]; · iexact HG
    isplitl [Hc]; · iexact Hc
    iexact Hlev
  · iempintro

/-- Before the one point: the start and the table, at whatever it holds. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; rw [scrPts_eq]; iexact Hr

/-- After it: the kernel's own semaphores at zero and the table back. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hr⟩, Hs⟩
  isplitr; · iempintro
  isplitl [Hs]; · iexact Hs
  iexists f; rw [← scrPts_eq]; iexact Hr

/-- The pipeline's own waits, on its staging cells, sit below everything a device can owe. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- Each window's array after the run, as the pipeline's proof data computes it. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: if each device's
    body meets its obligation, every weakly fair execution of @main terminates, and every final state has each
    device's three arrays at the computed contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := fun c => iprop(∃ K, ghost m K c)) (u₀ := u₀)
    (hu₀ := hu₀_ok m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Proto.run_main' depends on axioms: [propext, Classical.choice, Quot.sound] -/
#guard_msgs in #print axioms run_main

end Cert.KernelIdeal.Proto

end
-- ==== Proof.LaunchPost.lean ====
/-
  The final arrays of the run, read.

  The kernel has no grid: each of its three windows is its whole array. So the two argument arrays are never written
  and end as they began, a device's block of an argument is the array its buffer holds, and the result array ends
  holding what the body left in the output staging block, written back whole at the one point.
-/
import proofs.«900465_g7700000000000466_dist_rmsnorm_colshard_i_m1024_n512_v7x_i8_bf16_1_alg».proof.Proof.Launch

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The argument arrays -/

/-- The input array is never written. -/
theorem finalA_x (c : Dev nD) : finalA m ρ c (0 : Fin 3) = (s₀ m ρ).mem (win0_0.arr.view.loc (c : Thread nD τ)) :=
  (dats (F := F) m ρ 0 c).arrAt_in (0 : Fin 3) rfl _

/-- Nor is the scale vector. -/
theorem finalA_g (c : Dev nD) : finalA m ρ c (1 : Fin 3) = (s₀ m ρ).mem (win0_1.arr.view.loc (c : Thread nD τ)) :=
  (dats (F := F) m ρ 0 c).arrAt_in (1 : Fin 3) rfl _

/-! ## A device's blocks are its arrays -/

omit [FloatOps F] in
/-- The one block of the input window, read through zero offsets, is the whole array. -/
theorem xblk_eq (c : Dev nD) : xblk m c = m ((c : Thread nD τ).loc main_arg0) := by
  have hz : (fun a => win0_0.index (0 : Fin 1) a * main_arg0.ty.shape.size a) = fun _ => 0 :=
    funext fun a => by fin_cases a <;> rfl
  exact Memref.read_access_unit_zero (Elt F) main_arg0 hz (fun a => by rw [congrFun hz a]; simp) (m ((c : Thread nD τ).loc main_arg0))

omit [FloatOps F] in
/-- The same for the scale vector. -/
theorem gblk_eq (c : Dev nD) : gblk m c = m ((c : Thread nD τ).loc main_arg1) := by
  have hz : (fun a => win0_1.index (0 : Fin 1) a * main_arg1.ty.shape.size a) = fun _ => 0 :=
    funext fun a => by fin_cases a <;> rfl
  exact Memref.read_access_unit_zero (Elt F) main_arg1 hz (fun a => by rw [congrFun hz a]; simp) (m ((c : Thread nD τ).loc main_arg1))

/-- So a device's result block is the specification's term of the devices' argument buffers. -/
theorem outAt_eq (c : Dev nD) :
    outAt m c = Spec.outOf (fun d => m ((d : Thread nD τ).loc main_arg0)) (fun d => m ((d : Thread nD τ).loc main_arg1)) c := by
  unfold outAt
  rw [show xblk m = fun d : Dev nD => m ((d : Thread nD τ).loc main_arg0) from funext (xblk_eq m),
    show gblk m = fun d : Dev nD => m ((d : Thread nD τ).loc main_arg1) from funext (gblk_eq m)]

/-! ## The result array -/

/-- The result array ends at what the body left in the output block: the one write-back writes the whole array. -/
theorem finalA_out (c : Dev nD) : finalA m ρ c (2 : Fin 3) = outAt m c := by
  unfold finalA
  have h1 : (dats (F := F) m ρ 0 c).arrAt 2 cfg0.N
      = (dats (F := F) m ρ 0 c).arrAt 2 ((t0_0 : Fin cfg0.N).val + 1) := congrArg _ N_0
  rw [h1, Dat.arrAt_succ, if_pos (flush0_2 t0_0)]
  have hz : (fun a => win0_2.index t0_0 a * main_v1.ty.shape.size a) = fun _ => 0 :=
    funext fun a => by fin_cases a <;> rfl
  exact Memref.write_access_unit_zero_univ (Elt F) main_v1 hz (fun a => by rw [congrFun hz a]; simp) _ (outAt m c)

/-! ## The run, read -/

/-- If each device's body meets its obligation: every weakly fair execution terminates, each device's result array
    ends at the specification's term of the devices' argument buffers, and its argument arrays end unchanged. -/
theorem run_post (hbody : ∀ c, BodyObligation (dats (F := F) m ρ 0 c) (defs₀ (F := F)) 𝒱₀ () Set.univ) :
    θ_run (Cert.KernelIdeal.defs (F := F)) (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_v1)
        = Spec.outOf (fun d => m ((d.tc : Thread Cert.KernelIdeal.nD Cert.KernelIdeal.τ).loc Cert.KernelIdeal.main_arg0))
            (fun d => m ((d.tc : Thread Cert.KernelIdeal.nD Cert.KernelIdeal.τ).loc Cert.KernelIdeal.main_arg1)) c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run defs _ _).mono
    (fun _ h c => ⟨(h c 2).trans ((finalA_out m ρ c).trans (outAt_eq m c)), (h c 0).trans (finalA_x m ρ c),
      (h c 1).trans (finalA_g m ρ c)⟩)
    (run_main m ρ hbody)

/-- info: 'Cert.KernelIdeal.Proto.run_post' depends on axioms: [propext, Classical.choice, Quot.sound] -/
#guard_msgs in #print axioms run_post

end Cert.KernelIdeal.Proto

end
-- ==== Proof.BodyDefs.lean ====
/-
  What the body of one device is to be shown to do, as one statement.

  From its ghost state, its launch credit, the level facts, the table at whatever it holds, what it owes at launch and
  its three staging buffers — the two inputs holding the device's blocks, the output holding anything — the body ends
  with the table back whole, its own fourteen semaphores at zero, nothing owed, the inputs as they were and the output
  buffer holding the device's result block.
-/
import proofs.«900465_g7700000000000466_dist_rmsnorm_colshard_i_m1024_n512_v7x_i8_bf16_1_alg».proof.Proof.Ghost

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-- A whole staging buffer of device `c` held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the ghost state under the names `K`. -/
def bodyPre (K : Dev nD × Fin 15 → ℕ) (c : Dev nD) : sProp 𝕄 :=
  iprop((ghost m K c ∗ credsOf (F := F) c ∗ levAts L lv ∗ ∃ f, scrPts c f)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What it ends with. -/
def bodyPost (c : Dev nD) : sProp 𝕄 :=
  iprop(Φ₁ (F := F) c ∗ (dats m ρ 0 c).owesAt () t0_0.succ
    ∗ stg c cc0_stg0_0 (xblk m c) ∗ stg c cc0_stg1_0 (gblk m c) ∗ stg c cc0_stg2_0 (outAt m c))

/-- The statement about the body: from `bodyPre`, and with whatever follows from `bodyPost`, the kernel's body at the
    device's whole staging buffers and table runs safely to it. -/
abbrev SoundBody : Prop :=
  ∀ (K : Dev nD × Fin 15 → ℕ) (c : Dev nD) (Kt : PUnit → sProp 𝕄),
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2) Kt

end Cert.KernelIdeal.Proto

end
-- ==== Proof.BodyObl.lean ====
/-
  From the statement about one device's body to the form the pipeline asks it in.

  The pipeline hands the body, at its one point, the invariant before the point, what the device owes, and its three
  staging buffers, each a whole buffer: the two inputs as fetched, the output at whatever it holds. That is the body's
  precondition with the names of the cells chosen; what the body leaves is what the pipeline wants back.
-/
import proofs.«900465_g7700000000000466_dist_rmsnorm_colshard_i_m1024_n512_v7x_i8_bf16_1_alg».proof.Proof.BodyDefs

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

omit [FloatOps F] in
/-- Owning a whole buffer at contents `X`: its points-to at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at its one point. -/
def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
/-- The library's body obligation on device `c`, from the statement about the body. -/
theorem body_obligation (hs : SoundBody m ρ) (c : Dev nD) :
    BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2) (fun _ => bodyPost m ρ c)
  unfold bodyPre' Φ₀ start
  iintro ⟨⟨⟨⟨%K, Hg⟩, Hrest⟩, Hscr⟩, Ho, Hx, Hgv, Hout⟩
  iapply (hs K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx]; · iexact Hx
    isplitl [Hgv] <;> iassumption
  · iintro H; iexact H

/-- info: 'Cert.KernelIdeal.Proto.body_obligation' depends on axioms: [propext, Classical.choice, Quot.sound] -/
#guard_msgs in #print axioms body_obligation

end Cert.KernelIdeal.Proto

end
-- ==== Proof.Rows.lean ====
/-
  The table's rows as values: what a row holds after the device's own store, and after a landing.

  The table every device ends with has, at entry (d, r), device `d`'s partial sum of row `r`. Device `c` writes its own
  partial sums into row `c`; a landing writes, into row `d`, what the sender read from its own row `d`. Either way the row
  then agrees with the final table on that row, which is all a points-to over the row's entries says.
-/
import proofs.«900465_g7700000000000466_dist_rmsnorm_colshard_i_m1024_n512_v7x_i8_bf16_1_alg».proof.Proof.Ghost

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

omit [FloatOps F] in
theorem hz2 : (![0, 0] : Fin 2 → Nat) = fun _ => 0 := funext fun a => by fin_cases a <;> rfl
omit [FloatOps F] in
theorem hz1 : (![0] : Fin 1 → Nat) = fun _ => 0 := funext fun a => by fin_cases a; rfl

omit [FloatOps F] in
/-- A load of the whole input block reads the block. -/
theorem read_x (f : (cc0_stg0_0 : Ref sig .tc).ty.Contents (Elt F)) :
    (xM : Memref sig .tc .vmem S1024x512 .f32).view.readAt (Elt F)
      (Rect.unit (s := S1024x512) ![0, 0] S1024x512.size inb_S1024x512_S1024x512_0_0).toLoadRect f = f :=
  Memref.readAt_unit_zero (Elt F) cc0_stg0_0 hz2 _ f

omit [FloatOps F] in
/-- A landing: what was read from row `d` of a table `g`, written over row `d` of any table, agrees with `g` on row `d`. -/
theorem landed_row (d : Dev nD) (fd g : (cc0_scratch0 : Ref sig .tc).ty.Contents (Elt F)) :
    ∀ i ∈ (rowM d).view.set, (rowM d).view.write (Elt F) fd ((rowM d).view.read (Elt F) g) Finset.univ i = g i := by
  intro i hi
  obtain ⟨y, rfl⟩ := View.exists_emb_of_mem_set _ hi
  rw [View.write_emb_of_mem _ _ (Finset.mem_univ y), View.read_apply, cast_cast, cast_eq]

/-- Where entry `y` of row `c` sits in the table: at (c, y's column). -/
theorem row_emb_fst (c : Dev nD) (y : S1x1024.Idx) : (((rowM c).view.emb y) 0).val = c.val := by
  show k0_off2 c 0 + 1 * (y 0).val = c.val
  rw [k0_off2_eq]
  have : (y 0).val < 1 := (y 0).isLt
  simp only [Matrix.cons_val_zero]
  omega
theorem row_emb_snd (c : Dev nD) (y : S1x1024.Idx) : (((rowM c).view.emb y) 1).val = (y 1).val := by
  show k0_off2 c 1 + 1 * (y 1).val = (y 1).val
  rw [k0_off2_eq]
  simp only [Matrix.cons_val_one, Matrix.cons_val_zero]
  omega

/-- The same with the two offsets (of the store, of the row) as variables known to be (c, 0): once both are that
    literal, the store's view and the row's view are one view. -/
theorem stored_row_gen (c : Dev nD) (f0 : (cc0_scratch0 : Ref sig .tc).ty.Contents (Elt F))
    (o1 o2 : Fin 2 → Nat) (h1 : o1 = ![c.val, 0]) (h2 : o2 = ![c.val, 0])
    (p1 : ∀ a, o1 a + S1x1024.size a ≤ S8x1024.size a) (p2 : ∀ a, o2 a + S1x1024.size a ≤ S8x1024.size a) :
    ∀ i ∈ (((cM : Memref sig .tc .vmem S8x1024 .f32).slice (Rect.unit (s := S8x1024) o2 S1x1024.size p2) (fun _ => rfl)).view.set : Finset (cc0_scratch0 : Ref sig .tc).ty.Idx),
      ((cM : Memref sig .tc .vmem S8x1024 .f32).access (Rect.unit (s := S8x1024) o1 S1x1024.size p1)).write (Elt F) f0
        (k0_pay2 (xblk m c)) Finset.univ i
      = tbl m i := by
  subst h1; subst h2
  intro i hi
  obtain ⟨y, rfl⟩ := View.exists_emb_of_mem_set _ hi
  have hw := View.write_emb_of_mem (Val := Elt F)
    (v := (cM : Memref sig .tc .vmem S8x1024 .f32).access (Rect.unit (s := S8x1024) ![c.val, 0] S1x1024.size p1)) f0 (k0_pay2 (xblk m c))
    (Finset.mem_univ y)
  refine hw.trans ?_
  rw [cast_eq]
  have hy0 : (y 0).val = 0 := by have : (y 0).val < 1 := (y 0).isLt; omega
  have he0 : (((cM : Memref sig .tc .vmem S8x1024 .f32).access (Rect.unit (s := S8x1024) ![c.val, 0] S1x1024.size p1)).emb y) 0 = c :=
    Fin.ext (by show c.val + 1 * (y 0).val = c.val; omega)
  have he1 : (((cM : Memref sig .tc .vmem S8x1024 .f32).access (Rect.unit (s := S8x1024) ![c.val, 0] S1x1024.size p1)).emb y) 1 = y 1 :=
    Fin.ext (by show 0 + 1 * (y 1).val = (y 1).val; omega)
  have hy : y = ValueIdx.ix2 (0 : Fin 1) (y 1) := by
    rw [ValueIdx.eq_ix2 y]; congr 1; exact Fin.ext hy0
  show k0_pay2 (xblk m c) y = k0_pay2 (xblk m ((((cM : Memref sig .tc .vmem S8x1024 .f32).access (Rect.unit (s := S8x1024) ![c.val, 0] S1x1024.size p1)).emb y) 0))
      (ValueIdx.ix2 (0 : Fin 1) ((((cM : Memref sig .tc .vmem S8x1024 .f32).access (Rect.unit (s := S8x1024) ![c.val, 0] S1x1024.size p1)).emb y) 1))
  rw [he0, he1]
  exact congrArg (k0_pay2 (xblk m c)) hy

/-- The device's own store: its partial sums written over its own row agree with the final table on that row. -/
theorem stored_row (c : Dev nD) (f0 : (cc0_scratch0 : Ref sig .tc).ty.Contents (Elt F)) :
    ∀ i ∈ (rowM c).view.set,
      ((cM : Memref sig .tc .vmem S8x1024 .f32).access (Rect.unit (s := S8x1024) (k0_off1 c) S1x1024.size (k0_off1_inb c))).write (Elt F) f0
        (k0_pay2 ((xM : Memref sig .tc .vmem S1024x512 .f32).view.readAt (Elt F)
          (Rect.unit (s := S1024x512) ![0, 0] S1024x512.size inb_S1024x512_S1024x512_0_0).toLoadRect (xblk m c))) Finset.univ i
      = tbl m i := by
  rw [read_x]
  exact stored_row_gen m c f0 (k0_off1 c) (k0_off2 c) (k0_off1_eq c) (k0_off2_eq c) (k0_off1_inb c) (k0_off2_inb c)

end Cert.KernelIdeal.Proto

end
-- ==== Proof.Send.lean ====
/-
  One copy of the exchange, as a rule: device `c`'s copy `j` reads its own row through read token `j` and lands it in
  row `c` of the device `j + 1` places further, which that device handed over with its entry signal. The landing's
  payload is that row holding the final table's entries (a landing agrees with the table on its row); the end of the
  reading hands the token back.
-/
import proofs.«900465_g7700000000000466_dist_rmsnorm_colshard_i_m1024_n512_v7x_i8_bf16_1_alg».proof.Proof.Rows

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Copy `j` of device `c`, addressed to `n` = the device `j + 1` places further. -/
theorem wp_send_row (c n : Dev nD) (j : Fin 7) (hn : n = tgt j c) (κ₁ κ₂ : ℕ)
    {hsc : (rowM c : Memref sig (Dev.tc n : Thread nD τ).2.kind .vmem S1x1024 .f32).view.ref.isScScratch = false}
    {hsrc : (rowM c : Memref sig .tc .vmem S1x1024 .f32).view.WordExact} {hdst : (rowM c : Memref sig .tc .vmem S1x1024 .f32).view.WordExact}
    {hsem : DmaTarget.Typed .vmem (.dma (recvS j)) (.remote (Dev.tc n : Thread nD τ) (rowM c : Memref sig .tc .vmem S1x1024 .f32) (.dma (sendS j)) hsc)}
    {α : Type} {Q : α → sProp 𝕄} {k : PUnit → Prog (TpuEff nD τ sig (Elt F) Λ₀ .tc) α}
    (fd : Buf (Elt F) ((rowM c).view.loc (tgt j c : Thread nD τ))) (W : Waits sig Unit) (O : CellTallies nD τ sig Unit) :
    iprop(cellInv ER (exRd m) κ₁ (sendCell j c) ∗ cellInv ER (exRd m) κ₂ (recvCell j (tgt j c))
        ∗ rowPts c c (Transfers.shareTok fullShare 7 j) (tbl m) ∗ rowPts (tgt j c) c fullShare fd
        ∗ owes (c : Thread nD τ) (O + tallyAt (recvCell j (tgt j c)) () N) W
        ∗ dutyTok ER (sendCell j c) 0 (0 : Fin 7) ∗ reached ER (sendCell j c) 0
        ∗ dutyTok ER (recvCell j (tgt j c)) 0 (0 : Fin 7) ∗ reached ER (recvCell j (tgt j c)) 0)
      ⊢ iprop(((cred (tallyAt (sendCell j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma (sendS j)) hsc) (.dma (recvS j)) hsrc hdst hsem) k) Q) := by
  subst hn
  unfold rowPts
  exact Rounds.wp_send_pointsTo 𝒱₀ ER (exRd m) (c : Thread nD τ) none (κ₁ := κ₁) (κ₂ := κ₂)
    (c' := (tgt j c : Thread nD τ)) (src := rowM c) (dst := rowM c) (q := Transfers.shareTok fullShare 7 j) (fs := tbl m)
    (r₁ := 0) (r₂ := 0) (d₁ := 0) (d₂ := 0) (fd := fd)
    (by rw [duties_send]; exact Finset.mem_singleton_self _) (by rw [duties_recv]; exact Finset.mem_singleton_self _)
    () () N rfl (amount_send m c j 0) (amount_recv m (tgt j c) j 0) O rfl (W := W)
    (by rw [payload_send]; unfold sendPay rowPts; exact BI.Entails.refl _)
    (by
      rw [payload_recv]; unfold recvPay rowPts
      rw [src_tgt]
      exact Entails.of_eq (pointsTo_congr (landed_row c fd (tbl m))))

end Cert.KernelIdeal.Proto

end
-- ==== Proof.Table.lean ====
/-
  A row of the 8 × 1024 table held by shares; whole-buffer loads and stores; the result.

  A row held outright is held as a remainder and seven read tokens, one lent to each outgoing copy. A load of a whole buffer reads
  it, a store of a whole buffer leaves what was stored; and the four payloads composed are the device's result block.
-/
import proofs.«900465_g7700000000000466_dist_rmsnorm_colshard_i_m1024_n512_v7x_i8_bf16_1_alg».proof.Proof.Send
import Idealize.ShloMosaic.Lib.Transfers

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A row by shares -/

/-- A row held outright is the remainder and the seven read tokens; -/
theorem toks_unpack (c d : Dev nD) (f : Buf (Elt F) ((rowM d).view.loc (c : Thread nD τ))) :
    rowPts c d fullShare f ⊢ iprop(rowPts c d (Transfers.shareDrop fullShare 7) f
      ∗ rowPts c d (Transfers.shareTok fullShare 7 0) f ∗ rowPts c d (Transfers.shareTok fullShare 7 1) f ∗ rowPts c d (Transfers.shareTok fullShare 7 2) f ∗ rowPts c d (Transfers.shareTok fullShare 7 3) f ∗ rowPts c d (Transfers.shareTok fullShare 7 4) f ∗ rowPts c d (Transfers.shareTok fullShare 7 5) f ∗ rowPts c d (Transfers.shareTok fullShare 7 6) f) := by
  unfold rowPts
  refine (Transfers.pointsTo_toks_split fullShare 7).trans ?_
  rw [bigSep_fin7]

/-- and back. -/
theorem toks_pack (c d : Dev nD) (f : Buf (Elt F) ((rowM d).view.loc (c : Thread nD τ))) :
    iprop(rowPts c d (Transfers.shareDrop fullShare 7) f
      ∗ rowPts c d (Transfers.shareTok fullShare 7 0) f ∗ rowPts c d (Transfers.shareTok fullShare 7 1) f ∗ rowPts c d (Transfers.shareTok fullShare 7 2) f ∗ rowPts c d (Transfers.shareTok fullShare 7 3) f ∗ rowPts c d (Transfers.shareTok fullShare 7 4) f ∗ rowPts c d (Transfers.shareTok fullShare 7 5) f ∗ rowPts c d (Transfers.shareTok fullShare 7 6) f) ⊢ rowPts c d fullShare f := by
  unfold rowPts
  refine BI.Entails.trans ?_ (Transfers.pointsTo_toks_join fullShare 7)
  rw [bigSep_fin7]
  exact BI.Entails.refl _

/-! ## Whole-buffer loads and the result's store -/

omit [FloatOps F] in
/-- A load of the whole scale block reads it. -/
theorem read_g (f : (cc0_stg1_0 : Ref sig .tc).ty.Contents (Elt F)) :
    (gM : Memref sig .tc .vmem S512 .f32).view.readAt (Elt F)
      (Rect.unit (s := S512) ![0] S512.size inb_S512_S512_0).toLoadRect f = f :=
  Memref.readAt_unit_zero (Elt F) cc0_stg1_0 hz1 _ f

omit [FloatOps F] in
/-- A load of the whole table reads it. -/
theorem read_tbl (f : (cc0_scratch0 : Ref sig .tc).ty.Contents (Elt F)) :
    (cM : Memref sig .tc .vmem S8x1024 .f32).view.readAt (Elt F)
      (Rect.unit (s := S8x1024) ![0, 0] S8x1024.size inb_S8x1024_S8x1024_0_0).toLoadRect f = f :=
  Memref.readAt_unit_zero (Elt F) cc0_scratch0 hz2 _ f

omit [FloatOps F] in
/-- A store over the whole output block leaves what was stored. -/
theorem write_out (f w : (cc0_stg2_0 : Ref sig .tc).ty.Contents (Elt F)) :
    ((oM : Memref sig .tc .vmem S1024x512 .bf16).access
        (Rect.unit (s := S1024x512) ![0, 0] S1024x512.size inb_S1024x512_S1024x512_0_0) : View sig .tc _ _ _).write (Elt F) f w Finset.univ = w :=
  Memref.write_access_unit_zero_univ (Elt F) cc0_stg2_0 hz2 _ f w

/-! ## The result -/

/-- The four payloads composed, at the device's blocks and the final table, are its result block. -/
theorem out_val (c : Dev nD) : k0_pay4 (k0_pay3 (k0_pay1 (xblk m c)) (gblk m c)) (tbl m) = outAt m c := by
  unfold outAt tbl Spec.outOf; rfl

/-- info: 'Cert.KernelIdeal.Proto.toks_pack' depends on axioms: [propext, Classical.choice, Quot.sound] -/
#guard_msgs in #print axioms toks_pack
/-- info: 'Cert.KernelIdeal.Proto.out_val' depends on axioms: [propext, Classical.choice, Quot.sound] -/
#guard_msgs in #print axioms out_val

end Cert.KernelIdeal.Proto

end
-- ==== Proof.TableRows.lean ====
/-
  The 8 × 1024 table held by rows.

  The table's entries are the disjoint union of its eight rows, so holding the table is holding the eight rows; listed
  from a device's point of view they are its own row and the rows of the devices 1, …, 7 places before it. Listing
  them so is a permutation of the eight devices, for every device.
-/
import proofs.«900465_g7700000000000466_dist_rmsnorm_colshard_i_m1024_n512_v7x_i8_bf16_1_alg».proof.Proof.Send
import Idealize.ShloMosaic.Lib.Transfers

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The table by rows -/

omit [FloatOps F] in
/-- A device and the seven devices before it are all eight, each once. -/
theorem devs_all (c : Dev nD) : (Finset.univ : Finset (Dev nD)) = ([c, src 0 c, src 1 c, src 2 c, src 3 c, src 4 c, src 5 c, src 6 c] : List (Dev nD)).toFinset := by
  revert c; decide
omit [FloatOps F] in
theorem devs_nodup (c : Dev nD) : ([c, src 0 c, src 1 c, src 2 c, src 3 c, src 4 c, src 5 c, src 6 c] : List (Dev nD)).Nodup := by
  revert c; decide

omit [FloatOps F] in
/-- The table's entries are the union of its rows, whichever way equality of entries is decided. -/
theorem rows_cover_at (c : Dev nD)
    (inst : DecidableEq (Idx ((cM : Memref sig .tc .vmem S8x1024 .f32).view.loc (c : Thread nD τ)))) :
    ((cM : Memref sig .tc .vmem S8x1024 .f32).view.set : Finset (Idx ((cM : Memref sig .tc .vmem S8x1024 .f32).view.loc (c : Thread nD τ))))
      = @Finset.biUnion (Dev nD) (Idx ((cM : Memref sig .tc .vmem S8x1024 .f32).view.loc (c : Thread nD τ))) inst Finset.univ
          (fun d => (rowM d).view.set) := by
  rw [scr_set]
  exact (Finset.eq_univ_of_forall fun i => Finset.mem_biUnion.mpr ⟨i 0, Finset.mem_univ _, mem_own_row i⟩).symm

omit [FloatOps F] in
theorem table_rows_big (c : Dev nD) (q : PosShare TreeShare) (f : Buf (Elt F) ((c : Thread nD τ).loc cc0_scratch0)) :
    ((cM : Memref sig .tc .vmem S8x1024 .f32).view.loc (c : Thread nD τ) ↦[(cM : Memref sig .tc .vmem S8x1024 .f32).view.set]{q} f : sProp 𝕄)
      = bigSep (Finset.univ : Finset (Dev nD)) fun d => ((cM : Memref sig .tc .vmem S8x1024 .f32).view.loc (c : Thread nD τ) ↦[(rowM d).view.set]{q} f : sProp 𝕄) := by
  have h2 := pointsTo_biUnion (Ix := Unit) (Name := ℕ) (U := UU) (Lvl := ℕ) (Val := Elt F) (τ := τ)
    (ℓ := (cM : Memref sig .tc .vmem S8x1024 .f32).view.loc (c : Thread nD τ)) (q := q) (f := f)
    (Finset.univ : Finset (Dev nD)) (fun d => (rowM d).view.set) (fun d _ d' _ h => row_disjoint h)
  rw [← rows_cover_at c _] at h2
  exact h2

omit [FloatOps F] in
/-- A row's entries held through the table's location are the row held. -/
theorem row_eq (c d : Dev nD) (q : PosShare TreeShare) (f : Buf (Elt F) ((c : Thread nD τ).loc cc0_scratch0)) :
    ((cM : Memref sig .tc .vmem S8x1024 .f32).view.loc (c : Thread nD τ) ↦[(rowM d).view.set]{q} f : sProp 𝕄) = rowPts c d q f := rfl

omit [FloatOps F] in
/-- Holding the table at a share is holding its eight rows at it. -/
theorem table_rows (c : Dev nD) (q : PosShare TreeShare) (f : Buf (Elt F) ((c : Thread nD τ).loc cc0_scratch0)) :
    ((cM : Memref sig .tc .vmem S8x1024 .f32).view.loc (c : Thread nD τ) ↦[(cM : Memref sig .tc .vmem S8x1024 .f32).view.set]{q} f : sProp 𝕄)
      = iprop(rowPts c c q f ∗ rowPts c (src 0 c) q f ∗ rowPts c (src 1 c) q f ∗ rowPts c (src 2 c) q f ∗ rowPts c (src 3 c) q f ∗ rowPts c (src 4 c) q f ∗ rowPts c (src 5 c) q f ∗ rowPts c (src 6 c) q f) := by
  rw [table_rows_big c q f, bigSep_congr (s := Finset.univ) (fun (d : Dev nD) _ => row_eq c d q f)]
  exact bigSep_univ_eq_bigSepL [c, src 0 c, src 1 c, src 2 c, src 3 c, src 4 c, src 5 c, src 6 c] (devs_all c) (devs_nodup c) (fun d : Dev nD => (rowPts c d q f : sProp 𝕄))

omit [FloatOps F] in
/-- The table held, split into its rows; -/
theorem table_rows_split (c : Dev nD) (q : PosShare TreeShare) (f : Buf (Elt F) ((c : Thread nD τ).loc cc0_scratch0)) :
    ((cM : Memref sig .tc .vmem S8x1024 .f32).view.loc (c : Thread nD τ) ↦[(cM : Memref sig .tc .vmem S8x1024 .f32).view.set]{q} f : sProp 𝕄)
      ⊢ iprop(rowPts c c q f ∗ rowPts c (src 0 c) q f ∗ rowPts c (src 1 c) q f ∗ rowPts c (src 2 c) q f ∗ rowPts c (src 3 c) q f ∗ rowPts c (src 4 c) q f ∗ rowPts c (src 5 c) q f ∗ rowPts c (src 6 c) q f) :=
  Entails.of_eq (table_rows c q f)

omit [FloatOps F] in
/-- and the rows joined back into the table. -/
theorem table_rows_join (c : Dev nD) (q : PosShare TreeShare) (f : Buf (Elt F) ((c : Thread nD τ).loc cc0_scratch0)) :
    iprop(rowPts c c q f ∗ rowPts c (src 0 c) q f ∗ rowPts c (src 1 c) q f ∗ rowPts c (src 2 c) q f ∗ rowPts c (src 3 c) q f ∗ rowPts c (src 4 c) q f ∗ rowPts c (src 5 c) q f ∗ rowPts c (src 6 c) q f)
      ⊢ ((cM : Memref sig .tc .vmem S8x1024 .f32).view.loc (c : Thread nD τ) ↦[(cM : Memref sig .tc .vmem S8x1024 .f32).view.set]{q} f : sProp 𝕄) :=
  Entails.of_eq (table_rows c q f).symm

/-- info: 'Cert.KernelIdeal.Proto.table_rows' depends on axioms: [propext, Classical.choice, Quot.sound] -/
#guard_msgs in #print axioms table_rows

end Cert.KernelIdeal.Proto

end
-- ==== Proof.Body.lean ====
/-
  One device's body, run once at a symbolic device `c`.

  In order: `c` signals its seven peers, handing each the row of its table that peer will write; it sums the squares
  of its own block along the rows and stores the 1024 partial sums in its own row; it waits for seven units on its
  entry cell and so holds row `c` of every peer's table; it copies its own row into each of those, reading through
  seven read tokens of the row; it waits for the seven landings, after which its table holds every device's partial
  sums; it sums the table down its columns, scales its block, and stores the result; it waits for the seven copies
  to have finished reading, and holds its table whole again.
-/
import proofs.«900465_g7700000000000466_dist_rmsnorm_colshard_i_m1024_n512_v7x_i8_bf16_1_alg».proof.Proof.BodyDefs
import proofs.«900465_g7700000000000466_dist_rmsnorm_colshard_i_m1024_n512_v7x_i8_bf16_1_alg».proof.Proof.Send
import proofs.«900465_g7700000000000466_dist_rmsnorm_colshard_i_m1024_n512_v7x_i8_bf16_1_alg».proof.Proof.Table
import proofs.«900465_g7700000000000466_dist_rmsnorm_colshard_i_m1024_n512_v7x_i8_bf16_1_alg».proof.Proof.TableRows

set_option maxRecDepth 16384

noncomputable section

namespace Cert.KernelIdeal.Proto

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables at the literal duties, payloads spelt out -/

theorem sendS_spelt1 : ((cc0_scratch1.slice (Rect.unit (s := S7) ![1] S1.size inb_S7_S1_1)).squeeze S_ squeezes_S1_S_).sem = sendS 1 := by decide
theorem recvS_spelt1 : ((cc0_scratch2.slice (Rect.unit (s := S7) ![1] S1.size inb_S7_S1_1)).squeeze S_ squeezes_S1_S_).sem = recvS 1 := by decide
theorem sendS_spelt2 : ((cc0_scratch1.slice (Rect.unit (s := S7) ![2] S1.size inb_S7_S1_2)).squeeze S_ squeezes_S1_S_).sem = sendS 2 := by decide
theorem recvS_spelt2 : ((cc0_scratch2.slice (Rect.unit (s := S7) ![2] S1.size inb_S7_S1_2)).squeeze S_ squeezes_S1_S_).sem = recvS 2 := by decide
theorem sendS_spelt3 : ((cc0_scratch1.slice (Rect.unit (s := S7) ![3] S1.size inb_S7_S1_3)).squeeze S_ squeezes_S1_S_).sem = sendS 3 := by decide
theorem recvS_spelt3 : ((cc0_scratch2.slice (Rect.unit (s := S7) ![3] S1.size inb_S7_S1_3)).squeeze S_ squeezes_S1_S_).sem = recvS 3 := by decide
theorem sendS_spelt4 : ((cc0_scratch1.slice (Rect.unit (s := S7) ![4] S1.size inb_S7_S1_4)).squeeze S_ squeezes_S1_S_).sem = sendS 4 := by decide
theorem recvS_spelt4 : ((cc0_scratch2.slice (Rect.unit (s := S7) ![4] S1.size inb_S7_S1_4)).squeeze S_ squeezes_S1_S_).sem = recvS 4 := by decide
theorem sendS_spelt5 : ((cc0_scratch1.slice (Rect.unit (s := S7) ![5] S1.size inb_S7_S1_5)).squeeze S_ squeezes_S1_S_).sem = sendS 5 := by decide
theorem recvS_spelt5 : ((cc0_scratch2.slice (Rect.unit (s := S7) ![5] S1.size inb_S7_S1_5)).squeeze S_ squeezes_S1_S_).sem = recvS 5 := by decide

theorem pl_bar_0 (c : Dev nD) : (exRd (F := F) m).payload (barCell (tgt 0 c)) 0 (0 : Fin 7)
    = iprop((∃ f, ((rowM (tgt 0 c)).view.loc (c : Thread nD τ) ↦[(rowM (tgt 0 c)).view.set]{fullShare} f)) ∗ reached ER (recvCell 6 c) 0) := by
  rw [payload_bar_tgt]; rfl
theorem pl_send_0 (c : Dev nD) (d : Fin 7) : (exRd (F := F) m).payload (sendCell 0 c) 0 d
    = ((rowM c).view.loc (c : Thread nD τ) ↦[(rowM c).view.set]{Transfers.shareTok fullShare 7 (0 : Fin 7)} tbl m) := by
  rw [payload_send]; rfl
theorem pl_recv_0 (c : Dev nD) (d : Fin 7) : (exRd (F := F) m).payload (recvCell 0 c) 0 d
    = ((rowM (src 0 c)).view.loc (c : Thread nD τ) ↦[(rowM (src 0 c)).view.set]{fullShare} tbl m) := by
  rw [payload_recv]; rfl
theorem src_as_tgt0 (c : Dev nD) : src 0 c = tgt 6 c := by revert c; decide
theorem pl_bar_1 (c : Dev nD) : (exRd (F := F) m).payload (barCell (tgt 1 c)) 0 (1 : Fin 7)
    = iprop((∃ f, ((rowM (tgt 1 c)).view.loc (c : Thread nD τ) ↦[(rowM (tgt 1 c)).view.set]{fullShare} f)) ∗ reached ER (recvCell 5 c) 0) := by
  rw [payload_bar_tgt]; rfl
theorem pl_send_1 (c : Dev nD) (d : Fin 7) : (exRd (F := F) m).payload (sendCell 1 c) 0 d
    = ((rowM c).view.loc (c : Thread nD τ) ↦[(rowM c).view.set]{Transfers.shareTok fullShare 7 (1 : Fin 7)} tbl m) := by
  rw [payload_send]; rfl
theorem pl_recv_1 (c : Dev nD) (d : Fin 7) : (exRd (F := F) m).payload (recvCell 1 c) 0 d
    = ((rowM (src 1 c)).view.loc (c : Thread nD τ) ↦[(rowM (src 1 c)).view.set]{fullShare} tbl m) := by
  rw [payload_recv]; rfl
theorem src_as_tgt1 (c : Dev nD) : src 1 c = tgt 5 c := by revert c; decide
theorem pl_bar_2 (c : Dev nD) : (exRd (F := F) m).payload (barCell (tgt 2 c)) 0 (2 : Fin 7)
    = iprop((∃ f, ((rowM (tgt 2 c)).view.loc (c : Thread nD τ) ↦[(rowM (tgt 2 c)).view.set]{fullShare} f)) ∗ reached ER (recvCell 4 c) 0) := by
  rw [payload_bar_tgt]; rfl
theorem pl_send_2 (c : Dev nD) (d : Fin 7) : (exRd (F := F) m).payload (sendCell 2 c) 0 d
    = ((rowM c).view.loc (c : Thread nD τ) ↦[(rowM c).view.set]{Transfers.shareTok fullShare 7 (2 : Fin 7)} tbl m) := by
  rw [payload_send]; rfl
theorem pl_recv_2 (c : Dev nD) (d : Fin 7) : (exRd (F := F) m).payload (recvCell 2 c) 0 d
    = ((rowM (src 2 c)).view.loc (c : Thread nD τ) ↦[(rowM (src 2 c)).view.set]{fullShare} tbl m) := by
  rw [payload_recv]; rfl
theorem src_as_tgt2 (c : Dev nD) : src 2 c = tgt 4 c := by revert c; decide
theorem pl_bar_3 (c : Dev nD) : (exRd (F := F) m).payload (barCell (tgt 3 c)) 0 (3 : Fin 7)
    = iprop((∃ f, ((rowM (tgt 3 c)).view.loc (c : Thread nD τ) ↦[(rowM (tgt 3 c)).view.set]{fullShare} f)) ∗ reached ER (recvCell 3 c) 0) := by
  rw [payload_bar_tgt]; rfl
theorem pl_send_3 (c : Dev nD) (d : Fin 7) : (exRd (F := F) m).payload (sendCell 3 c) 0 d
    = ((rowM c).view.loc (c : Thread nD τ) ↦[(rowM c).view.set]{Transfers.shareTok fullShare 7 (3 : Fin 7)} tbl m) := by
  rw [payload_send]; rfl
theorem pl_recv_3 (c : Dev nD) (d : Fin 7) : (exRd (F := F) m).payload (recvCell 3 c) 0 d
    = ((rowM (src 3 c)).view.loc (c : Thread nD τ) ↦[(rowM (src 3 c)).view.set]{fullShare} tbl m) := by
  rw [payload_recv]; rfl
theorem src_as_tgt3 (c : Dev nD) : src 3 c = tgt 3 c := by revert c; decide
theorem pl_bar_4 (c : Dev nD) : (exRd (F := F) m).payload (barCell (tgt 4 c)) 0 (4 : Fin 7)
    = iprop((∃ f, ((rowM (tgt 4 c)).view.loc (c : Thread nD τ) ↦[(rowM (tgt 4 c)).view.set]{fullShare} f)) ∗ reached ER (recvCell 2 c) 0) := by
  rw [payload_bar_tgt]; rfl
theorem pl_send_4 (c : Dev nD) (d : Fin 7) : (exRd (F := F) m).payload (sendCell 4 c) 0 d
    = ((rowM c).view.loc (c : Thread nD τ) ↦[(rowM c).view.set]{Transfers.shareTok fullShare 7 (4 : Fin 7)} tbl m) := by
  rw [payload_send]; rfl
theorem pl_recv_4 (c : Dev nD) (d : Fin 7) : (exRd (F := F) m).payload (recvCell 4 c) 0 d
    = ((rowM (src 4 c)).view.loc (c : Thread nD τ) ↦[(rowM (src 4 c)).view.set]{fullShare} tbl m) := by
  rw [payload_recv]; rfl
theorem src_as_tgt4 (c : Dev nD) : src 4 c = tgt 2 c := by revert c; decide
theorem pl_bar_5 (c : Dev nD) : (exRd (F := F) m).payload (barCell (tgt 5 c)) 0 (5 : Fin 7)
    = iprop((∃ f, ((rowM (tgt 5 c)).view.loc (c : Thread nD τ) ↦[(rowM (tgt 5 c)).view.set]{fullShare} f)) ∗ reached ER (recvCell 1 c) 0) := by
  rw [payload_bar_tgt]; rfl
theorem pl_send_5 (c : Dev nD) (d : Fin 7) : (exRd (F := F) m).payload (sendCell 5 c) 0 d
    = ((rowM c).view.loc (c : Thread nD τ) ↦[(rowM c).view.set]{Transfers.shareTok fullShare 7 (5 : Fin 7)} tbl m) := by
  rw [payload_send]; rfl
theorem pl_recv_5 (c : Dev nD) (d : Fin 7) : (exRd (F := F) m).payload (recvCell 5 c) 0 d
    = ((rowM (src 5 c)).view.loc (c : Thread nD τ) ↦[(rowM (src 5 c)).view.set]{fullShare} tbl m) := by
  rw [payload_recv]; rfl
theorem src_as_tgt5 (c : Dev nD) : src 5 c = tgt 1 c := by revert c; decide
theorem pl_bar_6 (c : Dev nD) : (exRd (F := F) m).payload (barCell (tgt 6 c)) 0 (6 : Fin 7)
    = iprop((∃ f, ((rowM (tgt 6 c)).view.loc (c : Thread nD τ) ↦[(rowM (tgt 6 c)).view.set]{fullShare} f)) ∗ reached ER (recvCell 0 c) 0) := by
  rw [payload_bar_tgt]; rfl
theorem pl_send_6 (c : Dev nD) (d : Fin 7) : (exRd (F := F) m).payload (sendCell 6 c) 0 d
    = ((rowM c).view.loc (c : Thread nD τ) ↦[(rowM c).view.set]{Transfers.shareTok fullShare 7 (6 : Fin 7)} tbl m) := by
  rw [payload_send]; rfl
theorem pl_recv_6 (c : Dev nD) (d : Fin 7) : (exRd (F := F) m).payload (recvCell 6 c) 0 d
    = ((rowM (src 6 c)).view.loc (c : Thread nD τ) ↦[(rowM (src 6 c)).view.set]{fullShare} tbl m) := by
  rw [payload_recv]; rfl
theorem src_as_tgt6 (c : Dev nD) : src 6 c = tgt 0 c := by revert c; decide

/-- A row held under one name of a device is held under any equal name. -/
theorem row_retarget (c d d' : Dev nD) (h : d = d') (q : PosShare TreeShare) (f : Buf (Elt F) ((c : Thread nD τ).loc cc0_scratch0)) :
    (rowPts c d q f : sProp 𝕄) ⊢ rowPts c d' q f := by subst h; exact BI.Entails.refl _

/-- The seven payloads of the entry cell's round, each payer named as the device `c`'s own copy reaches. -/
theorem bar_payloads (c : Dev nD) : bigSep Finset.univ (fun d => (exRd (F := F) m).payload (barCell c) 0 d)
    = iprop(((∃ f, ((rowM c).view.loc (tgt 6 c : Thread nD τ) ↦[(rowM c).view.set]{fullShare} f)) ∗ reached ER (recvCell 6 (tgt 6 c)) 0)
      ∗ ((∃ f, ((rowM c).view.loc (tgt 5 c : Thread nD τ) ↦[(rowM c).view.set]{fullShare} f)) ∗ reached ER (recvCell 5 (tgt 5 c)) 0)
      ∗ ((∃ f, ((rowM c).view.loc (tgt 4 c : Thread nD τ) ↦[(rowM c).view.set]{fullShare} f)) ∗ reached ER (recvCell 4 (tgt 4 c)) 0)
      ∗ ((∃ f, ((rowM c).view.loc (tgt 3 c : Thread nD τ) ↦[(rowM c).view.set]{fullShare} f)) ∗ reached ER (recvCell 3 (tgt 3 c)) 0)
      ∗ ((∃ f, ((rowM c).view.loc (tgt 2 c : Thread nD τ) ↦[(rowM c).view.set]{fullShare} f)) ∗ reached ER (recvCell 2 (tgt 2 c)) 0)
      ∗ ((∃ f, ((rowM c).view.loc (tgt 1 c : Thread nD τ) ↦[(rowM c).view.set]{fullShare} f)) ∗ reached ER (recvCell 1 (tgt 1 c)) 0)
      ∗ ((∃ f, ((rowM c).view.loc (tgt 0 c : Thread nD τ) ↦[(rowM c).view.set]{fullShare} f)) ∗ reached ER (recvCell 0 (tgt 0 c)) 0)) := by
  rw [bigSep_fin7]
  simp only [payload_bar, src_as_tgt0, src_as_tgt1, src_as_tgt2, src_as_tgt3, src_as_tgt4, src_as_tgt5, src_as_tgt6]
  rfl

attribute [local sl_rounds] pl_bar_0 pl_send_0 pl_recv_0 pl_bar_1 pl_send_1 pl_recv_1 pl_bar_2 pl_send_2 pl_recv_2 pl_bar_3 pl_send_3 pl_recv_3 pl_bar_4 pl_send_4 pl_recv_4 pl_bar_5 pl_send_5 pl_recv_5 pl_bar_6 pl_send_6 pl_recv_6 duties_bar duties_send duties_recv amount_bar amount_send amount_recv expect_bar expect_send expect_recv
attribute [local sl_canon] sendS_spelt0 recvS_spelt0 sendS_spelt1 recvS_spelt1 sendS_spelt2 recvS_spelt2 sendS_spelt3 recvS_spelt3 sendS_spelt4 recvS_spelt4 sendS_spelt5 recvS_spelt5 sendS_spelt6 recvS_spelt6 dev1_eq dev2_eq dev3_eq dev4_eq dev5_eq dev6_eq dev7_eq dev8_eq dev9_eq dev10_eq dev11_eq dev12_eq dev13_eq dev14_eq

/-- The stored result, in the spelling the run leaves it in, is the device's result block. -/
theorem out_stored (c : Dev nD) (g2 : (cc0_stg2_0 : Ref sig .tc).ty.Contents (Elt F)) :
    ((oM : Memref sig .tc .vmem S1024x512 .bf16).access (Rect.unit (s := S1024x512) ![0, 0] S1024x512.size inb_S1024x512_S1024x512_0_0)).write (Elt F) g2
      (k0_pay4
        (k0_pay3
          (k0_pay1 ((xM : Memref sig .tc .vmem S1024x512 .f32).view.readAt (Elt F)
            (Rect.unit (s := S1024x512) ![0, 0] S1024x512.size inb_S1024x512_S1024x512_0_0).toLoadRect (xblk m c)))
          ((gM : Memref sig .tc .vmem S512 .f32).view.readAt (Elt F) (Rect.unit (s := S512) ![0] S512.size inb_S512_S512_0).toLoadRect (gblk m c)))
        ((cM : Memref sig .tc .vmem S8x1024 .f32).view.readAt (Elt F)
          (Rect.unit (s := S8x1024) ![0, 0] S8x1024.size inb_S8x1024_S8x1024_0_0).toLoadRect (tbl m))) Finset.univ
      = outAt m c := by
  rw [write_out, read_x, read_g, read_tbl]; exact out_val m c

/-! ## The body -/

set_option maxHeartbeats 16000000 in
theorem sound_body : SoundBody m ρ := by
  intro K c Kt
  -- the continuation's premise is kept closed during the run
  generalize hPost : bodyPost m ρ c = Post
  unfold bodyPre ghost pers lin credsOf
  iintro ⟨⟨⟨⟨⟨#HIb, #HIs0, #HIs1, #HIs2, #HIs3, #HIs4, #HIs5, #HIs6, #HIr0, #HIr1, #HIr2, #HIr3, #HIr4, #HIr5, #HIr6, #HIbt0, #HIbt1, #HIbt2, #HIbt3, #HIbt4, #HIbt5, #HIbt6, #HIrt0, #HIrt1, #HIrt2, #HIrt3, #HIrt4, #HIrt5, #HIrt6, #HRbt0, #HRbt1, #HRbt2, #HRbt3, #HRbt4, #HRbt5, #HRbt6, #HRrt0, #HRrt1, #HRrt2, #HRrt3, #HRrt4, #HRrt5, #HRrt6, #HRs0, #HRs1, #HRs2, #HRs3, #HRs4, #HRs5, #HRs6, #HRr0, #HRr1, #HRr2, #HRr3, #HRr4, #HRr5, #HRr6⟩, HaB, HaS0, HaS1, HaS2, HaS3, HaS4, HaS5, HaS6, HaR0, HaR1, HaR2, HaR3, HaR4, HaR5, HaR6, HtB0, HtB1, HtB2, HtB3, HtB4, HtB5, HtB6, HtR0, HtR1, HtR2, HtR3, HtR4, HtR5, HtR6, HtS0, HtS1, HtS2, HtS3, HtS4, HtS5, HtS6⟩, ⟨HcB, HcR0, HcR1, HcR2, HcR3, HcR4, HcR5, HcR6⟩, #Hlev, ⟨%f0, Hscr⟩⟩,
    Ho, ⟨%d0, %g0, %hg0, Hx0⟩, ⟨%d1, %g1, %hg1, Hg0⟩, ⟨%d2, %g2, %hg2, Hout0⟩⟩, Hk⟩
  have hx : g0 = xblk m c := by rw [hg0]; unfold Dat.before; rw [if_pos (fetch0_0 t0_0)]; rfl
  have hg : g1 = gblk m c := by rw [hg1]; unfold Dat.before; rw [if_pos (fetch0_1 t0_0)]; rfl
  subst hx; subst hg
  clear hg0 hg1 hg2
  unfold Dat.owesAt Pipeline.owesWithin
  icases Ho with ⟨%W, %hW, HO⟩
  clear hW
  rw [show (dats m ρ 0 c).owed t0_0.castSucc = O₀ c from rfl]
  unfold O₀ OB1 OB2 OB3 OB4 OB5 OB6 OR0 OR1 OR2 OR3 OR4 OR5 OR6 rT bT
  -- the staging buffers, through their views
  ihave Hx := (Entails.of_eq (show ((((c : Thread nD τ).loc cc0_stg0_0) ↦{fullShare} xblk m c : sProp 𝕄)) = (xM.view.loc (c : Thread nD τ) ↦{fullShare} xblk m c) from rfl)) $$ Hx0
  ihave Hg := (Entails.of_eq (show ((((c : Thread nD τ).loc cc0_stg1_0) ↦{fullShare} gblk m c : sProp 𝕄)) = (gM.view.loc (c : Thread nD τ) ↦{fullShare} gblk m c) from rfl)) $$ Hg0
  ihave Hout := (Entails.of_eq (show ((((c : Thread nD τ).loc cc0_stg2_0) ↦{fullShare} g2 : sProp 𝕄)) = (oM.view.loc (c : Thread nD τ) ↦{fullShare} g2) from rfl)) $$ Hout0
  -- the table by rows: its own, and the row of each device a signal reaches
  unfold scrPts
  ihave Hrows := (table_rows_split c fullShare f0) $$ Hscr
  icases Hrows with ⟨Hown0, R0, R1, R2, R3, R4, R5, R6⟩
  ihave Hrow0 := (row_retarget c _ _ (src_as_tgt6 c) fullShare f0) $$ R6
  ihave Hrow1 := (row_retarget c _ _ (src_as_tgt5 c) fullShare f0) $$ R5
  ihave Hrow2 := (row_retarget c _ _ (src_as_tgt4 c) fullShare f0) $$ R4
  ihave Hrow3 := (row_retarget c _ _ (src_as_tgt3 c) fullShare f0) $$ R3
  ihave Hrow4 := (row_retarget c _ _ (src_as_tgt2 c) fullShare f0) $$ R2
  ihave Hrow5 := (row_retarget c _ _ (src_as_tgt1 c) fullShare f0) $$ R1
  ihave Hrow6 := (row_retarget c _ _ (src_as_tgt0 c) fullShare f0) $$ R0
  ihave Hown := (row_retarget c c c rfl fullShare f0) $$ Hown0
  unfold rowPts
  have hmw := mayWait_bar (F := F) c
  unfold OR0 OR1 OR2 OR3 OR4 OR5 OR6 rT at hmw
  sl_unfold [cc0_body]
  -- the seven signals, the row sums, their store, the entry wait
  sl_exec (disch := simp only [dev8_eq, dev9_eq, dev10_eq, dev11_eq, dev12_eq, dev13_eq, dev14_eq])
  ihave Hp := (Entails.of_eq (bar_payloads m c)) $$ HaB_pay1
  icases Hp with ⟨P6, P5, P4, P3, P2, P1, P0⟩
  ihave Hown' := (Entails.of_eq (pointsTo_congr (g := tbl m) (fun i hi => stored_row m c f0 i hi))) $$ Hown
  ihave Hs := (Transfers.pointsTo_toks_split fullShare 7) $$ Hown'
  icases Hs with ⟨Hrem, Htoks⟩
  ihave Htoks' := (Entails.of_eq (bigSep_fin7 _)) $$ Htoks
  icases Htoks' with ⟨Hk0, Hk1, Hk2, Hk3, Hk4, Hk5, Hk6⟩
  -- copy 0
  icases P0 with ⟨⟨%fd0, Hd0⟩, -⟩
  iapply (wp_send_row m c _ 0 rfl (K (c, 1)) (K (tgt 0 c, 8)) fd0 _ _) $$ [HO Hk0 Hd0 HtS0 HtR0]
  · unfold rowPts
    isplitr; · iexact HIs0
    isplitr; · iexact HIrt0
    isplitl [Hk0]; · iexact Hk0
    isplitl [Hd0]; · iexact Hd0
    isplitl [HO]; · iexact HO
    isplitl [HtS0]; · iexact HtS0
    isplitr; · iexact HRs0
    isplitl [HtR0]; · iexact HtR0
    iexact HRrt0
  iintro ⟨HcS0, HO⟩
  sl_exec (disch := simp only [dev8_eq, dev9_eq, dev10_eq, dev11_eq, dev12_eq, dev13_eq, dev14_eq])
  -- copy 1
  icases P1 with ⟨⟨%fd1, Hd1⟩, -⟩
  iapply (wp_send_row m c _ 1 rfl (K (c, 2)) (K (tgt 1 c, 9)) fd1 _ _) $$ [HO Hk1 Hd1 HtS1 HtR1]
  · unfold rowPts
    isplitr; · iexact HIs1
    isplitr; · iexact HIrt1
    isplitl [Hk1]; · iexact Hk1
    isplitl [Hd1]; · iexact Hd1
    isplitl [HO]; · iexact HO
    isplitl [HtS1]; · iexact HtS1
    isplitr; · iexact HRs1
    isplitl [HtR1]; · iexact HtR1
    iexact HRrt1
  iintro ⟨HcS1, HO⟩
  sl_exec (disch := simp only [dev8_eq, dev9_eq, dev10_eq, dev11_eq, dev12_eq, dev13_eq, dev14_eq])
  -- copy 2
  icases P2 with ⟨⟨%fd2, Hd2⟩, -⟩
  iapply (wp_send_row m c _ 2 rfl (K (c, 3)) (K (tgt 2 c, 10)) fd2 _ _) $$ [HO Hk2 Hd2 HtS2 HtR2]
  · unfold rowPts
    isplitr; · iexact HIs2
    isplitr; · iexact HIrt2
    isplitl [Hk2]; · iexact Hk2
    isplitl [Hd2]; · iexact Hd2
    isplitl [HO]; · iexact HO
    isplitl [HtS2]; · iexact HtS2
    isplitr; · iexact HRs2
    isplitl [HtR2]; · iexact HtR2
    iexact HRrt2
  iintro ⟨HcS2, HO⟩
  sl_exec (disch := simp only [dev8_eq, dev9_eq, dev10_eq, dev11_eq, dev12_eq, dev13_eq, dev14_eq])
  -- copy 3
  icases P3 with ⟨⟨%fd3, Hd3⟩, -⟩
  iapply (wp_send_row m c _ 3 rfl (K (c, 4)) (K (tgt 3 c, 11)) fd3 _ _) $$ [HO Hk3 Hd3 HtS3 HtR3]
  · unfold rowPts
    isplitr; · iexact HIs3
    isplitr; · iexact HIrt3
    isplitl [Hk3]; · iexact Hk3
    isplitl [Hd3]; · iexact Hd3
    isplitl [HO]; · iexact HO
    isplitl [HtS3]; · iexact HtS3
    isplitr; · iexact HRs3
    isplitl [HtR3]; · iexact HtR3
    iexact HRrt3
  iintro ⟨HcS3, HO⟩
  sl_exec (disch := simp only [dev8_eq, dev9_eq, dev10_eq, dev11_eq, dev12_eq, dev13_eq, dev14_eq])
  -- copy 4
  icases P4 with ⟨⟨%fd4, Hd4⟩, -⟩
  iapply (wp_send_row m c _ 4 rfl (K (c, 5)) (K (tgt 4 c, 12)) fd4 _ _) $$ [HO Hk4 Hd4 HtS4 HtR4]
  · unfold rowPts
    isplitr; · iexact HIs4
    isplitr; · iexact HIrt4
    isplitl [Hk4]; · iexact Hk4
    isplitl [Hd4]; · iexact Hd4
    isplitl [HO]; · iexact HO
    isplitl [HtS4]; · iexact HtS4
    isplitr; · iexact HRs4
    isplitl [HtR4]; · iexact HtR4
    iexact HRrt4
  iintro ⟨HcS4, HO⟩
  sl_exec (disch := simp only [dev8_eq, dev9_eq, dev10_eq, dev11_eq, dev12_eq, dev13_eq, dev14_eq])
  -- copy 5
  icases P5 with ⟨⟨%fd5, Hd5⟩, -⟩
  iapply (wp_send_row m c _ 5 rfl (K (c, 6)) (K (tgt 5 c, 13)) fd5 _ _) $$ [HO Hk5 Hd5 HtS5 HtR5]
  · unfold rowPts
    isplitr; · iexact HIs5
    isplitr; · iexact HIrt5
    isplitl [Hk5]; · iexact Hk5
    isplitl [Hd5]; · iexact Hd5
    isplitl [HO]; · iexact HO
    isplitl [HtS5]; · iexact HtS5
    isplitr; · iexact HRs5
    isplitl [HtR5]; · iexact HtR5
    iexact HRrt5
  iintro ⟨HcS5, HO⟩
  sl_exec (disch := simp only [dev8_eq, dev9_eq, dev10_eq, dev11_eq, dev12_eq, dev13_eq, dev14_eq])
  -- copy 6
  icases P6 with ⟨⟨%fd6, Hd6⟩, -⟩
  iapply (wp_send_row m c _ 6 rfl (K (c, 7)) (K (tgt 6 c, 14)) fd6 _ _) $$ [HO Hk6 Hd6 HtS6 HtR6]
  · unfold rowPts
    isplitr; · iexact HIs6
    isplitr; · iexact HIrt6
    isplitl [Hk6]; · iexact Hk6
    isplitl [Hd6]; · iexact Hd6
    isplitl [HO]; · iexact HO
    isplitl [HtS6]; · iexact HtS6
    isplitr; · iexact HRs6
    isplitl [HtR6]; · iexact HtR6
    iexact HRrt6
  iintro ⟨HcS6, HO⟩
  sl_exec (disch := simp only [dev8_eq, dev9_eq, dev10_eq, dev11_eq, dev12_eq, dev13_eq, dev14_eq])
  -- every landed row: its full share as the remainder and seven read tokens; the table at the remainder share
  ihave U0 := (Transfers.pointsTo_toks_split fullShare 7) $$ HaR0_pay1
  icases U0 with ⟨D0, TT0⟩
  ihave U1 := (Transfers.pointsTo_toks_split fullShare 7) $$ HaR1_pay1
  icases U1 with ⟨D1, TT1⟩
  ihave U2 := (Transfers.pointsTo_toks_split fullShare 7) $$ HaR2_pay1
  icases U2 with ⟨D2, TT2⟩
  ihave U3 := (Transfers.pointsTo_toks_split fullShare 7) $$ HaR3_pay1
  icases U3 with ⟨D3, TT3⟩
  ihave U4 := (Transfers.pointsTo_toks_split fullShare 7) $$ HaR4_pay1
  icases U4 with ⟨D4, TT4⟩
  ihave U5 := (Transfers.pointsTo_toks_split fullShare 7) $$ HaR5_pay1
  icases U5 with ⟨D5, TT5⟩
  ihave U6 := (Transfers.pointsTo_toks_split fullShare 7) $$ HaR6_pay1
  icases U6 with ⟨D6, TT6⟩
  ihave Htab := (table_rows_join c (Transfers.shareDrop fullShare 7) (tbl m)) $$ [Hrem D0 D1 D2 D3 D4 D5 D6]
  · unfold rowPts
    isplitl [Hrem]; · iexact Hrem
    isplitl [D0]; · iexact D0
    isplitl [D1]; · iexact D1
    isplitl [D2]; · iexact D2
    isplitl [D3]; · iexact D3
    isplitl [D4]; · iexact D4
    isplitl [D5]; · iexact D5
    iexact D6
  -- the column sums, the scaling, the store of the result, the seven ends of reading
  sl_exec (disch := simp only [dev8_eq, dev9_eq, dev10_eq, dev11_eq, dev12_eq, dev13_eq, dev14_eq])
  -- the table back whole at the full share: the own row from the remainder and the seven tokens its copies return,
  -- every landed row from its remainder and its seven tokens
  ihave Hr := (table_rows_split c (Transfers.shareDrop fullShare 7) (tbl m)) $$ Htab
  icases Hr with ⟨Hrem, D0, D1, D2, D3, D4, D5, D6⟩
  unfold rowPts
  ihave Hks := (Entails.of_eq (bigSep_fin7 (fun i : Fin 7 => ((rowM c).view.loc (c : Thread nD τ) ↦[(rowM c).view.set]{Transfers.shareTok fullShare 7 i} tbl m : sProp 𝕄))).symm) $$ [HaS0_pay1 HaS1_pay1 HaS2_pay1 HaS3_pay1 HaS4_pay1 HaS5_pay1 HaS6_pay1]
  · isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    iexact HaS6_pay1
  ihave Hc := (Transfers.pointsTo_toks_join fullShare 7) $$ [Hrem Hks]
  · isplitl [Hrem]; · iexact Hrem
    iexact Hks
  ihave F0 := (Transfers.pointsTo_toks_join fullShare 7) $$ [D0 TT0]
  · isplitl [D0]; · iexact D0
    iexact TT0
  ihave F1 := (Transfers.pointsTo_toks_join fullShare 7) $$ [D1 TT1]
  · isplitl [D1]; · iexact D1
    iexact TT1
  ihave F2 := (Transfers.pointsTo_toks_join fullShare 7) $$ [D2 TT2]
  · isplitl [D2]; · iexact D2
    iexact TT2
  ihave F3 := (Transfers.pointsTo_toks_join fullShare 7) $$ [D3 TT3]
  · isplitl [D3]; · iexact D3
    iexact TT3
  ihave F4 := (Transfers.pointsTo_toks_join fullShare 7) $$ [D4 TT4]
  · isplitl [D4]; · iexact D4
    iexact TT4
  ihave F5 := (Transfers.pointsTo_toks_join fullShare 7) $$ [D5 TT5]
  · isplitl [D5]; · iexact D5
    iexact TT5
  ihave F6 := (Transfers.pointsTo_toks_join fullShare 7) $$ [D6 TT6]
  · isplitl [D6]; · iexact D6
    iexact TT6
  ihave Htable := (table_rows_join c fullShare (tbl m)) $$ [Hc F0 F1 F2 F3 F4 F5 F6]
  · unfold rowPts
    isplitl [Hc]; · iexact Hc
    isplitl [F0]; · iexact F0
    isplitl [F1]; · iexact F1
    isplitl [F2]; · iexact F2
    isplitl [F3]; · iexact F3
    isplitl [F4]; · iexact F4
    isplitl [F5]; · iexact F5
    iexact F6
  -- the fourteen own cells close: their counters at zero are the device's again
  imod (Rounds.cell_close ER (exRd m) (Set.mem_univ (K (c, 1))) (fun h => h) (R := 1) (duties_later m (sendCell 0 c))) $$ [HaS0] with HzS0
  · isplitr; · iexact HIs0
    iexact HaS0
  imod (Rounds.cell_close ER (exRd m) (Set.mem_univ (K (c, 2))) (fun h => h) (R := 1) (duties_later m (sendCell 1 c))) $$ [HaS1] with HzS1
  · isplitr; · iexact HIs1
    iexact HaS1
  imod (Rounds.cell_close ER (exRd m) (Set.mem_univ (K (c, 3))) (fun h => h) (R := 1) (duties_later m (sendCell 2 c))) $$ [HaS2] with HzS2
  · isplitr; · iexact HIs2
    iexact HaS2
  imod (Rounds.cell_close ER (exRd m) (Set.mem_univ (K (c, 4))) (fun h => h) (R := 1) (duties_later m (sendCell 3 c))) $$ [HaS3] with HzS3
  · isplitr; · iexact HIs3
    iexact HaS3
  imod (Rounds.cell_close ER (exRd m) (Set.mem_univ (K (c, 5))) (fun h => h) (R := 1) (duties_later m (sendCell 4 c))) $$ [HaS4] with HzS4
  · isplitr; · iexact HIs4
    iexact HaS4
  imod (Rounds.cell_close ER (exRd m) (Set.mem_univ (K (c, 6))) (fun h => h) (R := 1) (duties_later m (sendCell 5 c))) $$ [HaS5] with HzS5
  · isplitr; · iexact HIs5
    iexact HaS5
  imod (Rounds.cell_close ER (exRd m) (Set.mem_univ (K (c, 7))) (fun h => h) (R := 1) (duties_later m (sendCell 6 c))) $$ [HaS6] with HzS6
  · isplitr; · iexact HIs6
    iexact HaS6
  imod (Rounds.cell_close ER (exRd m) (Set.mem_univ (K (c, 8))) (fun h => h) (R := 1) (duties_later m (recvCell 0 c))) $$ [HaR0] with HzR0
  · isplitr; · iexact HIr0
    iexact HaR0
  imod (Rounds.cell_close ER (exRd m) (Set.mem_univ (K (c, 9))) (fun h => h) (R := 1) (duties_later m (recvCell 1 c))) $$ [HaR1] with HzR1
  · isplitr; · iexact HIr1
    iexact HaR1
  imod (Rounds.cell_close ER (exRd m) (Set.mem_univ (K (c, 10))) (fun h => h) (R := 1) (duties_later m (recvCell 2 c))) $$ [HaR2] with HzR2
  · isplitr; · iexact HIr2
    iexact HaR2
  imod (Rounds.cell_close ER (exRd m) (Set.mem_univ (K (c, 11))) (fun h => h) (R := 1) (duties_later m (recvCell 3 c))) $$ [HaR3] with HzR3
  · isplitr; · iexact HIr3
    iexact HaR3
  imod (Rounds.cell_close ER (exRd m) (Set.mem_univ (K (c, 12))) (fun h => h) (R := 1) (duties_later m (recvCell 4 c))) $$ [HaR4] with HzR4
  · isplitr; · iexact HIr4
    iexact HaR4
  imod (Rounds.cell_close ER (exRd m) (Set.mem_univ (K (c, 13))) (fun h => h) (R := 1) (duties_later m (recvCell 5 c))) $$ [HaR5] with HzR5
  · isplitr; · iexact HIr5
    iexact HaR5
  imod (Rounds.cell_close ER (exRd m) (Set.mem_univ (K (c, 14))) (fun h => h) (R := 1) (duties_later m (recvCell 6 c))) $$ [HaR6] with HzR6
  · isplitr; · iexact HIr6
    iexact HaR6
  sl_step
  subst hPost
  iapply Hk
  unfold bodyPost Φ₁ Dat.owesAt Pipeline.owesWithin
  rw [show (dats m ρ 0 c).owed t0_0.succ = 0 from rfl]
  isplitl [Htable HzS0 HzS1 HzS2 HzS3 HzS4 HzS5 HzS6 HzR0 HzR1 HzR2 HzR3 HzR4 HzR5 HzR6]
  · isplitl [Htable]; · iexists (tbl m); unfold scrPts; iexact Htable
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]
  · iexists _; isplitr
    rotate_left
    · iexact HO
    · ipureintro; exact fun _ _ => Or.inl trivial
  isplitl [Hx]
  · iexists _; isplitr; · (ipureintro; rfl)
    iexact Hx
  isplitl [Hg]
  · iexists _; isplitr; · (ipureintro; rfl)
    iexact Hg
  iexists _; isplitr
  rotate_left
  · iexact Hout
  · ipureintro; exact out_stored m c g2

/-- info: 'Cert.KernelIdeal.Proto.sound_body' depends on axioms: [propext, Classical.choice, Quot.sound] -/
#guard_msgs in #print axioms sound_body

end Cert.KernelIdeal.Proto

end
-- ==== Proof.Bits.Spec.lean ====
/-
  What each device's result block is, as one pure term of every device's argument blocks.

  Device `c` of the eight holds a block `X c` of 512 columns of the 1024 × 4096 input and the matching 512 entries
  `G c` of the scale vector. Every device first sums the squares of its own block along each row (1024 partial sums),
  the eight devices exchange these rows, so that each ends with the same 8 × 1024 table whose row `d` is device
  `d`'s partial sums; the table summed down its columns is the full row-wise sum of squares over all 4096 columns,
  and the device scales its own block by the scale vector and by the reciprocal root of (that sum / 4096 + eps).
-/
import proofs.«900465_g7700000000000466_dist_rmsnorm_colshard_i_m1024_n512_v7x_i8_bf16_1_alg».proof.Proof.Gen.Kernel.Skeleton
import Idealize.ShloMosaic.Lib.ValueIdx

noncomputable section

namespace Cert.Kernel.Spec

open Idealize.ShloMosaic Cert.Kernel Cert.Kernel.Gen

variable {F : FTy → Type} [FloatOps F]

/-- The exchanged table: entry (d, r) is device `d`'s partial sum of squares of row `r`. -/
def gathered (X : Dev nD → Vec F S1024x512 .f32) : Vec F S8x1024 .f32 :=
  fun i => k0_pay2 (X (i 0)) (ValueIdx.ix2 (0 : Fin 1) (i 1))

/-- Device `c`'s result block: its own block scaled by the scale vector and by the reciprocal root of the mean square
    of the whole row, the mean taken over the exchanged table. -/
def outOf (X : Dev nD → Vec F S1024x512 .f32) (G : Dev nD → Vec F S512 .f32) (c : Dev nD) : FVec F S1024x512 .bf16 :=
  k0_pay4 (k0_pay3 (k0_pay1 (X c)) (G c)) (gathered X)

end Cert.Kernel.Spec

end
-- ==== Proof.Bits.Proto.lean ====
/-
  The exchange protocol of the eight devices, as a schedule of duties.

  Every device signals each of the seven others once on the shared entry semaphore and waits for seven units: a
  device that has passed this wait knows every peer is inside the kernel. Device `c` then copies its own row of
  partial sums (row `c` of its 8 × 1024 table) into row `c` of each peer's table: copy `j` (j = 0..6) goes to the
  device `j + 1` places further round the ring, pays that device's receive cell `j` and its own send cell `j`.
  So receive cell `j` of device `c` is paid exactly once, by the device `j + 1` places before it, whose row it lands.
-/
import proofs.«900465_g7700000000000466_dist_rmsnorm_colshard_i_m1024_n512_v7x_i8_bf16_1_alg».proof.Proof.Bits.Spec
import proofs.«900465_g7700000000000466_dist_rmsnorm_colshard_i_m1024_n512_v7x_i8_bf16_1_alg».proof.Proof.Gen.Kernel.Launch
import proofs.«900465_g7700000000000466_dist_rmsnorm_colshard_i_m1024_n512_v7x_i8_bf16_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (one duty per cell) beside the exchange's (seven duty names) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring: who is `j + 1` places further, who is `j + 1` places before -/

/-- The device `j + 1` places after `c`: where `c`'s signal `j` and copy `j` go. -/
def tgt (j : Fin 7) (c : Dev nD) : Dev nD := ⟨(c.val + (j.val + 1)) % 8, Nat.mod_lt _ (by decide)⟩
/-- The device `j + 1` places before `c`: whose signal `j` and copy `j` reach `c`. -/
def src (j : Fin 7) (c : Dev nD) : Dev nD := ⟨((c.val + 7) - j.val) % 8, Nat.mod_lt _ (by decide)⟩
/-- The copy by which the device that signalled `c` with its signal `j` is reached from `c`. -/
def rev (j : Fin 7) : Fin 7 := ⟨6 - j.val, by omega⟩

theorem src_tgt (j : Fin 7) (c : Dev nD) : src j (tgt j c) = c := by revert j c; decide
theorem tgt_src (j : Fin 7) (c : Dev nD) : tgt j (src j c) = c := by revert j c; decide
theorem tgt_rev (j : Fin 7) (c : Dev nD) : tgt (rev j) c = src j c := by revert j c; decide
theorem rev_rev (j : Fin 7) : rev (rev j) = j := by revert j; decide
theorem tgt_ne (j : Fin 7) (c : Dev nD) : tgt j c ≠ c := by revert j c; decide
theorem src_ne (j : Fin 7) (c : Dev nD) : src j c ≠ c := by revert j c; decide
theorem tgt_inj (c : Dev nD) : Function.Injective (fun j => tgt j c) := by revert c; decide
theorem src_inj (c : Dev nD) : Function.Injective (fun j => src j c) := by revert c; decide

/-- Round the ring by `j + 1` places, as a permutation of the devices. -/
def ring (j : Fin 7) : Dev nD ≃ Dev nD := ⟨tgt j, src j, src_tgt j, tgt_src j⟩

/-- The program's device chains: signal `j` and copy `j` both name the device `j + 1` places further. -/
theorem dev1_eq (c : Dev nD) : (⟨k0_dev1 c, k0_dev1_lt c⟩ : Dev nD) = tgt 0 c := Fin.ext (k0_dev1_eq c)
theorem dev2_eq (c : Dev nD) : (⟨k0_dev2 c, k0_dev2_lt c⟩ : Dev nD) = tgt 1 c := Fin.ext (k0_dev2_eq c)
theorem dev3_eq (c : Dev nD) : (⟨k0_dev3 c, k0_dev3_lt c⟩ : Dev nD) = tgt 2 c := Fin.ext (k0_dev3_eq c)
theorem dev4_eq (c : Dev nD) : (⟨k0_dev4 c, k0_dev4_lt c⟩ : Dev nD) = tgt 3 c := Fin.ext (k0_dev4_eq c)
theorem dev5_eq (c : Dev nD) : (⟨k0_dev5 c, k0_dev5_lt c⟩ : Dev nD) = tgt 4 c := Fin.ext (k0_dev5_eq c)
theorem dev6_eq (c : Dev nD) : (⟨k0_dev6 c, k0_dev6_lt c⟩ : Dev nD) = tgt 5 c := Fin.ext (k0_dev6_eq c)
theorem dev7_eq (c : Dev nD) : (⟨k0_dev7 c, k0_dev7_lt c⟩ : Dev nD) = tgt 6 c := Fin.ext (k0_dev7_eq c)
theorem dev8_eq (c : Dev nD) : (⟨k0_dev8 c, k0_dev8_lt c⟩ : Dev nD) = tgt 0 c := Fin.ext (k0_dev8_eq c)
theorem dev9_eq (c : Dev nD) : (⟨k0_dev9 c, k0_dev9_lt c⟩ : Dev nD) = tgt 1 c := Fin.ext (k0_dev9_eq c)
theorem dev10_eq (c : Dev nD) : (⟨k0_dev10 c, k0_dev10_lt c⟩ : Dev nD) = tgt 2 c := Fin.ext (k0_dev10_eq c)
theorem dev11_eq (c : Dev nD) : (⟨k0_dev11 c, k0_dev11_lt c⟩ : Dev nD) = tgt 3 c := Fin.ext (k0_dev11_eq c)
theorem dev12_eq (c : Dev nD) : (⟨k0_dev12 c, k0_dev12_lt c⟩ : Dev nD) = tgt 4 c := Fin.ext (k0_dev12_eq c)
theorem dev13_eq (c : Dev nD) : (⟨k0_dev13 c, k0_dev13_lt c⟩ : Dev nD) = tgt 5 c := Fin.ext (k0_dev13_eq c)
theorem dev14_eq (c : Dev nD) : (⟨k0_dev14 c, k0_dev14_lt c⟩ : Dev nD) = tgt 6 c := Fin.ext (k0_dev14_eq c)

/-! ## The cells -/

/-- The shared entry semaphore (the runtime's, not scoped to the kernel). -/
abbrev barS : Sem sig := (SemArray.scalar (sig.barrier 0 rfl) : Sems sig S_).sem
/-- Send semaphore `j` and receive semaphore `j`, as the program slices them out of its two arrays of seven. -/
abbrev sendS (j : Fin 7) : DmaSem sig := ⟨3 + j.val, by show 3 + j.val < 17; omega⟩
abbrev recvS (j : Fin 7) : DmaSem sig := ⟨10 + j.val, by show 10 + j.val < 17; omega⟩

theorem sendS_spelt0 : ((cc0_scratch1.slice (Rect.unit (s := S7) ![0] S1.size inb_S7_S1_0)).squeeze S_ squeezes_S1_S_).sem = sendS 0 := by decide
theorem recvS_spelt0 : ((cc0_scratch2.slice (Rect.unit (s := S7) ![0] S1.size inb_S7_S1_0)).squeeze S_ squeezes_S1_S_).sem = recvS 0 := by decide
theorem sendS_spelt6 : ((cc0_scratch1.slice (Rect.unit (s := S7) ![6] S1.size inb_S7_S1_6)).squeeze S_ squeezes_S1_S_).sem = sendS 6 := by decide
theorem recvS_spelt6 : ((cc0_scratch2.slice (Rect.unit (s := S7) ![6] S1.size inb_S7_S1_6)).squeeze S_ squeezes_S1_S_).sem = recvS 6 := by decide

abbrev barCell (c : Dev nD) : GSem nD τ sig := ((c : Thread nD τ), .reg barS)
abbrev sendCell (j : Fin 7) (c : Dev nD) : GSem nD τ sig := ((c : Thread nD τ), .dma (sendS j))
abbrev recvCell (j : Fin 7) (c : Dev nD) : GSem nD τ sig := ((c : Thread nD τ), .dma (recvS j))

/-! ## The buffers -/

abbrev xM : Memref sig .tc .vmem S1024x512 .f32 := Memref.whole cc0_stg0_0
abbrev gM : Memref sig .tc .vmem S512 .f32 := Memref.whole cc0_stg1_0
abbrev oM : Memref sig .tc .vmem S1024x512 .bf16 := Memref.whole cc0_stg2_0
/-- The 8 × 1024 table of partial sums, -/
abbrev cM : Memref sig .tc .vmem S8x1024 .f32 := Memref.whole cc0_scratch0
/-- and its row `d`, as the program slices it. -/
abbrev rowM (d : Dev nD) : Memref sig .tc .vmem S1x1024 .f32 :=
  cM.slice (Rect.unit (s := S8x1024) (k0_off2 d) S1x1024.size (k0_off2_inb d)) (fun _ => rfl)

/-- The words one row's transfer credits. -/
abbrev N : ℕ := (rowM (0 : Dev nD)).view.dmaCredit

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Contents -/

/-- Device `c`'s block of the input and of the scale vector, as its staging buffers hold them. -/
def xblk (c : Dev nD) : (cc0_stg0_0 : Ref sig .tc).ty.Contents (Elt F) :=
  (win0_0.blk (0 : Fin 1)).view.read (Elt F) (m ((c : Thread nD τ).loc main_arg0))
def gblk (c : Dev nD) : (cc0_stg1_0 : Ref sig .tc).ty.Contents (Elt F) :=
  (win0_1.blk (0 : Fin 1)).view.read (Elt F) (m ((c : Thread nD τ).loc main_arg1))

/-- The table every device ends with: row `d` is device `d`'s partial sums. -/
def tbl : (cc0_scratch0 : Ref sig .tc).ty.Contents (Elt F) := Spec.gathered (xblk m)

/-- The result block of device `c`. -/
def outAt (c : Dev nD) : (cc0_stg2_0 : Ref sig .tc).ty.Contents (Elt F) := Spec.outOf (xblk m) (gblk m) c

/-- Row `d` of device `p`'s table, held outright at contents `f`. -/
def rowPts (p d : Dev nD) (q : PosShare TreeShare) (f : Buf (Elt F) ((rowM d).view.loc (p : Thread nD τ))) : sProp 𝕄 :=
  (rowM d).view.loc (p : Thread nD τ) ↦[(rowM d).view.set]{q} f

/-! ## The schedule -/

/-- Which of the exchange's cells a semaphore is: the entry semaphore, send `j`, receive `j`, or none (a staging
    semaphore of the launch). -/
inductive Role where
  | bar | send (j : Fin 7) | recv (j : Fin 7) | none
deriving DecidableEq

def role : SemLoc sig → Role
  | .reg _ => .bar
  | .dma q =>
    if h : 3 ≤ q.val ∧ q.val < 10 then .send ⟨q.val - 3, by omega⟩
    else if h' : 10 ≤ q.val then .recv ⟨q.val - 10, by have : q.val < 17 := q.isLt; omega⟩
    else .none

theorem role_bar : role (.reg barS) = .bar := rfl
theorem role_send (j : Fin 7) : role (.dma (sendS j)) = .send j := by revert j; decide
theorem role_recv (j : Fin 7) : role (.dma (recvS j)) = .recv j := by revert j; decide

theorem N_pos : 0 < N := View.dmaCredit_pos _ (by decide)

/-- What device `p`'s signal `j` hands the device `c` it reaches: row `c` of `p`'s table outright, at whatever it
    holds, and that `p` stands at round 0 of its receive cell `rev j` — the two things `c`'s copy `rev j`, which
    lands in that row and pays that cell, needs. -/
def barPayFrom (p c : Dev nD) (j : Fin 7) : sProp 𝕄 :=
  iprop((∃ f, rowPts p c fullShare f) ∗ reached ER (recvCell (rev j) p) 0)
/-- What the landing of copy `j` hands device `c`: the row of the device `j + 1` places before it, holding that
    device's partial sums. -/
def recvPay (j : Fin 7) (c : Dev nD) : sProp 𝕄 := rowPts c (src j c) fullShare (tbl m)
/-- What the end of copy `j`'s reading hands back: the share of its own row the copy read through. -/
def sendPay (j : Fin 7) (c : Dev nD) : sProp 𝕄 := rowPts c c (Transfers.shareTok fullShare 7 j) (tbl m)

/-- One round per cell. The entry cell of `c`: seven duties of one unit, duty `j` paid by the device `j + 1` places
    before `c`. A send or receive cell: one duty (named 0) of a row's credit. -/
def exRd : Rounds.Schedule (GSem nD τ sig) (Fin 7) 𝕄 where
  duties g r := if r = 0 ∧ g.1.2 = .tc then
      (match role g.2 with | .bar => Finset.univ | .send _ => {0} | .recv _ => {0} | .none => ∅) else ∅
  amount g _ _ := match role g.2 with | .bar => 1 | _ => N
  payload g _ d := match role g.2 with
    | .bar => barPayFrom (src d g.1.1) g.1.1 d
    | .send j => sendPay m j g.1.1
    | .recv j => recvPay m j g.1.1
    | .none => iprop(emp)
  amount_pos g _ _ _ := by
    cases h : role g.2 <;> simp only [h] <;> first | exact Nat.one_pos | exact N_pos

instance exRd_payload_storable (g : GSem nD τ sig) (r : ℕ) (d : Fin 7) :
    BI.Storable (upEmb : UEmb _ 𝕄) ((exRd (F := F) m).payload g r d) := by
  show BI.Storable upEmb (match role g.2 with
    | .bar => barPayFrom (src d g.1.1) g.1.1 d
    | .send j => sendPay m j g.1.1
    | .recv j => recvPay m j g.1.1
    | .none => iprop(emp))
  unfold barPayFrom sendPay recvPay rowPts
  split <;> infer_instance

section Sched
variable (c : Dev nD) (j : Fin 7)

theorem duties_bar : (exRd (F := F) m).duties (barCell c) 0 = Finset.univ := by
  dsimp only [exRd]; rw [if_pos ⟨rfl, rfl⟩]; rfl
theorem duties_send : (exRd (F := F) m).duties (sendCell j c) 0 = {0} := by
  dsimp only [exRd]; rw [if_pos ⟨rfl, rfl⟩, role_send]
theorem duties_recv : (exRd (F := F) m).duties (recvCell j c) 0 = {0} := by
  dsimp only [exRd]; rw [if_pos ⟨rfl, rfl⟩, role_recv]
theorem duties_later (g : GSem nD τ sig) : ∀ r, 1 ≤ r → (exRd (F := F) m).duties g r = ∅ :=
  fun r hr => by dsimp only [exRd]; rw [if_neg fun h => by omega]

theorem amount_bar (d : Fin 7) : (exRd (F := F) m).amount (barCell c) 0 d = 1 := rfl
theorem amount_send (d : Fin 7) : (exRd (F := F) m).amount (sendCell j c) 0 d = N := by
  dsimp only [exRd]; rw [role_send]
theorem amount_recv (d : Fin 7) : (exRd (F := F) m).amount (recvCell j c) 0 d = N := by
  dsimp only [exRd]; rw [role_recv]

theorem expect_bar : (exRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (exRd (F := F) m).expect (sendCell j c) 0 = N := by
  unfold Schedule.expect Schedule.amountOf; rw [duties_send, Finset.sum_singleton, amount_send]
theorem expect_recv : (exRd (F := F) m).expect (recvCell j c) 0 = N := by
  unfold Schedule.expect Schedule.amountOf; rw [duties_recv, Finset.sum_singleton, amount_recv]

theorem payload_bar (d : Fin 7) : (exRd (F := F) m).payload (barCell c) 0 d = barPayFrom (src d c) c d := rfl
/-- The duty `c` itself pays on the entry cell of the device its signal `j` reaches. -/
theorem payload_bar_tgt : (exRd (F := F) m).payload (barCell (tgt j c)) 0 j = barPayFrom c (tgt j c) j := by
  rw [payload_bar, src_tgt]
theorem payload_send (d : Fin 7) : (exRd (F := F) m).payload (sendCell j c) 0 d = sendPay m j c := by
  dsimp only [exRd]; rw [role_send]
theorem payload_recv (d : Fin 7) : (exRd (F := F) m).payload (recvCell j c) 0 d = recvPay m j c := by
  dsimp only [exRd]; rw [role_recv]

theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The whole of the entry cell's round: the seven peers' payloads. -/
theorem rest_bar : bigSep ((exRd (F := F) m).duties (barCell c) 0 \ ∅) (fun d => (exRd (F := F) m).payload (barCell c) 0 d)
    = iprop(barPayFrom (src 0 c) c 0 ∗ barPayFrom (src 1 c) c 1 ∗ barPayFrom (src 2 c) c 2 ∗ barPayFrom (src 3 c) c 3
        ∗ barPayFrom (src 4 c) c 4 ∗ barPayFrom (src 5 c) c 5 ∗ barPayFrom (src 6 c) c 6) := by
  rw [Finset.sdiff_empty, duties_bar, bigSep_fin7]; rfl
theorem rest_send : bigSep ((exRd (F := F) m).duties (sendCell j c) 0 \ ∅) (fun d => (exRd (F := F) m).payload (sendCell j c) 0 d) = sendPay m j c := by
  rw [Finset.sdiff_empty, duties_send, bigSep_singleton, payload_send]
theorem rest_recv : bigSep ((exRd (F := F) m).duties (recvCell j c) 0 \ ∅) (fun d => (exRd (F := F) m).payload (recvCell j c) 0 d) = recvPay m j c := by
  rw [Finset.sdiff_empty, duties_recv, bigSep_singleton, payload_recv]

end Sched

/-! ## What each device owes at launch; the levels -/

/-- The credit copy `j` of `c` owes the receive cell `j` of the device it goes to, and the unit signal `j` owes that
    device's entry cell. -/
def rT (c : Dev nD) (j : Fin 7) : CellTallies nD τ sig Unit := tallyAt (recvCell j (tgt j c)) () N
def bT (c : Dev nD) (j : Fin 7) : CellTallies nD τ sig Unit := tallyAt (barCell (tgt j c)) () 1

/-- What `c` still owes before its copy `k` (copies `k`..6 outstanding), summed so that copy `k` peels the last
    summand; -/
def OR6 (c : Dev nD) : CellTallies nD τ sig Unit := 0 + rT c 6
def OR5 (c : Dev nD) : CellTallies nD τ sig Unit := OR6 c + rT c 5
def OR4 (c : Dev nD) : CellTallies nD τ sig Unit := OR5 c + rT c 4
def OR3 (c : Dev nD) : CellTallies nD τ sig Unit := OR4 c + rT c 3
def OR2 (c : Dev nD) : CellTallies nD τ sig Unit := OR3 c + rT c 2
def OR1 (c : Dev nD) : CellTallies nD τ sig Unit := OR2 c + rT c 1
def OR0 (c : Dev nD) : CellTallies nD τ sig Unit := OR1 c + rT c 0
/-- and before its signal `k` (all seven copies and signals `k`..6 outstanding). -/
def OB6 (c : Dev nD) : CellTallies nD τ sig Unit := OR0 c + bT c 6
def OB5 (c : Dev nD) : CellTallies nD τ sig Unit := OB6 c + bT c 5
def OB4 (c : Dev nD) : CellTallies nD τ sig Unit := OB5 c + bT c 4
def OB3 (c : Dev nD) : CellTallies nD τ sig Unit := OB4 c + bT c 3
def OB2 (c : Dev nD) : CellTallies nD τ sig Unit := OB3 c + bT c 2
def OB1 (c : Dev nD) : CellTallies nD τ sig Unit := OB2 c + bT c 1
/-- Everything, at launch. -/
def O₀ (c : Dev nD) : CellTallies nD τ sig Unit := OB1 c + bT c 0

/-- Seven summands added last-first onto `a` are `a` plus their sum (in any commutative monoid). -/
theorem nest7 {M : Type} [AddCommMonoid M] (a : M) (f : Fin 7 → M) :
    ((((((a + f 6) + f 5) + f 4) + f 3) + f 2) + f 1) + f 0 = a + ∑ j : Fin 7, f j := by
  rw [Fin.sum_univ_seven]
  abel

theorem OR0_eq (c : Dev nD) : OR0 c = ∑ j : Fin 7, rT c j := by
  unfold OR0 OR1 OR2 OR3 OR4 OR5 OR6
  rw [nest7 0 (rT c), zero_add]
/-- The same as one sum over the copies and one over the signals. -/
theorem O₀_eq (c : Dev nD) : O₀ c = (∑ j : Fin 7, rT c j) + ∑ j : Fin 7, bT c j := by
  unfold O₀ OB1 OB2 OB3 OB4 OB5 OB6
  rw [nest7 (OR0 c) (bT c), OR0_eq]

def L (g : GSem nD τ sig) : Finset Unit := if g.1.2 = .tc then {()} else ∅
/-- Entry cells at 1, receive cells at 2, everything else (staging, send) at 0: a device waits on its entry cell
    owing only receive credit, and on its receive cells owing nothing. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (j : Fin 7) (c : Dev nD) (u : Unit) : lv (recvCell j c) u = 2 := by unfold lv; rw [role_recv]

/-- A positive entry of a sum of tallies is a positive entry of one of them. -/
theorem sum_tally_pos {ι : Type} (s : Finset ι) (T : ι → CellTallies nD τ sig Unit) {g : GSem nD τ sig} {u : Unit}
    (h : 0 < (∑ i ∈ s, T i) g u) : ∃ i ∈ s, 0 < T i g u := by
  classical
  induction s using Finset.induction_on with
  | empty => simp at h
  | insert a s ha ih =>
    rw [Finset.sum_insert ha, Pi.add_apply, Finsupp.add_apply] at h
    rcases Nat.add_pos_iff_pos_or_pos.mp h with h1 | h2
    · exact ⟨a, Finset.mem_insert_self _ _, h1⟩
    · obtain ⟨i, hi, hp⟩ := ih h2; exact ⟨i, Finset.mem_insert_of_mem hi, hp⟩

theorem tallyAt_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem OR0_pos {c : Dev nD} {g : GSem nD τ sig} {u : Unit} (h : 0 < OR0 c g u) : ∃ j, g = recvCell j (tgt j c) := by
  rw [OR0_eq] at h
  obtain ⟨j, -, hj⟩ := sum_tally_pos _ _ h
  exact ⟨j, tallyAt_pos (by unfold rT at hj; exact hj)⟩

theorem O₀_pos {c : Dev nD} {g : GSem nD τ sig} {u : Unit} (h : 0 < O₀ c g u) :
    (∃ j, g = recvCell j (tgt j c)) ∨ ∃ j, g = barCell (tgt j c) := by
  rw [O₀_eq, Pi.add_apply, Finsupp.add_apply] at h
  rcases Nat.add_pos_iff_pos_or_pos.mp h with h1 | h2
  · obtain ⟨j, -, hj⟩ := sum_tally_pos _ _ h1; exact .inl ⟨j, tallyAt_pos (by unfold rT at hj; exact hj)⟩
  · obtain ⟨j, -, hj⟩ := sum_tally_pos _ _ h2; exact .inr ⟨j, tallyAt_pos (by unfold bT at hj; exact hj)⟩

omit [FloatOps F] in
/-- A wait on a cell at level 0 (a staging cell of the launch) is below everything a device can owe. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact Nat.le_of_eq hq)
      (fun g u hg => by
        rcases O₀_pos hg with ⟨j, rfl⟩ | ⟨j, rfl⟩
        · rw [lv_recv]; decide
        · rw [lv_bar]; decide)
  · rw [MayWait_zero]; iintro -; iempintro

omit [FloatOps F] in
/-- At its entry wait a device owes receive credit only: above its entry cell. -/
theorem mayWait_bar (c : Dev nD) :
    (levAts L lv : sProp 𝕄) ⊢ MayWait (c : Thread nD τ) (.reg barS) () (OR0 c) :=
  MayOwe.of_cut (L := L) (lev := lv) 1 (fun p hp => by rw [Finset.mem_singleton.mp hp, L_tc]; exact Finset.mem_singleton_self _)
    (fun g u hg => by obtain ⟨j, rfl⟩ := OR0_pos hg; exact Finset.mem_singleton_self _)
    (fun p hp => by rw [Finset.mem_singleton.mp hp]; exact Nat.le_refl _)
    (fun g u hg => by obtain ⟨j, rfl⟩ := OR0_pos hg; rw [lv_recv]; decide)

end Cert.Kernel.Proto

end
-- ==== Proof.Bits.Cells.lean ====
/-
  The exchange's cells as one family, and the table's rows as element sets.

  Each device has fifteen cells: its entry cell, seven send cells and seven receive cells. Row `d` of the 8 × 1024
  table is the set of its entries whose first coordinate is `d`; the eight rows are pairwise disjoint and cover the table.
-/
import proofs.«900465_g7700000000000466_dist_rmsnorm_colshard_i_m1024_n512_v7x_i8_bf16_1_alg».proof.Proof.Bits.Proto

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The fifteen cells of a device -/

/-- 0: the entry cell; 1 + j: send cell `j`; 8 + j: receive cell `j`. -/
abbrev csem : Fin 15 → SemLoc sig := fun | 0 => .reg barS | 1 => .dma (sendS 0) | 2 => .dma (sendS 1) | 3 => .dma (sendS 2) | 4 => .dma (sendS 3) | 5 => .dma (sendS 4) | 6 => .dma (sendS 5) | 7 => .dma (sendS 6) | 8 => .dma (recvS 0) | 9 => .dma (recvS 1) | 10 => .dma (recvS 2) | 11 => .dma (recvS 3) | 12 => .dma (recvS 4) | 13 => .dma (recvS 5) | 14 => .dma (recvS 6)
abbrev kcell (ck : Dev nD × Fin 15) : GSem nD τ sig := ((ck.1 : Thread nD τ), csem ck.2)

theorem csem_injective : Function.Injective csem := by decide
theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The kernel's own (scoped) semaphores, as the launch indexes them: the seven send and seven receive semaphores. -/
abbrev osem : Fin 14 → SemLoc sig := fun k => csem ⟨k.val + 1, by omega⟩

/-! ## The rows -/

/-- Row `d` as a set of the table's entries. -/
abbrev rowSet (d : Dev nD) : Finset (cc0_scratch0 : Ref sig .tc).ty.Idx := (rowM d).view.set

theorem row_set (d : Dev nD) :
    ((rowM d).view.set : Finset (cc0_scratch0 : Ref sig .tc).ty.Idx) = (Rect.unit (s := S8x1024) (k0_off2 d) S1x1024.size (k0_off2_inb d)).set :=
  View.set_slice_whole _ _

/-- Row `d` is the entries whose first coordinate is `d`. -/
theorem mem_row (d : Dev nD) (i : (cc0_scratch0 : Ref sig .tc).ty.Idx) :
    Iff (i ∈ ((rowM d).view.set : Finset (cc0_scratch0 : Ref sig .tc).ty.Idx)) ((i 0).val = d.val) := by
  rw [row_set, Rect.mem_set_unit, k0_off2_eq]
  constructor
  · intro h
    have h0 := h 0
    simp only [Matrix.cons_val_zero] at h0
    have : S1x1024.size 0 = 1 := rfl
    omega
  · intro h a
    have h1 : (i 1).val < 1024 := (i 1).isLt
    match a with
    | ⟨0, _⟩ => exact ⟨Nat.le_of_eq h.symm, by show (i 0).val < d.val + 1; omega⟩
    | ⟨1, _⟩ => exact ⟨Nat.zero_le _, by show (i 1).val < 0 + 1024; omega⟩

theorem row_disjoint {d d' : Dev nD} (h : d ≠ d') :
    Disjoint ((rowM d).view.set : Finset (cc0_scratch0 : Ref sig .tc).ty.Idx) ((rowM d').view.set : Finset (cc0_scratch0 : Ref sig .tc).ty.Idx) :=
  Finset.disjoint_left.mpr fun i hi hi' => h (Fin.ext (((mem_row d i).mp hi).symm.trans ((mem_row d' i).mp hi')))

/-- Every entry of the table lies in the row its first coordinate names. -/
theorem mem_own_row (i : (cc0_scratch0 : Ref sig .tc).ty.Idx) :
    i ∈ ((rowM (i 0)).view.set : Finset (cc0_scratch0 : Ref sig .tc).ty.Idx) := (mem_row (i 0) i).mpr rfl

theorem rows_cover : (Finset.univ : Finset (Dev nD)).biUnion rowSet = Finset.univ :=
  Finset.eq_univ_of_forall fun i => Finset.mem_biUnion.mpr ⟨i 0, Finset.mem_univ _, mem_own_row i⟩

end Cert.Kernel.Proto

end
-- ==== Proof.Bits.Ghost.lean ====
/-
  What a device's body starts from and ends with.

  Device `c` opens the invariants of its own fifteen cells and of the fourteen cells of other devices it pays (the
  entry cell and one receive cell of each of its seven peers); it holds its positions at round 0 of its own cells and
  the twenty-one tokens of the duties it pays: seven entry units, seven landings, seven ends of reading. From the launch
  it has the credit others owe its entry cell (seven units) and its seven receive cells (one row's worth each).
-/
import proofs.«900465_g7700000000000466_dist_rmsnorm_colshard_i_m1024_n512_v7x_i8_bf16_1_alg».proof.Proof.Bits.Cells

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The table, whole -/

def scrPts (c : Dev nD) (f : Buf (Elt F) (cM.view.loc (c : Thread nD τ))) : sProp 𝕄 :=
  cM.view.loc (c : Thread nD τ) ↦[cM.view.set]{fullShare} f

omit [FloatOps F] in
theorem scr_set : (cM : Memref sig .tc .vmem S8x1024 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-! ## The ghost state of device `c`, under the names `K` the launch allocated the cells at -/

section Ghost
variable (K : Dev nD × Fin 15 → ℕ) (c : Dev nD)

/-- What it knows for good: the invariants it opens and the rounds it knows reached. -/
def pers : sProp 𝕄 :=
  iprop(cellInv ER (exRd m) (K (c, 0)) (barCell c)
    ∗ cellInv ER (exRd m) (K (c, 1)) (sendCell 0 c)
    ∗ cellInv ER (exRd m) (K (c, 2)) (sendCell 1 c)
    ∗ cellInv ER (exRd m) (K (c, 3)) (sendCell 2 c)
    ∗ cellInv ER (exRd m) (K (c, 4)) (sendCell 3 c)
    ∗ cellInv ER (exRd m) (K (c, 5)) (sendCell 4 c)
    ∗ cellInv ER (exRd m) (K (c, 6)) (sendCell 5 c)
    ∗ cellInv ER (exRd m) (K (c, 7)) (sendCell 6 c)
    ∗ cellInv ER (exRd m) (K (c, 8)) (recvCell 0 c)
    ∗ cellInv ER (exRd m) (K (c, 9)) (recvCell 1 c)
    ∗ cellInv ER (exRd m) (K (c, 10)) (recvCell 2 c)
    ∗ cellInv ER (exRd m) (K (c, 11)) (recvCell 3 c)
    ∗ cellInv ER (exRd m) (K (c, 12)) (recvCell 4 c)
    ∗ cellInv ER (exRd m) (K (c, 13)) (recvCell 5 c)
    ∗ cellInv ER (exRd m) (K (c, 14)) (recvCell 6 c)
    ∗ cellInv ER (exRd m) (K (tgt 0 c, 0)) (barCell (tgt 0 c))
    ∗ cellInv ER (exRd m) (K (tgt 1 c, 0)) (barCell (tgt 1 c))
    ∗ cellInv ER (exRd m) (K (tgt 2 c, 0)) (barCell (tgt 2 c))
    ∗ cellInv ER (exRd m) (K (tgt 3 c, 0)) (barCell (tgt 3 c))
    ∗ cellInv ER (exRd m) (K (tgt 4 c, 0)) (barCell (tgt 4 c))
    ∗ cellInv ER (exRd m) (K (tgt 5 c, 0)) (barCell (tgt 5 c))
    ∗ cellInv ER (exRd m) (K (tgt 6 c, 0)) (barCell (tgt 6 c))
    ∗ cellInv ER (exRd m) (K (tgt 0 c, 8)) (recvCell 0 (tgt 0 c))
    ∗ cellInv ER (exRd m) (K (tgt 1 c, 9)) (recvCell 1 (tgt 1 c))
    ∗ cellInv ER (exRd m) (K (tgt 2 c, 10)) (recvCell 2 (tgt 2 c))
    ∗ cellInv ER (exRd m) (K (tgt 3 c, 11)) (recvCell 3 (tgt 3 c))
    ∗ cellInv ER (exRd m) (K (tgt 4 c, 12)) (recvCell 4 (tgt 4 c))
    ∗ cellInv ER (exRd m) (K (tgt 5 c, 13)) (recvCell 5 (tgt 5 c))
    ∗ cellInv ER (exRd m) (K (tgt 6 c, 14)) (recvCell 6 (tgt 6 c))
    ∗ reached ER (barCell (tgt 0 c)) 0
    ∗ reached ER (barCell (tgt 1 c)) 0
    ∗ reached ER (barCell (tgt 2 c)) 0
    ∗ reached ER (barCell (tgt 3 c)) 0
    ∗ reached ER (barCell (tgt 4 c)) 0
    ∗ reached ER (barCell (tgt 5 c)) 0
    ∗ reached ER (barCell (tgt 6 c)) 0
    ∗ reached ER (recvCell 0 (tgt 0 c)) 0
    ∗ reached ER (recvCell 1 (tgt 1 c)) 0
    ∗ reached ER (recvCell 2 (tgt 2 c)) 0
    ∗ reached ER (recvCell 3 (tgt 3 c)) 0
    ∗ reached ER (recvCell 4 (tgt 4 c)) 0
    ∗ reached ER (recvCell 5 (tgt 5 c)) 0
    ∗ reached ER (recvCell 6 (tgt 6 c)) 0
    ∗ reached ER (sendCell 0 c) 0
    ∗ reached ER (sendCell 1 c) 0
    ∗ reached ER (sendCell 2 c) 0
    ∗ reached ER (sendCell 3 c) 0
    ∗ reached ER (sendCell 4 c) 0
    ∗ reached ER (sendCell 5 c) 0
    ∗ reached ER (sendCell 6 c) 0
    ∗ reached ER (recvCell 0 c) 0
    ∗ reached ER (recvCell 1 c) 0
    ∗ reached ER (recvCell 2 c) 0
    ∗ reached ER (recvCell 3 c) 0
    ∗ reached ER (recvCell 4 c) 0
    ∗ reached ER (recvCell 5 c) 0
    ∗ reached ER (recvCell 6 c) 0)

instance pers_persistent : BI.Persistent (pers m K c) := by unfold pers; infer_instance

/-- What it holds: its positions and the tokens of the duties it pays. -/
def lin : sProp 𝕄 :=
  iprop(atPos ER (barCell c) 0 ∅ 0
    ∗ atPos ER (sendCell 0 c) 0 ∅ 0
    ∗ atPos ER (sendCell 1 c) 0 ∅ 0
    ∗ atPos ER (sendCell 2 c) 0 ∅ 0
    ∗ atPos ER (sendCell 3 c) 0 ∅ 0
    ∗ atPos ER (sendCell 4 c) 0 ∅ 0
    ∗ atPos ER (sendCell 5 c) 0 ∅ 0
    ∗ atPos ER (sendCell 6 c) 0 ∅ 0
    ∗ atPos ER (recvCell 0 c) 0 ∅ 0
    ∗ atPos ER (recvCell 1 c) 0 ∅ 0
    ∗ atPos ER (recvCell 2 c) 0 ∅ 0
    ∗ atPos ER (recvCell 3 c) 0 ∅ 0
    ∗ atPos ER (recvCell 4 c) 0 ∅ 0
    ∗ atPos ER (recvCell 5 c) 0 ∅ 0
    ∗ atPos ER (recvCell 6 c) 0 ∅ 0
    ∗ dutyTok ER (barCell (tgt 0 c)) 0 (0 : Fin 7)
    ∗ dutyTok ER (barCell (tgt 1 c)) 0 (1 : Fin 7)
    ∗ dutyTok ER (barCell (tgt 2 c)) 0 (2 : Fin 7)
    ∗ dutyTok ER (barCell (tgt 3 c)) 0 (3 : Fin 7)
    ∗ dutyTok ER (barCell (tgt 4 c)) 0 (4 : Fin 7)
    ∗ dutyTok ER (barCell (tgt 5 c)) 0 (5 : Fin 7)
    ∗ dutyTok ER (barCell (tgt 6 c)) 0 (6 : Fin 7)
    ∗ dutyTok ER (recvCell 0 (tgt 0 c)) 0 (0 : Fin 7)
    ∗ dutyTok ER (recvCell 1 (tgt 1 c)) 0 (0 : Fin 7)
    ∗ dutyTok ER (recvCell 2 (tgt 2 c)) 0 (0 : Fin 7)
    ∗ dutyTok ER (recvCell 3 (tgt 3 c)) 0 (0 : Fin 7)
    ∗ dutyTok ER (recvCell 4 (tgt 4 c)) 0 (0 : Fin 7)
    ∗ dutyTok ER (recvCell 5 (tgt 5 c)) 0 (0 : Fin 7)
    ∗ dutyTok ER (recvCell 6 (tgt 6 c)) 0 (0 : Fin 7)
    ∗ dutyTok ER (sendCell 0 c) 0 (0 : Fin 7)
    ∗ dutyTok ER (sendCell 1 c) 0 (0 : Fin 7)
    ∗ dutyTok ER (sendCell 2 c) 0 (0 : Fin 7)
    ∗ dutyTok ER (sendCell 3 c) 0 (0 : Fin 7)
    ∗ dutyTok ER (sendCell 4 c) 0 (0 : Fin 7)
    ∗ dutyTok ER (sendCell 5 c) 0 (0 : Fin 7)
    ∗ dutyTok ER (sendCell 6 c) 0 (0 : Fin 7))

def ghost : sProp 𝕄 := iprop(pers m K c ∗ lin (F := F) c)

/-- The credit the launch hands it. -/
def credsOf : sProp 𝕄 :=
  iprop(cred (tallyAt (barCell c) () 7) ∗ cred (tallyAt (recvCell 0 c) () N) ∗ cred (tallyAt (recvCell 1 c) () N) ∗ cred (tallyAt (recvCell 2 c) () N) ∗ cred (tallyAt (recvCell 3 c) () N) ∗ cred (tallyAt (recvCell 4 c) () N) ∗ cred (tallyAt (recvCell 5 c) () N) ∗ cred (tallyAt (recvCell 6 c) () N))

end Ghost

/-- What device `c`'s body starts from: the ghost state at some names, its credit, the level facts; -/
def start (c : Dev nD) : sProp 𝕄 := iprop((∃ K, ghost m K c) ∗ credsOf (F := F) c ∗ levAts L lv)
/-- with the table, at whatever it holds: before the point. -/
def Φ₀ (c : Dev nD) : sProp 𝕄 := iprop(start m c ∗ ∃ f, scrPts c f)
/-- After the point: the table back whole, the fourteen own cells at zero, closed. -/
def Φ₁ (c : Dev nD) : sProp 𝕄 :=
  iprop((∃ f, scrPts (F := F) c f) ∗ semVal (sendCell 0 c) 0 ∗ semVal (sendCell 1 c) 0 ∗ semVal (sendCell 2 c) 0 ∗ semVal (sendCell 3 c) 0 ∗ semVal (sendCell 4 c) 0 ∗ semVal (sendCell 5 c) 0 ∗ semVal (sendCell 6 c) 0 ∗ semVal (recvCell 0 c) 0 ∗ semVal (recvCell 1 c) 0 ∗ semVal (recvCell 2 c) 0 ∗ semVal (recvCell 3 c) 0 ∗ semVal (recvCell 4 c) 0 ∗ semVal (recvCell 5 c) 0 ∗ semVal (recvCell 6 c) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m c
    | ⟨1, _⟩ => gblk m c
    | ⟨2, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

end Cert.Kernel.Proto

end
-- ==== Proof.Bits.Deal.lean ====
/-
  The ghost state of the exchange at launch, and how it is dealt to the devices.

  The exchange has fifteen cells on each of the eight devices: an entry cell, seven send cells, seven receive cells.
  Round 0 of an entry cell has seven duties, one per peer; round 0 of a send or receive cell has one. The launch mints,
  for every cell, its round state at counter zero, its owner's position and the mark that round 0 is reached, and for
  every duty its token. A duty's token is minted with the cell it is paid to, so it starts with that cell's owner; the
  device that pays the duty is another one — duty `j` of the entry cell of device `c` is paid by the device `j + 1`
  places before `c`, and so is the one duty of `c`'s receive cell `j` — so the tokens are passed round the ring:
  for each `j`, by the permutation that moves every device `j + 1` places on.
-/
import proofs.«900465_g7700000000000466_dist_rmsnorm_colshard_i_m1024_n512_v7x_i8_bf16_1_alg».proof.Proof.Bits.Ghost
import Idealize.ShloMosaic.Lib.Pipeline.Launch
import Idealize.ShloMosaic.Lib.Pipeline.Kit

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores -/

theorem ownSemFacts : Pipeline.OwnSemFacts cfg0.spec osem := by decide

/-! ## The cells and the duty tokens minted at launch -/

def ringCells : Finset (GSem nD τ sig) := Finset.univ.map ⟨kcell, kcell_injective⟩

/-- The duty tokens minted with device `c`'s own cells, by kind and number: kind 0, the seven duties of its entry
    cell; kind 1, the one duty of its receive cell `j`; kind 2, the one duty of its send cell `j`. -/
abbrev tokOf (x : Dev nD × Fin 3 × Fin 7) : GSem nD τ sig × ℕ × Fin 7 := match x.2.1 with
  | 0 => (barCell x.1, 0, x.2.2) | 1 => (recvCell x.2.2 x.1, 0, 0) | 2 => (sendCell x.2.2 x.1, 0, 0)

theorem tokOf_injective : Function.Injective (tokOf : Dev nD × Fin 3 × Fin 7 → GSem nD τ sig × ℕ × Fin 7) := by
  rintro ⟨c, k, j⟩ ⟨c', k', j'⟩ h
  have h1 : c = c' := by
    have := congrArg (fun x : GSem nD τ sig × ℕ × Fin 7 => x.1.1.1) h
    fin_cases k <;> fin_cases k' <;> exact this
  subst h1
  have hs : (tokOf (c, k, j)).1.2 = (tokOf (c, k', j')).1.2 := congrArg (fun x : GSem nD τ sig × ℕ × Fin 7 => x.1.2) h
  have hd : (tokOf (c, k, j)).2.2 = (tokOf (c, k', j')).2.2 := congrArg (fun x : GSem nD τ sig × ℕ × Fin 7 => x.2.2) h
  fin_cases k <;> fin_cases k'
  · have : j = j' := hd
    subst this; rfl
  · exact absurd hs (fun h' => by cases h')
  · exact absurd hs (fun h' => by cases h')
  · exact absurd hs (fun h' => by cases h')
  · have h3 : recvS j = recvS j' := by injection hs
    have h4 : 10 + j.val = 10 + j'.val := congrArg Fin.val h3
    have : j = j' := Fin.ext (by omega)
    subst this; rfl
  · have h3 : recvS j = sendS j' := by injection hs
    have h4 : 10 + j.val = 3 + j'.val := congrArg Fin.val h3
    have := j'.isLt; omega
  · exact absurd hs (fun h' => by cases h')
  · have h3 : sendS j = recvS j' := by injection hs
    have h4 : 3 + j.val = 10 + j'.val := congrArg Fin.val h3
    have := j.isLt; omega
  · have h3 : sendS j = sendS j' := by injection hs
    have h4 : 3 + j.val = 3 + j'.val := congrArg Fin.val h3
    have : j = j' := Fin.ext (by omega)
    subst this; rfl

def ringToks : Finset (GSem nD τ sig × ℕ × Fin 7) := Finset.univ.map ⟨tokOf, tokOf_injective⟩

/-- The launch element: the pipeline's staging cells and tokens beside the exchange's. -/
def u₀ : UU :=
  (initOf (Pipeline.cells cfgs cellOf_inj) (Pipeline.launchToks cfgs cellOf_inj), initOf ringCells ringToks)

/-- The duty tokens minted with device `c`'s own cells: the seven of its entry cell, the one of each receive cell, the
    one of each send cell. -/
def toks (c : Dev nD) : sProp 𝕄 :=
  iprop((bigSep Finset.univ fun j : Fin 7 => dutyTok ER (barCell c) 0 j)
    ∗ (bigSep Finset.univ fun j : Fin 7 => dutyTok ER (recvCell j c) 0 (0 : Fin 7))
    ∗ (bigSep Finset.univ fun j : Fin 7 => dutyTok ER (sendCell j c) 0 (0 : Fin 7)))

/-- What the launch element deals device `c`: of each of its fifteen cells the round state at counter zero, its
    position and the mark that round 0 is reached; and the duty tokens minted with them. -/
def G (c : Dev nD) : sProp 𝕄 :=
  iprop((bigSep Finset.univ fun k : Fin 15 => roundState ER (exRd m) (kcell (c, k)) 0)
    ∗ (bigSep Finset.univ fun k : Fin 15 => iprop(atPos ER (kcell (c, k)) 0 ∅ 0 ∗ reached ER (kcell (c, k)) 0)) ∗ toks c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- The exchange's half of the launch element is every device's `G`. -/
theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin3]; rfl
  iintro HX
  imod (Rounds.fund ER (exRd m) ringCells ringToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element is the pipeline's own and every device's `G`. -/
theorem hu₀_ok : (ownU u₀ : sProp 𝕄)
    ⊢ |={Set.univ}=> iprop(BI.own (EP (initOf (Pipeline.cells cfgs cellOf_inj) (Pipeline.launchToks cfgs cellOf_inj)))
        ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## The semaphores at zero, one by one -/

omit [FloatOps F] in
/-- The kernel's own fourteen semaphores: the seven send and the seven receive semaphores; -/
theorem ownSems0_eq (c : Dev nD) :
    (Pipeline.ownSems0 (Ix := Unit) (Name := ℕ) (U := UU) (Lvl := ℕ) (Val := Elt F) (τ := τ) osem c : sProp 𝕄)
      = iprop(semVal (sendCell 0 c) 0 ∗ semVal (sendCell 1 c) 0 ∗ semVal (sendCell 2 c) 0 ∗ semVal (sendCell 3 c) 0 ∗ semVal (sendCell 4 c) 0 ∗ semVal (sendCell 5 c) 0 ∗ semVal (sendCell 6 c) 0
          ∗ semVal (recvCell 0 c) 0 ∗ semVal (recvCell 1 c) 0 ∗ semVal (recvCell 2 c) 0 ∗ semVal (recvCell 3 c) 0 ∗ semVal (recvCell 4 c) 0 ∗ semVal (recvCell 5 c) 0 ∗ semVal (recvCell 6 c) 0) := by
  rw [Pipeline.ownSems0_eq_of_list c osem [0, 1, 2, 3, 4, 5, 6, 7, 8, 9, 10, 11, 12, 13] (by decide) (by decide)]; rfl
omit [FloatOps F] in
/-- the entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- info: 'Cert.Kernel.Proto.hu₀_ok' depends on axioms: [propext, Classical.choice, Quot.sound] -/
#guard_msgs in #print axioms hu₀_ok
/-- info: 'Cert.Kernel.Proto.ownSems0_eq' depends on axioms: [propext, Classical.choice, Quot.sound] -/
#guard_msgs in #print axioms ownSems0_eq
/-- info: 'Cert.Kernel.Proto.unscopedSems0_eq' depends on axioms: [propext, Classical.choice, Quot.sound] -/
#guard_msgs in #print axioms unscopedSems0_eq

end Cert.Kernel.Proto

end
-- ==== Proof.Bits.DealGlob.lean ====
/-
  The global step of the launch: from every device's counters at zero and its share of the launch element to every
  device's ghost state.

  Each device turns its fifteen counters at zero, with the fifteen round states, into fifteen invariants under fresh
  names. The names of all 8 × 15 cells are then chosen at once, the invariants and the marks that round 0 is reached are
  known to every device for good, and each device takes from them the ones it opens: its own fifteen and, of each of its
  seven peers, the entry cell and one receive cell. The duty tokens, minted with the cells they are paid to, are passed
  round the ring to the devices that pay them, `j + 1` places for the tokens numbered `j`.
-/
import proofs.«900465_g7700000000000466_dist_rmsnorm_colshard_i_m1024_n512_v7x_i8_bf16_1_alg».proof.Proof.Bits.Deal

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Small tools -/

omit [FloatOps F] in
/-- From a persistent assertion, both of two consequences at once. -/
theorem pers_sep {R A B : sProp 𝕄} [BI.Persistent R] (h1 : R ⊢ A) (h2 : R ⊢ B) : R ⊢ iprop(A ∗ B) := by
  iintro #H
  isplitr
  · iapply h1; iexact H
  · iapply h2; iexact H

omit [FloatOps F] in
/-- A persistent assertion beside a family is beside every member. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## One device: its fifteen counters at zero and round states become fifteen invariants -/

omit [FloatOps F] in
/-- A device's fifteen semaphores at zero: its own fourteen and the entry semaphore. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_fin15]
  exact BI.sep_comm

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 15 => iprop(∃ κ : ℕ, cellInv ER (exRd m) κ (kcell (c, k))))
          ∗ (bigSep Finset.univ fun k : Fin 15 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (exRd m) (kcell (c, k)) 0)
      ⊢ (|={Set.univ}=> bigSep Finset.univ fun k : Fin 15 => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## All devices: the invariants under chosen names, and the marks, known to everyone -/

/-- Every cell's invariant at its chosen name, and the mark that round 0 of every cell is reached. -/
def records (K : Dev nD × Fin 15 → ℕ) : sProp 𝕄 :=
  iprop((bigSep Finset.univ fun ck : Dev nD × Fin 15 => cellInv ER (exRd m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) :
    (bigSep Finset.univ fun ck : Dev nD × Fin 15 => (cellInv ER (exRd m) (K ck) (kcell ck) : sProp 𝕄))
      ⊢ cellInv ER (exRd m) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

theorem rec_inv (K : Dev nD × Fin 15 → ℕ) (ck : Dev nD × Fin 15) :
    records m K ⊢ cellInv ER (exRd m) (K ck) (kcell ck) := by
  unfold records
  iintro ⟨HI, -⟩
  iapply (inv_at m K ck)
  iexact HI

theorem rec_rch (K : Dev nD × Fin 15 → ℕ) (ck : Dev nD × Fin 15) :
    records m K ⊢ reached ER (kcell ck) 0 := by
  unfold records
  iintro ⟨-, HR⟩
  iapply (reached_at (F := F) ck)
  iexact HR

/-- What device `c` knows for good, out of what everyone knows. -/
theorem pers_of_records (K : Dev nD × Fin 15 → ℕ) (c : Dev nD) : records m K ⊢ pers m K c := by
  unfold pers
  exact pers_sep (rec_inv m K (c, 0)) <|
    pers_sep (rec_inv m K (c, 1)) <|
    pers_sep (rec_inv m K (c, 2)) <|
    pers_sep (rec_inv m K (c, 3)) <|
    pers_sep (rec_inv m K (c, 4)) <|
    pers_sep (rec_inv m K (c, 5)) <|
    pers_sep (rec_inv m K (c, 6)) <|
    pers_sep (rec_inv m K (c, 7)) <|
    pers_sep (rec_inv m K (c, 8)) <|
    pers_sep (rec_inv m K (c, 9)) <|
    pers_sep (rec_inv m K (c, 10)) <|
    pers_sep (rec_inv m K (c, 11)) <|
    pers_sep (rec_inv m K (c, 12)) <|
    pers_sep (rec_inv m K (c, 13)) <|
    pers_sep (rec_inv m K (c, 14)) <|
    pers_sep (rec_inv m K (tgt 0 c, 0)) <|
    pers_sep (rec_inv m K (tgt 1 c, 0)) <|
    pers_sep (rec_inv m K (tgt 2 c, 0)) <|
    pers_sep (rec_inv m K (tgt 3 c, 0)) <|
    pers_sep (rec_inv m K (tgt 4 c, 0)) <|
    pers_sep (rec_inv m K (tgt 5 c, 0)) <|
    pers_sep (rec_inv m K (tgt 6 c, 0)) <|
    pers_sep (rec_inv m K (tgt 0 c, 8)) <|
    pers_sep (rec_inv m K (tgt 1 c, 9)) <|
    pers_sep (rec_inv m K (tgt 2 c, 10)) <|
    pers_sep (rec_inv m K (tgt 3 c, 11)) <|
    pers_sep (rec_inv m K (tgt 4 c, 12)) <|
    pers_sep (rec_inv m K (tgt 5 c, 13)) <|
    pers_sep (rec_inv m K (tgt 6 c, 14)) <|
    pers_sep (rec_rch m K (tgt 0 c, 0)) <|
    pers_sep (rec_rch m K (tgt 1 c, 0)) <|
    pers_sep (rec_rch m K (tgt 2 c, 0)) <|
    pers_sep (rec_rch m K (tgt 3 c, 0)) <|
    pers_sep (rec_rch m K (tgt 4 c, 0)) <|
    pers_sep (rec_rch m K (tgt 5 c, 0)) <|
    pers_sep (rec_rch m K (tgt 6 c, 0)) <|
    pers_sep (rec_rch m K (tgt 0 c, 8)) <|
    pers_sep (rec_rch m K (tgt 1 c, 9)) <|
    pers_sep (rec_rch m K (tgt 2 c, 10)) <|
    pers_sep (rec_rch m K (tgt 3 c, 11)) <|
    pers_sep (rec_rch m K (tgt 4 c, 12)) <|
    pers_sep (rec_rch m K (tgt 5 c, 13)) <|
    pers_sep (rec_rch m K (tgt 6 c, 14)) <|
    pers_sep (rec_rch m K (c, 1)) <|
    pers_sep (rec_rch m K (c, 2)) <|
    pers_sep (rec_rch m K (c, 3)) <|
    pers_sep (rec_rch m K (c, 4)) <|
    pers_sep (rec_rch m K (c, 5)) <|
    pers_sep (rec_rch m K (c, 6)) <|
    pers_sep (rec_rch m K (c, 7)) <|
    pers_sep (rec_rch m K (c, 8)) <|
    pers_sep (rec_rch m K (c, 9)) <|
    pers_sep (rec_rch m K (c, 10)) <|
    pers_sep (rec_rch m K (c, 11)) <|
    pers_sep (rec_rch m K (c, 12)) <|
    pers_sep (rec_rch m K (c, 13)) <|
    rec_rch m K (c, 14)

/-! ## The tokens a device pays, and passing the minted tokens round the ring -/

/-- The tokens of the duties device `c` pays: duty `j` of the entry cell of the device `j + 1` places on, the duty of
    that device's receive cell `j`, and the duty of its own send cell `j`. -/
def payToks (c : Dev nD) : sProp 𝕄 :=
  iprop((dutyTok ER (barCell (tgt 0 c)) 0 (0 : Fin 7) ∗ dutyTok ER (barCell (tgt 1 c)) 0 (1 : Fin 7) ∗ dutyTok ER (barCell (tgt 2 c)) 0 (2 : Fin 7) ∗ dutyTok ER (barCell (tgt 3 c)) 0 (3 : Fin 7) ∗ dutyTok ER (barCell (tgt 4 c)) 0 (4 : Fin 7) ∗ dutyTok ER (barCell (tgt 5 c)) 0 (5 : Fin 7) ∗ dutyTok ER (barCell (tgt 6 c)) 0 (6 : Fin 7))
    ∗ (dutyTok ER (recvCell 0 (tgt 0 c)) 0 (0 : Fin 7) ∗ dutyTok ER (recvCell 1 (tgt 1 c)) 0 (0 : Fin 7) ∗ dutyTok ER (recvCell 2 (tgt 2 c)) 0 (0 : Fin 7) ∗ dutyTok ER (recvCell 3 (tgt 3 c)) 0 (0 : Fin 7) ∗ dutyTok ER (recvCell 4 (tgt 4 c)) 0 (0 : Fin 7) ∗ dutyTok ER (recvCell 5 (tgt 5 c)) 0 (0 : Fin 7) ∗ dutyTok ER (recvCell 6 (tgt 6 c)) 0 (0 : Fin 7))
    ∗ (dutyTok ER (sendCell 0 c) 0 (0 : Fin 7) ∗ dutyTok ER (sendCell 1 c) 0 (0 : Fin 7) ∗ dutyTok ER (sendCell 2 c) 0 (0 : Fin 7) ∗ dutyTok ER (sendCell 3 c) 0 (0 : Fin 7) ∗ dutyTok ER (sendCell 4 c) 0 (0 : Fin 7) ∗ dutyTok ER (sendCell 5 c) 0 (0 : Fin 7) ∗ dutyTok ER (sendCell 6 c) 0 (0 : Fin 7)))

/-- What stays with device `c`: its fifteen positions and the tokens it pays. -/
def linear (c : Dev nD) : sProp 𝕄 :=
  iprop((bigSep Finset.univ fun k : Fin 15 => atPos ER (kcell (c, k)) 0 ∅ 0) ∗ payToks c)

omit [FloatOps F] in
theorem lin_of_linear (c : Dev nD) : linear (F := F) c ⊢ lin (F := F) c := by
  unfold linear payToks lin
  rw [bigSep_fin15]
  iintro ⟨⟨P0, P1, P2, P3, P4, P5, P6, P7, P8, P9, P10, P11, P12, P13, P14⟩, ⟨B0, B1, B2, B3, B4, B5, B6⟩, ⟨R0, R1, R2, R3, R4, R5, R6⟩, S0, S1, S2, S3, S4, S5, S6⟩
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [P13]; · iexact P13
  isplitl [P14]; · iexact P14
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [S0]; · iexact S0
  isplitl [S1]; · iexact S1
  isplitl [S2]; · iexact S2
  isplitl [S3]; · iexact S3
  isplitl [S4]; · iexact S4
  isplitl [S5]; · iexact S5
  iexact S6

theorem ghost_intro (K : Dev nD × Fin 15 → ℕ) (c : Dev nD) :
    iprop(records m K ∗ linear (F := F) c) ⊢ iprop(∃ K, ghost m K c) := by
  unfold ghost
  iintro ⟨#HR, HL⟩
  iexists K
  isplitr
  · iapply (pers_of_records m K c); iexact HR
  · iapply (lin_of_linear (F := F) c); iexact HL

/-- The minted tokens of a device, one by one. -/
theorem toks_eq (c : Dev nD) :
    (toks c : sProp 𝕄) = iprop((dutyTok ER (barCell c) 0 (0 : Fin 7) ∗ dutyTok ER (barCell c) 0 (1 : Fin 7) ∗ dutyTok ER (barCell c) 0 (2 : Fin 7) ∗ dutyTok ER (barCell c) 0 (3 : Fin 7) ∗ dutyTok ER (barCell c) 0 (4 : Fin 7) ∗ dutyTok ER (barCell c) 0 (5 : Fin 7) ∗ dutyTok ER (barCell c) 0 (6 : Fin 7))
      ∗ (dutyTok ER (recvCell 0 c) 0 (0 : Fin 7) ∗ dutyTok ER (recvCell 1 c) 0 (0 : Fin 7) ∗ dutyTok ER (recvCell 2 c) 0 (0 : Fin 7) ∗ dutyTok ER (recvCell 3 c) 0 (0 : Fin 7) ∗ dutyTok ER (recvCell 4 c) 0 (0 : Fin 7) ∗ dutyTok ER (recvCell 5 c) 0 (0 : Fin 7) ∗ dutyTok ER (recvCell 6 c) 0 (0 : Fin 7))
      ∗ (dutyTok ER (sendCell 0 c) 0 (0 : Fin 7) ∗ dutyTok ER (sendCell 1 c) 0 (0 : Fin 7) ∗ dutyTok ER (sendCell 2 c) 0 (0 : Fin 7) ∗ dutyTok ER (sendCell 3 c) 0 (0 : Fin 7) ∗ dutyTok ER (sendCell 4 c) 0 (0 : Fin 7) ∗ dutyTok ER (sendCell 5 c) 0 (0 : Fin 7) ∗ dutyTok ER (sendCell 6 c) 0 (0 : Fin 7))) := by
  unfold toks
  rw [bigSep_fin7, bigSep_fin7, bigSep_fin7]

/-- Each device hands on, for every `j`, the token of duty `j` of its entry cell and the token of its receive cell `j`
    to the device `j + 1` places before it: read from the payer's side, device `c` gets those of the device `j + 1`
    places on. The send tokens stay. -/
theorem toks_around :
    (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  rw [bigSep_univ_equiv (ring 0) (fun c : Dev nD => (dutyTok ER (barCell c) 0 (0 : Fin 7) : sProp 𝕄)),
    bigSep_univ_equiv (ring 1) (fun c : Dev nD => (dutyTok ER (barCell c) 0 (1 : Fin 7) : sProp 𝕄)),
    bigSep_univ_equiv (ring 2) (fun c : Dev nD => (dutyTok ER (barCell c) 0 (2 : Fin 7) : sProp 𝕄)),
    bigSep_univ_equiv (ring 3) (fun c : Dev nD => (dutyTok ER (barCell c) 0 (3 : Fin 7) : sProp 𝕄)),
    bigSep_univ_equiv (ring 4) (fun c : Dev nD => (dutyTok ER (barCell c) 0 (4 : Fin 7) : sProp 𝕄)),
    bigSep_univ_equiv (ring 5) (fun c : Dev nD => (dutyTok ER (barCell c) 0 (5 : Fin 7) : sProp 𝕄)),
    bigSep_univ_equiv (ring 6) (fun c : Dev nD => (dutyTok ER (barCell c) 0 (6 : Fin 7) : sProp 𝕄)),
    bigSep_univ_equiv (ring 0) (fun c : Dev nD => (dutyTok ER (recvCell 0 c) 0 (0 : Fin 7) : sProp 𝕄)),
    bigSep_univ_equiv (ring 1) (fun c : Dev nD => (dutyTok ER (recvCell 1 c) 0 (0 : Fin 7) : sProp 𝕄)),
    bigSep_univ_equiv (ring 2) (fun c : Dev nD => (dutyTok ER (recvCell 2 c) 0 (0 : Fin 7) : sProp 𝕄)),
    bigSep_univ_equiv (ring 3) (fun c : Dev nD => (dutyTok ER (recvCell 3 c) 0 (0 : Fin 7) : sProp 𝕄)),
    bigSep_univ_equiv (ring 4) (fun c : Dev nD => (dutyTok ER (recvCell 4 c) 0 (0 : Fin 7) : sProp 𝕄)),
    bigSep_univ_equiv (ring 5) (fun c : Dev nD => (dutyTok ER (recvCell 5 c) 0 (0 : Fin 7) : sProp 𝕄)),
    bigSep_univ_equiv (ring 6) (fun c : Dev nD => (dutyTok ER (recvCell 6 c) 0 (0 : Fin 7) : sProp 𝕄))]
  exact .rfl

/-! ## The global step -/

theorem regroup :
    (bigSep Finset.univ fun c : Dev nD => iprop((bigSep Finset.univ fun k : Fin 15 => iprop(∃ κ : ℕ, cellInv ER (exRd m) κ (kcell (c, k))))
          ∗ (bigSep Finset.univ fun k : Fin 15 => iprop(atPos ER (kcell (c, k)) 0 ∅ 0 ∗ reached ER (kcell (c, k)) 0)) ∗ toks c) : sProp 𝕄)
      ⊢ bigSep Finset.univ (fun c => iprop(∃ K, ghost m K c)) := by
  rw [bigSep_sep', bigSep_sep', ← bigSep_univ_prod (fun ck : Dev nD × Fin 15 => iprop(∃ κ : ℕ, cellInv ER (exRd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (exRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 15 => (atPos ER (kcell (c, k)) 0 ∅ 0 : sProp 𝕄)) payToks).symm)
    isplitl [Hat]; · iexact Hat
    iexact Htk

/-- From every device's semaphores at zero and its share of the launch element: every device's ghost state, under names
    chosen for all the cells at once. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (fun c => iprop(∃ K, ghost m K c)) :=
  ((bigSep_mono fun c _ => core_alloc m c).trans (bigSep_fupd _ _)).trans (BI.fupd_mono (regroup m))

/-- info: 'Cert.Kernel.Proto.glob' depends on axioms: [propext, Classical.choice, Quot.sound] -/
#guard_msgs in #print axioms glob

end Cert.Kernel.Proto

end
-- ==== Proof.Bits.LaunchCred.lean ====
/-
  The credit each device is dealt at launch for what the others owe its cells.

  At launch device `d` owes, for each `j` of the seven, one unit to the entry cell of the device `j + 1` places further
  round the ring and a row's credit to that device's receive cell `j`. Going round the ring by `j + 1` places is a
  permutation of the devices, so for each `j` exactly one device owes device `c`'s entry cell a unit and exactly one
  owes its receive cell `j` a row's credit: `c` is dealt seven units on its entry cell and one row's credit on each of
  its seven receive cells.
-/
import proofs.«900465_g7700000000000466_dist_rmsnorm_colshard_i_m1024_n512_v7x_i8_bf16_1_alg».proof.Proof.Bits.Proto

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One summand at a time -/

/-- The row's credit every device owes on copy `j` reaches device `c` as one row's credit on its receive cell `j`. -/
theorem cred_recv (j : Fin 7) (c : Dev nD) :
    (Pipeline.launchCred (fun d => rT d j) c : sProp 𝕄) ⊢ cred (tallyAt (recvCell j c) () N) :=
  Pipeline.launchCred_tallyAt (.dma (recvS j)) (tgt j) (src j) (tgt_src j) (src_tgt j) () N c

/-- The unit every device owes on signal `j` reaches device `c` as one unit on its entry cell. -/
theorem cred_bar1 (j : Fin 7) (c : Dev nD) :
    (Pipeline.launchCred (fun d => bT d j) c : sProp 𝕄) ⊢ cred (tallyAt (barCell c) () 1) :=
  Pipeline.launchCred_tallyAt (.reg barS) (tgt j) (src j) (tgt_src j) (src_tgt j) () 1 c

/-! ## Seven units on one cell are one credit of seven -/

/-- One more unit on a cell. -/
theorem cred_unit_add (g : GSem nD τ sig) (k : ℕ) :
    (iprop(cred (tallyAt g () 1) ∗ cred (tallyAt g () k)) : sProp 𝕄) ⊢ cred (tallyAt g () (1 + k)) :=
  (cred_add _ _).2.trans (Entails.of_eq (congrArg cred (tallyAt_add g () 1 k)))

/-- Seven units on a cell, held one by one, are the cell's credit of seven. -/
theorem cred_seven (g : GSem nD τ sig) :
    (iprop(cred (tallyAt g () 1) ∗ cred (tallyAt g () 1) ∗ cred (tallyAt g () 1) ∗ cred (tallyAt g () 1)
        ∗ cred (tallyAt g () 1) ∗ cred (tallyAt g () 1) ∗ cred (tallyAt g () 1)) : sProp 𝕄)
      ⊢ cred (tallyAt g () 7) := by
  refine (sep_mono_r <| sep_mono_r <| sep_mono_r <| sep_mono_r <| sep_mono_r (cred_unit_add g 1)).trans ?_
  refine (sep_mono_r <| sep_mono_r <| sep_mono_r <| sep_mono_r (cred_unit_add g 2)).trans ?_
  refine (sep_mono_r <| sep_mono_r <| sep_mono_r (cred_unit_add g 3)).trans ?_
  refine (sep_mono_r <| sep_mono_r (cred_unit_add g 4)).trans ?_
  refine (sep_mono_r (cred_unit_add g 5)).trans ?_
  exact cred_unit_add g 6

/-! ## The launch credit of a device -/

/-- Device `c` is dealt, at launch, seven units on its entry cell and a row's credit on each of its receive cells. -/
theorem creds (c : Dev nD) :
    (Pipeline.launchCred O₀ c : sProp 𝕄) ⊢
      iprop(cred (tallyAt (barCell c) () 7) ∗ cred (tallyAt (recvCell 0 c) () N) ∗ cred (tallyAt (recvCell 1 c) () N)
        ∗ cred (tallyAt (recvCell 2 c) () N) ∗ cred (tallyAt (recvCell 3 c) () N) ∗ cred (tallyAt (recvCell 4 c) () N)
        ∗ cred (tallyAt (recvCell 5 c) () N) ∗ cred (tallyAt (recvCell 6 c) () N)) := by
  have hO : (O₀ : Dev nD → CellTallies nD τ sig Unit)
      = fun d => (∑ j : Fin 7, rT d j) + ∑ j : Fin 7, bT d j := funext O₀_eq
  rw [hO, Pipeline.launchCred_add, Pipeline.launchCred_sum Finset.univ (fun j d => rT d j) c,
    Pipeline.launchCred_sum Finset.univ (fun j d => bT d j) c, bigSep_fin7, bigSep_fin7]
  refine (BI.sep_mono ?_ ?_).trans BI.sep_comm
  · exact BI.sep_mono (cred_recv 0 c) <| BI.sep_mono (cred_recv 1 c) <| BI.sep_mono (cred_recv 2 c) <|
      BI.sep_mono (cred_recv 3 c) <| BI.sep_mono (cred_recv 4 c) <| BI.sep_mono (cred_recv 5 c) (cred_recv 6 c)
  · exact (BI.sep_mono (cred_bar1 0 c) <| BI.sep_mono (cred_bar1 1 c) <| BI.sep_mono (cred_bar1 2 c) <|
      BI.sep_mono (cred_bar1 3 c) <| BI.sep_mono (cred_bar1 4 c) <| BI.sep_mono (cred_bar1 5 c) (cred_bar1 6 c)).trans
      (cred_seven (barCell c))

/-- info: 'Cert.Kernel.Proto.creds' depends on axioms: [propext, Classical.choice, Quot.sound] -/
#guard_msgs in #print axioms creds

end Cert.Kernel.Proto

end
-- ==== Proof.Bits.Launch.lean ====
/-
  The launch: from the body's obligation on each device to the run of the whole program.

  Given that each device's body, started from its ghost state, its launch credit and its table at whatever it holds,
  ends with the table back whole and its own fourteen semaphores at zero, every weakly fair execution of the eight
  devices terminates; each device's result array then holds what its body left in the output block — the block scaled
  by the scale vector and by the reciprocal root of the mean square over all eight blocks — and its two argument arrays
  hold what they held.
-/
import proofs.«900465_g7700000000000466_dist_rmsnorm_colshard_i_m1024_n512_v7x_i8_bf16_1_alg».proof.Proof.Bits.DealGlob
import proofs.«900465_g7700000000000466_dist_rmsnorm_colshard_i_m1024_n512_v7x_i8_bf16_1_alg».proof.Proof.Bits.LaunchCred

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The theorem's side conditions -/

theorem share_eq (c : Dev nD) (w : Fin cfg0.W) : (dats m ρ 0 c).share w = fullShare := by unfold Dat.share; split <;> rfl

/-- What a device's body starts from, out of what the launch hands it: its ghost state, its credit, the level facts. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(start m c ∗ emp) := by
  iintro ⟨-, Hlev, Hcr, -, HG⟩
  ihave Hc := (creds (F := F) c) $$ Hcr
  imodintro
  unfold start credsOf
  isplitl
  · isplitl [HG]; · iexact HG
    isplitl [Hc]; · iexact Hc
    iexact Hlev
  · iempintro

/-- Before the one point: the start and the table, at whatever it holds. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; rw [scrPts_eq]; iexact Hr

/-- After it: the kernel's own semaphores at zero and the table back. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hr⟩, Hs⟩
  isplitr; · iempintro
  isplitl [Hs]; · iexact Hs
  iexists f; rw [← scrPts_eq]; iexact Hr

/-- The pipeline's own waits, on its staging cells, sit below everything a device can owe. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- Each window's array after the run, as the pipeline's proof data computes it. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: if each device's
    body meets its obligation, every weakly fair execution of @main terminates, and every final state has each
    device's three arrays at the computed contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := fun c => iprop(∃ K, ghost m K c)) (u₀ := u₀)
    (hu₀ := hu₀_ok m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Proto.run_main' depends on axioms: [propext, Classical.choice, Quot.sound] -/
#guard_msgs in #print axioms run_main

end Cert.Kernel.Proto

end
-- ==== Proof.Bits.LaunchPost.lean ====
/-
  The final arrays of the run, read.

  The kernel has no grid: each of its three windows is its whole array. So the two argument arrays are never written
  and end as they began, a device's block of an argument is the array its buffer holds, and the result array ends
  holding what the body left in the output staging block, written back whole at the one point.
-/
import proofs.«900465_g7700000000000466_dist_rmsnorm_colshard_i_m1024_n512_v7x_i8_bf16_1_alg».proof.Proof.Bits.Launch

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The argument arrays -/

/-- The input array is never written. -/
theorem finalA_x (c : Dev nD) : finalA m ρ c (0 : Fin 3) = (s₀ m ρ).mem (win0_0.arr.view.loc (c : Thread nD τ)) :=
  (dats (F := F) m ρ 0 c).arrAt_in (0 : Fin 3) rfl _

/-- Nor is the scale vector. -/
theorem finalA_g (c : Dev nD) : finalA m ρ c (1 : Fin 3) = (s₀ m ρ).mem (win0_1.arr.view.loc (c : Thread nD τ)) :=
  (dats (F := F) m ρ 0 c).arrAt_in (1 : Fin 3) rfl _

/-! ## A device's blocks are its arrays -/

omit [FloatOps F] in
/-- The one block of the input window, read through zero offsets, is the whole array. -/
theorem xblk_eq (c : Dev nD) : xblk m c = m ((c : Thread nD τ).loc main_arg0) := by
  have hz : (fun a => win0_0.index (0 : Fin 1) a * main_arg0.ty.shape.size a) = fun _ => 0 :=
    funext fun a => by fin_cases a <;> rfl
  exact Memref.read_access_unit_zero (Elt F) main_arg0 hz (fun a => by rw [congrFun hz a]; simp) (m ((c : Thread nD τ).loc main_arg0))

omit [FloatOps F] in
/-- The same for the scale vector. -/
theorem gblk_eq (c : Dev nD) : gblk m c = m ((c : Thread nD τ).loc main_arg1) := by
  have hz : (fun a => win0_1.index (0 : Fin 1) a * main_arg1.ty.shape.size a) = fun _ => 0 :=
    funext fun a => by fin_cases a <;> rfl
  exact Memref.read_access_unit_zero (Elt F) main_arg1 hz (fun a => by rw [congrFun hz a]; simp) (m ((c : Thread nD τ).loc main_arg1))

/-- So a device's result block is the specification's term of the devices' argument buffers. -/
theorem outAt_eq (c : Dev nD) :
    outAt m c = Spec.outOf (fun d => m ((d : Thread nD τ).loc main_arg0)) (fun d => m ((d : Thread nD τ).loc main_arg1)) c := by
  unfold outAt
  rw [show xblk m = fun d : Dev nD => m ((d : Thread nD τ).loc main_arg0) from funext (xblk_eq m),
    show gblk m = fun d : Dev nD => m ((d : Thread nD τ).loc main_arg1) from funext (gblk_eq m)]

/-! ## The result array -/

/-- The result array ends at what the body left in the output block: the one write-back writes the whole array. -/
theorem finalA_out (c : Dev nD) : finalA m ρ c (2 : Fin 3) = outAt m c := by
  unfold finalA
  have h1 : (dats (F := F) m ρ 0 c).arrAt 2 cfg0.N
      = (dats (F := F) m ρ 0 c).arrAt 2 ((t0_0 : Fin cfg0.N).val + 1) := congrArg _ N_0
  rw [h1, Dat.arrAt_succ, if_pos (flush0_2 t0_0)]
  have hz : (fun a => win0_2.index t0_0 a * main_v1.ty.shape.size a) = fun _ => 0 :=
    funext fun a => by fin_cases a <;> rfl
  exact Memref.write_access_unit_zero_univ (Elt F) main_v1 hz (fun a => by rw [congrFun hz a]; simp) _ (outAt m c)

/-! ## The run, read -/

/-- If each device's body meets its obligation: every weakly fair execution terminates, each device's result array
    ends at the specification's term of the devices' argument buffers, and its argument arrays end unchanged. -/
theorem run_post (hbody : ∀ c, BodyObligation (dats (F := F) m ρ 0 c) (defs₀ (F := F)) 𝒱₀ () Set.univ) :
    θ_run (Cert.Kernel.defs (F := F)) (onTc (τ := Cert.Kernel.τ) (Cert.Kernel.main (F := F))) ⟨m, fun _ => 0, ρ⟩ (fun r => ∀ c : Dev Cert.Kernel.nD,
      r.2.mem ((c.tc : Thread Cert.Kernel.nD Cert.Kernel.τ).loc Cert.Kernel.main_v1)
        = Spec.outOf (fun d => m ((d.tc : Thread Cert.Kernel.nD Cert.Kernel.τ).loc Cert.Kernel.main_arg0))
            (fun d => m ((d.tc : Thread Cert.Kernel.nD Cert.Kernel.τ).loc Cert.Kernel.main_arg1)) c
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)) :=
  (θ_run defs _ _).mono
    (fun _ h c => ⟨(h c 2).trans ((finalA_out m ρ c).trans (outAt_eq m c)), (h c 0).trans (finalA_x m ρ c),
      (h c 1).trans (finalA_g m ρ c)⟩)
    (run_main m ρ hbody)

/-- info: 'Cert.Kernel.Proto.run_post' depends on axioms: [propext, Classical.choice, Quot.sound] -/
#guard_msgs in #print axioms run_post

end Cert.Kernel.Proto

end
-- ==== Proof.Bits.BodyDefs.lean ====
/-
  What the body of one device is to be shown to do, as one statement.

  From its ghost state, its launch credit, the level facts, the table at whatever it holds, what it owes at launch and
  its three staging buffers — the two inputs holding the device's blocks, the output holding anything — the body ends
  with the table back whole, its own fourteen semaphores at zero, nothing owed, the inputs as they were and the output
  buffer holding the device's result block.
-/
import proofs.«900465_g7700000000000466_dist_rmsnorm_colshard_i_m1024_n512_v7x_i8_bf16_1_alg».proof.Proof.Bits.Ghost

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-- A whole staging buffer of device `c` held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the ghost state under the names `K`. -/
def bodyPre (K : Dev nD × Fin 15 → ℕ) (c : Dev nD) : sProp 𝕄 :=
  iprop((ghost m K c ∗ credsOf (F := F) c ∗ levAts L lv ∗ ∃ f, scrPts c f)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What it ends with. -/
def bodyPost (c : Dev nD) : sProp 𝕄 :=
  iprop(Φ₁ (F := F) c ∗ (dats m ρ 0 c).owesAt () t0_0.succ
    ∗ stg c cc0_stg0_0 (xblk m c) ∗ stg c cc0_stg1_0 (gblk m c) ∗ stg c cc0_stg2_0 (outAt m c))

/-- The statement about the body: from `bodyPre`, and with whatever follows from `bodyPost`, the kernel's body at the
    device's whole staging buffers and table runs safely to it. -/
abbrev SoundBody : Prop :=
  ∀ (K : Dev nD × Fin 15 → ℕ) (c : Dev nD) (Kt : PUnit → sProp 𝕄),
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            cc0_scratch1 cc0_scratch2) Kt

end Cert.Kernel.Proto

end
-- ==== Proof.Bits.BodyObl.lean ====
/-
  From the statement about one device's body to the form the pipeline asks it in.

  The pipeline hands the body, at its one point, the invariant before the point, what the device owes, and its three
  staging buffers, each a whole buffer: the two inputs as fetched, the output at whatever it holds. That is the body's
  precondition with the names of the cells chosen; what the body leaves is what the pipeline wants back.
-/
import proofs.«900465_g7700000000000466_dist_rmsnorm_colshard_i_m1024_n512_v7x_i8_bf16_1_alg».proof.Proof.Bits.BodyDefs

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

omit [FloatOps F] in
/-- Owning a whole buffer at contents `X`: its points-to at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at its one point. -/
def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
/-- The library's body obligation on device `c`, from the statement about the body. -/
theorem body_obligation (hs : SoundBody m ρ) (c : Dev nD) :
    BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2) (fun _ => bodyPost m ρ c)
  unfold bodyPre' Φ₀ start
  iintro ⟨⟨⟨⟨%K, Hg⟩, Hrest⟩, Hscr⟩, Ho, Hx, Hgv, Hout⟩
  iapply (hs K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx]; · iexact Hx
    isplitl [Hgv] <;> iassumption
  · iintro H; iexact H

/-- info: 'Cert.Kernel.Proto.body_obligation' depends on axioms: [propext, Classical.choice, Quot.sound] -/
#guard_msgs in #print axioms body_obligation

end Cert.Kernel.Proto

end
-- ==== Proof.Bits.Rows.lean ====
/-
  The table's rows as values: what a row holds after the device's own store, and after a landing.

  The table every device ends with has, at entry (d, r), device `d`'s partial sum of row `r`. Device `c` writes its own
  partial sums into row `c`; a landing writes, into row `d`, what the sender read from its own row `d`. Either way the row
  then agrees with the final table on that row, which is all a points-to over the row's entries says.
-/
import proofs.«900465_g7700000000000466_dist_rmsnorm_colshard_i_m1024_n512_v7x_i8_bf16_1_alg».proof.Proof.Bits.Ghost

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

omit [FloatOps F] in
theorem hz2 : (![0, 0] : Fin 2 → Nat) = fun _ => 0 := funext fun a => by fin_cases a <;> rfl
omit [FloatOps F] in
theorem hz1 : (![0] : Fin 1 → Nat) = fun _ => 0 := funext fun a => by fin_cases a; rfl

omit [FloatOps F] in
/-- A load of the whole input block reads the block. -/
theorem read_x (f : (cc0_stg0_0 : Ref sig .tc).ty.Contents (Elt F)) :
    (xM : Memref sig .tc .vmem S1024x512 .f32).view.readAt (Elt F)
      (Rect.unit (s := S1024x512) ![0, 0] S1024x512.size inb_S1024x512_S1024x512_0_0).toLoadRect f = f :=
  Memref.readAt_unit_zero (Elt F) cc0_stg0_0 hz2 _ f

omit [FloatOps F] in
/-- A landing: what was read from row `d` of a table `g`, written over row `d` of any table, agrees with `g` on row `d`. -/
theorem landed_row (d : Dev nD) (fd g : (cc0_scratch0 : Ref sig .tc).ty.Contents (Elt F)) :
    ∀ i ∈ (rowM d).view.set, (rowM d).view.write (Elt F) fd ((rowM d).view.read (Elt F) g) Finset.univ i = g i := by
  intro i hi
  obtain ⟨y, rfl⟩ := View.exists_emb_of_mem_set _ hi
  rw [View.write_emb_of_mem _ _ (Finset.mem_univ y), View.read_apply, cast_cast, cast_eq]

/-- Where entry `y` of row `c` sits in the table: at (c, y's column). -/
theorem row_emb_fst (c : Dev nD) (y : S1x1024.Idx) : (((rowM c).view.emb y) 0).val = c.val := by
  show k0_off2 c 0 + 1 * (y 0).val = c.val
  rw [k0_off2_eq]
  have : (y 0).val < 1 := (y 0).isLt
  simp only [Matrix.cons_val_zero]
  omega
theorem row_emb_snd (c : Dev nD) (y : S1x1024.Idx) : (((rowM c).view.emb y) 1).val = (y 1).val := by
  show k0_off2 c 1 + 1 * (y 1).val = (y 1).val
  rw [k0_off2_eq]
  simp only [Matrix.cons_val_one, Matrix.cons_val_zero]
  omega

/-- The same with the two offsets (of the store, of the row) as variables known to be (c, 0): once both are that
    literal, the store's view and the row's view are one view. -/
theorem stored_row_gen (c : Dev nD) (f0 : (cc0_scratch0 : Ref sig .tc).ty.Contents (Elt F))
    (o1 o2 : Fin 2 → Nat) (h1 : o1 = ![c.val, 0]) (h2 : o2 = ![c.val, 0])
    (p1 : ∀ a, o1 a + S1x1024.size a ≤ S8x1024.size a) (p2 : ∀ a, o2 a + S1x1024.size a ≤ S8x1024.size a) :
    ∀ i ∈ (((cM : Memref sig .tc .vmem S8x1024 .f32).slice (Rect.unit (s := S8x1024) o2 S1x1024.size p2) (fun _ => rfl)).view.set : Finset (cc0_scratch0 : Ref sig .tc).ty.Idx),
      ((cM : Memref sig .tc .vmem S8x1024 .f32).access (Rect.unit (s := S8x1024) o1 S1x1024.size p1)).write (Elt F) f0
        (k0_pay2 (xblk m c)) Finset.univ i
      = tbl m i := by
  subst h1; subst h2
  intro i hi
  obtain ⟨y, rfl⟩ := View.exists_emb_of_mem_set _ hi
  have hw := View.write_emb_of_mem (Val := Elt F)
    (v := (cM : Memref sig .tc .vmem S8x1024 .f32).access (Rect.unit (s := S8x1024) ![c.val, 0] S1x1024.size p1)) f0 (k0_pay2 (xblk m c))
    (Finset.mem_univ y)
  refine hw.trans ?_
  rw [cast_eq]
  have hy0 : (y 0).val = 0 := by have : (y 0).val < 1 := (y 0).isLt; omega
  have he0 : (((cM : Memref sig .tc .vmem S8x1024 .f32).access (Rect.unit (s := S8x1024) ![c.val, 0] S1x1024.size p1)).emb y) 0 = c :=
    Fin.ext (by show c.val + 1 * (y 0).val = c.val; omega)
  have he1 : (((cM : Memref sig .tc .vmem S8x1024 .f32).access (Rect.unit (s := S8x1024) ![c.val, 0] S1x1024.size p1)).emb y) 1 = y 1 :=
    Fin.ext (by show 0 + 1 * (y 1).val = (y 1).val; omega)
  have hy : y = ValueIdx.ix2 (0 : Fin 1) (y 1) := by
    rw [ValueIdx.eq_ix2 y]; congr 1; exact Fin.ext hy0
  show k0_pay2 (xblk m c) y = k0_pay2 (xblk m ((((cM : Memref sig .tc .vmem S8x1024 .f32).access (Rect.unit (s := S8x1024) ![c.val, 0] S1x1024.size p1)).emb y) 0))
      (ValueIdx.ix2 (0 : Fin 1) ((((cM : Memref sig .tc .vmem S8x1024 .f32).access (Rect.unit (s := S8x1024) ![c.val, 0] S1x1024.size p1)).emb y) 1))
  rw [he0, he1]
  exact congrArg (k0_pay2 (xblk m c)) hy

/-- The device's own store: its partial sums written over its own row agree with the final table on that row. -/
theorem stored_row (c : Dev nD) (f0 : (cc0_scratch0 : Ref sig .tc).ty.Contents (Elt F)) :
    ∀ i ∈ (rowM c).view.set,
      ((cM : Memref sig .tc .vmem S8x1024 .f32).access (Rect.unit (s := S8x1024) (k0_off1 c) S1x1024.size (k0_off1_inb c))).write (Elt F) f0
        (k0_pay2 ((xM : Memref sig .tc .vmem S1024x512 .f32).view.readAt (Elt F)
          (Rect.unit (s := S1024x512) ![0, 0] S1024x512.size inb_S1024x512_S1024x512_0_0).toLoadRect (xblk m c))) Finset.univ i
      = tbl m i := by
  rw [read_x]
  exact stored_row_gen m c f0 (k0_off1 c) (k0_off2 c) (k0_off1_eq c) (k0_off2_eq c) (k0_off1_inb c) (k0_off2_inb c)

end Cert.Kernel.Proto

end
-- ==== Proof.Bits.Send.lean ====
/-
  One copy of the exchange, as a rule: device `c`'s copy `j` reads its own row through read token `j` and lands it in
  row `c` of the device `j + 1` places further, which that device handed over with its entry signal. The landing's
  payload is that row holding the final table's entries (a landing agrees with the table on its row); the end of the
  reading hands the token back.
-/
import proofs.«900465_g7700000000000466_dist_rmsnorm_colshard_i_m1024_n512_v7x_i8_bf16_1_alg».proof.Proof.Bits.Rows

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Copy `j` of device `c`, addressed to `n` = the device `j + 1` places further. -/
theorem wp_send_row (c n : Dev nD) (j : Fin 7) (hn : n = tgt j c) (κ₁ κ₂ : ℕ)
    {hsc : (rowM c : Memref sig (Dev.tc n : Thread nD τ).2.kind .vmem S1x1024 .f32).view.ref.isScScratch = false}
    {hsrc : (rowM c : Memref sig .tc .vmem S1x1024 .f32).view.WordExact} {hdst : (rowM c : Memref sig .tc .vmem S1x1024 .f32).view.WordExact}
    {hsem : DmaTarget.Typed .vmem (.dma (recvS j)) (.remote (Dev.tc n : Thread nD τ) (rowM c : Memref sig .tc .vmem S1x1024 .f32) (.dma (sendS j)) hsc)}
    {α : Type} {Q : α → sProp 𝕄} {k : PUnit → Prog (TpuEff nD τ sig (Elt F) Λ₀ .tc) α}
    (fd : Buf (Elt F) ((rowM c).view.loc (tgt j c : Thread nD τ))) (W : Waits sig Unit) (O : CellTallies nD τ sig Unit) :
    iprop(cellInv ER (exRd m) κ₁ (sendCell j c) ∗ cellInv ER (exRd m) κ₂ (recvCell j (tgt j c))
        ∗ rowPts c c (Transfers.shareTok fullShare 7 j) (tbl m) ∗ rowPts (tgt j c) c fullShare fd
        ∗ owes (c : Thread nD τ) (O + tallyAt (recvCell j (tgt j c)) () N) W
        ∗ dutyTok ER (sendCell j c) 0 (0 : Fin 7) ∗ reached ER (sendCell j c) 0
        ∗ dutyTok ER (recvCell j (tgt j c)) 0 (0 : Fin 7) ∗ reached ER (recvCell j (tgt j c)) 0)
      ⊢ iprop(((cred (tallyAt (sendCell j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma (sendS j)) hsc) (.dma (recvS j)) hsrc hdst hsem) k) Q) := by
  subst hn
  unfold rowPts
  exact Rounds.wp_send_pointsTo 𝒱₀ ER (exRd m) (c : Thread nD τ) none (κ₁ := κ₁) (κ₂ := κ₂)
    (c' := (tgt j c : Thread nD τ)) (src := rowM c) (dst := rowM c) (q := Transfers.shareTok fullShare 7 j) (fs := tbl m)
    (r₁ := 0) (r₂ := 0) (d₁ := 0) (d₂ := 0) (fd := fd)
    (by rw [duties_send]; exact Finset.mem_singleton_self _) (by rw [duties_recv]; exact Finset.mem_singleton_self _)
    () () N rfl (amount_send m c j 0) (amount_recv m (tgt j c) j 0) O rfl (W := W)
    (by rw [payload_send]; unfold sendPay rowPts; exact BI.Entails.refl _)
    (by
      rw [payload_recv]; unfold recvPay rowPts
      rw [src_tgt]
      exact Entails.of_eq (pointsTo_congr (landed_row c fd (tbl m))))

end Cert.Kernel.Proto

end
-- ==== Proof.Bits.Table.lean ====
/-
  A row of the 8 × 1024 table held by shares; whole-buffer loads and stores; the result.

  A row held outright is held as a remainder and seven read tokens, one lent to each outgoing copy. A load of a whole buffer reads
  it, a store of a whole buffer leaves what was stored; and the four payloads composed are the device's result block.
-/
import proofs.«900465_g7700000000000466_dist_rmsnorm_colshard_i_m1024_n512_v7x_i8_bf16_1_alg».proof.Proof.Bits.Send
import Idealize.ShloMosaic.Lib.Transfers

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A row by shares -/

/-- A row held outright is the remainder and the seven read tokens; -/
theorem toks_unpack (c d : Dev nD) (f : Buf (Elt F) ((rowM d).view.loc (c : Thread nD τ))) :
    rowPts c d fullShare f ⊢ iprop(rowPts c d (Transfers.shareDrop fullShare 7) f
      ∗ rowPts c d (Transfers.shareTok fullShare 7 0) f ∗ rowPts c d (Transfers.shareTok fullShare 7 1) f ∗ rowPts c d (Transfers.shareTok fullShare 7 2) f ∗ rowPts c d (Transfers.shareTok fullShare 7 3) f ∗ rowPts c d (Transfers.shareTok fullShare 7 4) f ∗ rowPts c d (Transfers.shareTok fullShare 7 5) f ∗ rowPts c d (Transfers.shareTok fullShare 7 6) f) := by
  unfold rowPts
  refine (Transfers.pointsTo_toks_split fullShare 7).trans ?_
  rw [bigSep_fin7]

/-- and back. -/
theorem toks_pack (c d : Dev nD) (f : Buf (Elt F) ((rowM d).view.loc (c : Thread nD τ))) :
    iprop(rowPts c d (Transfers.shareDrop fullShare 7) f
      ∗ rowPts c d (Transfers.shareTok fullShare 7 0) f ∗ rowPts c d (Transfers.shareTok fullShare 7 1) f ∗ rowPts c d (Transfers.shareTok fullShare 7 2) f ∗ rowPts c d (Transfers.shareTok fullShare 7 3) f ∗ rowPts c d (Transfers.shareTok fullShare 7 4) f ∗ rowPts c d (Transfers.shareTok fullShare 7 5) f ∗ rowPts c d (Transfers.shareTok fullShare 7 6) f) ⊢ rowPts c d fullShare f := by
  unfold rowPts
  refine BI.Entails.trans ?_ (Transfers.pointsTo_toks_join fullShare 7)
  rw [bigSep_fin7]
  exact BI.Entails.refl _

/-! ## Whole-buffer loads and the result's store -/

omit [FloatOps F] in
/-- A load of the whole scale block reads it. -/
theorem read_g (f : (cc0_stg1_0 : Ref sig .tc).ty.Contents (Elt F)) :
    (gM : Memref sig .tc .vmem S512 .f32).view.readAt (Elt F)
      (Rect.unit (s := S512) ![0] S512.size inb_S512_S512_0).toLoadRect f = f :=
  Memref.readAt_unit_zero (Elt F) cc0_stg1_0 hz1 _ f

omit [FloatOps F] in
/-- A load of the whole table reads it. -/
theorem read_tbl (f : (cc0_scratch0 : Ref sig .tc).ty.Contents (Elt F)) :
    (cM : Memref sig .tc .vmem S8x1024 .f32).view.readAt (Elt F)
      (Rect.unit (s := S8x1024) ![0, 0] S8x1024.size inb_S8x1024_S8x1024_0_0).toLoadRect f = f :=
  Memref.readAt_unit_zero (Elt F) cc0_scratch0 hz2 _ f

omit [FloatOps F] in
/-- A store over the whole output block leaves what was stored. -/
theorem write_out (f w : (cc0_stg2_0 : Ref sig .tc).ty.Contents (Elt F)) :
    ((oM : Memref sig .tc .vmem S1024x512 .bf16).access
        (Rect.unit (s := S1024x512) ![0, 0] S1024x512.size inb_S1024x512_S1024x512_0_0) : View sig .tc _ _ _).write (Elt F) f w Finset.univ = w :=
  Memref.write_access_unit_zero_univ (Elt F) cc0_stg2_0 hz2 _ f w

/-! ## The result -/

/-- The four payloads composed, at the device's blocks and the final table, are its result block. -/
theorem out_val (c : Dev nD) : k0_pay4 (k0_pay3 (k0_pay1 (xblk m c)) (gblk m c)) (tbl m) = outAt m c := by
  unfold outAt tbl Spec.outOf; rfl

/-- info: 'Cert.Kernel.Proto.toks_pack' depends on axioms: [propext, Classical.choice, Quot.sound] -/
#guard_msgs in #print axioms toks_pack
/-- info: 'Cert.Kernel.Proto.out_val' depends on axioms: [propext, Classical.choice, Quot.sound] -/
#guard_msgs in #print axioms out_val

end Cert.Kernel.Proto

end
-- ==== Proof.Bits.TableRows.lean ====
/-
  The 8 × 1024 table held by rows.

  The table's entries are the disjoint union of its eight rows, so holding the table is holding the eight rows; listed
  from a device's point of view they are its own row and the rows of the devices 1, …, 7 places before it. Listing
  them so is a permutation of the eight devices, for every device.
-/
import proofs.«900465_g7700000000000466_dist_rmsnorm_colshard_i_m1024_n512_v7x_i8_bf16_1_alg».proof.Proof.Bits.Send
import Idealize.ShloMosaic.Lib.Transfers

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The table by rows -/

omit [FloatOps F] in
/-- A device and the seven devices before it are all eight, each once. -/
theorem devs_all (c : Dev nD) : (Finset.univ : Finset (Dev nD)) = ([c, src 0 c, src 1 c, src 2 c, src 3 c, src 4 c, src 5 c, src 6 c] : List (Dev nD)).toFinset := by
  revert c; decide
omit [FloatOps F] in
theorem devs_nodup (c : Dev nD) : ([c, src 0 c, src 1 c, src 2 c, src 3 c, src 4 c, src 5 c, src 6 c] : List (Dev nD)).Nodup := by
  revert c; decide

omit [FloatOps F] in
/-- The table's entries are the union of its rows, whichever way equality of entries is decided. -/
theorem rows_cover_at (c : Dev nD)
    (inst : DecidableEq (Idx ((cM : Memref sig .tc .vmem S8x1024 .f32).view.loc (c : Thread nD τ)))) :
    ((cM : Memref sig .tc .vmem S8x1024 .f32).view.set : Finset (Idx ((cM : Memref sig .tc .vmem S8x1024 .f32).view.loc (c : Thread nD τ))))
      = @Finset.biUnion (Dev nD) (Idx ((cM : Memref sig .tc .vmem S8x1024 .f32).view.loc (c : Thread nD τ))) inst Finset.univ
          (fun d => (rowM d).view.set) := by
  rw [scr_set]
  exact (Finset.eq_univ_of_forall fun i => Finset.mem_biUnion.mpr ⟨i 0, Finset.mem_univ _, mem_own_row i⟩).symm

omit [FloatOps F] in
theorem table_rows_big (c : Dev nD) (q : PosShare TreeShare) (f : Buf (Elt F) ((c : Thread nD τ).loc cc0_scratch0)) :
    ((cM : Memref sig .tc .vmem S8x1024 .f32).view.loc (c : Thread nD τ) ↦[(cM : Memref sig .tc .vmem S8x1024 .f32).view.set]{q} f : sProp 𝕄)
      = bigSep (Finset.univ : Finset (Dev nD)) fun d => ((cM : Memref sig .tc .vmem S8x1024 .f32).view.loc (c : Thread nD τ) ↦[(rowM d).view.set]{q} f : sProp 𝕄) := by
  have h2 := pointsTo_biUnion (Ix := Unit) (Name := ℕ) (U := UU) (Lvl := ℕ) (Val := Elt F) (τ := τ)
    (ℓ := (cM : Memref sig .tc .vmem S8x1024 .f32).view.loc (c : Thread nD τ)) (q := q) (f := f)
    (Finset.univ : Finset (Dev nD)) (fun d => (rowM d).view.set) (fun d _ d' _ h => row_disjoint h)
  rw [← rows_cover_at c _] at h2
  exact h2

omit [FloatOps F] in
/-- A row's entries held through the table's location are the row held. -/
theorem row_eq (c d : Dev nD) (q : PosShare TreeShare) (f : Buf (Elt F) ((c : Thread nD τ).loc cc0_scratch0)) :
    ((cM : Memref sig .tc .vmem S8x1024 .f32).view.loc (c : Thread nD τ) ↦[(rowM d).view.set]{q} f : sProp 𝕄) = rowPts c d q f := rfl

omit [FloatOps F] in
/-- Holding the table at a share is holding its eight rows at it. -/
theorem table_rows (c : Dev nD) (q : PosShare TreeShare) (f : Buf (Elt F) ((c : Thread nD τ).loc cc0_scratch0)) :
    ((cM : Memref sig .tc .vmem S8x1024 .f32).view.loc (c : Thread nD τ) ↦[(cM : Memref sig .tc .vmem S8x1024 .f32).view.set]{q} f : sProp 𝕄)
      = iprop(rowPts c c q f ∗ rowPts c (src 0 c) q f ∗ rowPts c (src 1 c) q f ∗ rowPts c (src 2 c) q f ∗ rowPts c (src 3 c) q f ∗ rowPts c (src 4 c) q f ∗ rowPts c (src 5 c) q f ∗ rowPts c (src 6 c) q f) := by
  rw [table_rows_big c q f, bigSep_congr (s := Finset.univ) (fun (d : Dev nD) _ => row_eq c d q f)]
  exact bigSep_univ_eq_bigSepL [c, src 0 c, src 1 c, src 2 c, src 3 c, src 4 c, src 5 c, src 6 c] (devs_all c) (devs_nodup c) (fun d : Dev nD => (rowPts c d q f : sProp 𝕄))

omit [FloatOps F] in
/-- The table held, split into its rows; -/
theorem table_rows_split (c : Dev nD) (q : PosShare TreeShare) (f : Buf (Elt F) ((c : Thread nD τ).loc cc0_scratch0)) :
    ((cM : Memref sig .tc .vmem S8x1024 .f32).view.loc (c : Thread nD τ) ↦[(cM : Memref sig .tc .vmem S8x1024 .f32).view.set]{q} f : sProp 𝕄)
      ⊢ iprop(rowPts c c q f ∗ rowPts c (src 0 c) q f ∗ rowPts c (src 1 c) q f ∗ rowPts c (src 2 c) q f ∗ rowPts c (src 3 c) q f ∗ rowPts c (src 4 c) q f ∗ rowPts c (src 5 c) q f ∗ rowPts c (src 6 c) q f) :=
  Entails.of_eq (table_rows c q f)

omit [FloatOps F] in
/-- and the rows joined back into the table. -/
theorem table_rows_join (c : Dev nD) (q : PosShare TreeShare) (f : Buf (Elt F) ((c : Thread nD τ).loc cc0_scratch0)) :
    iprop(rowPts c c q f ∗ rowPts c (src 0 c) q f ∗ rowPts c (src 1 c) q f ∗ rowPts c (src 2 c) q f ∗ rowPts c (src 3 c) q f ∗ rowPts c (src 4 c) q f ∗ rowPts c (src 5 c) q f ∗ rowPts c (src 6 c) q f)
      ⊢ ((cM : Memref sig .tc .vmem S8x1024 .f32).view.loc (c : Thread nD τ) ↦[(cM : Memref sig .tc .vmem S8x1024 .f32).view.set]{q} f : sProp 𝕄) :=
  Entails.of_eq (table_rows c q f).symm

/-- info: 'Cert.Kernel.Proto.table_rows' depends on axioms: [propext, Classical.choice, Quot.sound] -/
#guard_msgs in #print axioms table_rows

end Cert.Kernel.Proto

end
-- ==== Proof.Bits.Body.lean ====
/-
  One device's body, run once at a symbolic device `c`.

  In order: `c` signals its seven peers, handing each the row of its table that peer will write; it sums the squares
  of its own block along the rows and stores the 1024 partial sums in its own row; it waits for seven units on its
  entry cell and so holds row `c` of every peer's table; it copies its own row into each of those, reading through
  seven read tokens of the row; it waits for the seven landings, after which its table holds every device's partial
  sums; it sums the table down its columns, scales its block, and stores the result; it waits for the seven copies
  to have finished reading, and holds its table whole again.
-/
import proofs.«900465_g7700000000000466_dist_rmsnorm_colshard_i_m1024_n512_v7x_i8_bf16_1_alg».proof.Proof.Bits.BodyDefs
import proofs.«900465_g7700000000000466_dist_rmsnorm_colshard_i_m1024_n512_v7x_i8_bf16_1_alg».proof.Proof.Bits.Send
import proofs.«900465_g7700000000000466_dist_rmsnorm_colshard_i_m1024_n512_v7x_i8_bf16_1_alg».proof.Proof.Bits.Table
import proofs.«900465_g7700000000000466_dist_rmsnorm_colshard_i_m1024_n512_v7x_i8_bf16_1_alg».proof.Proof.Bits.TableRows

set_option maxRecDepth 16384

noncomputable section

namespace Cert.Kernel.Proto

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables at the literal duties, payloads spelt out -/

theorem sendS_spelt1 : ((cc0_scratch1.slice (Rect.unit (s := S7) ![1] S1.size inb_S7_S1_1)).squeeze S_ squeezes_S1_S_).sem = sendS 1 := by decide
theorem recvS_spelt1 : ((cc0_scratch2.slice (Rect.unit (s := S7) ![1] S1.size inb_S7_S1_1)).squeeze S_ squeezes_S1_S_).sem = recvS 1 := by decide
theorem sendS_spelt2 : ((cc0_scratch1.slice (Rect.unit (s := S7) ![2] S1.size inb_S7_S1_2)).squeeze S_ squeezes_S1_S_).sem = sendS 2 := by decide
theorem recvS_spelt2 : ((cc0_scratch2.slice (Rect.unit (s := S7) ![2] S1.size inb_S7_S1_2)).squeeze S_ squeezes_S1_S_).sem = recvS 2 := by decide
theorem sendS_spelt3 : ((cc0_scratch1.slice (Rect.unit (s := S7) ![3] S1.size inb_S7_S1_3)).squeeze S_ squeezes_S1_S_).sem = sendS 3 := by decide
theorem recvS_spelt3 : ((cc0_scratch2.slice (Rect.unit (s := S7) ![3] S1.size inb_S7_S1_3)).squeeze S_ squeezes_S1_S_).sem = recvS 3 := by decide
theorem sendS_spelt4 : ((cc0_scratch1.slice (Rect.unit (s := S7) ![4] S1.size inb_S7_S1_4)).squeeze S_ squeezes_S1_S_).sem = sendS 4 := by decide
theorem recvS_spelt4 : ((cc0_scratch2.slice (Rect.unit (s := S7) ![4] S1.size inb_S7_S1_4)).squeeze S_ squeezes_S1_S_).sem = recvS 4 := by decide
theorem sendS_spelt5 : ((cc0_scratch1.slice (Rect.unit (s := S7) ![5] S1.size inb_S7_S1_5)).squeeze S_ squeezes_S1_S_).sem = sendS 5 := by decide
theorem recvS_spelt5 : ((cc0_scratch2.slice (Rect.unit (s := S7) ![5] S1.size inb_S7_S1_5)).squeeze S_ squeezes_S1_S_).sem = recvS 5 := by decide

theorem pl_bar_0 (c : Dev nD) : (exRd (F := F) m).payload (barCell (tgt 0 c)) 0 (0 : Fin 7)
    = iprop((∃ f, ((rowM (tgt 0 c)).view.loc (c : Thread nD τ) ↦[(rowM (tgt 0 c)).view.set]{fullShare} f)) ∗ reached ER (recvCell 6 c) 0) := by
  rw [payload_bar_tgt]; rfl
theorem pl_send_0 (c : Dev nD) (d : Fin 7) : (exRd (F := F) m).payload (sendCell 0 c) 0 d
    = ((rowM c).view.loc (c : Thread nD τ) ↦[(rowM c).view.set]{Transfers.shareTok fullShare 7 (0 : Fin 7)} tbl m) := by
  rw [payload_send]; rfl
theorem pl_recv_0 (c : Dev nD) (d : Fin 7) : (exRd (F := F) m).payload (recvCell 0 c) 0 d
    = ((rowM (src 0 c)).view.loc (c : Thread nD τ) ↦[(rowM (src 0 c)).view.set]{fullShare} tbl m) := by
  rw [payload_recv]; rfl
theorem src_as_tgt0 (c : Dev nD) : src 0 c = tgt 6 c := by revert c; decide
theorem pl_bar_1 (c : Dev nD) : (exRd (F := F) m).payload (barCell (tgt 1 c)) 0 (1 : Fin 7)
    = iprop((∃ f, ((rowM (tgt 1 c)).view.loc (c : Thread nD τ) ↦[(rowM (tgt 1 c)).view.set]{fullShare} f)) ∗ reached ER (recvCell 5 c) 0) := by
  rw [payload_bar_tgt]; rfl
theorem pl_send_1 (c : Dev nD) (d : Fin 7) : (exRd (F := F) m).payload (sendCell 1 c) 0 d
    = ((rowM c).view.loc (c : Thread nD τ) ↦[(rowM c).view.set]{Transfers.shareTok fullShare 7 (1 : Fin 7)} tbl m) := by
  rw [payload_send]; rfl
theorem pl_recv_1 (c : Dev nD) (d : Fin 7) : (exRd (F := F) m).payload (recvCell 1 c) 0 d
    = ((rowM (src 1 c)).view.loc (c : Thread nD τ) ↦[(rowM (src 1 c)).view.set]{fullShare} tbl m) := by
  rw [payload_recv]; rfl
theorem src_as_tgt1 (c : Dev nD) : src 1 c = tgt 5 c := by revert c; decide
theorem pl_bar_2 (c : Dev nD) : (exRd (F := F) m).payload (barCell (tgt 2 c)) 0 (2 : Fin 7)
    = iprop((∃ f, ((rowM (tgt 2 c)).view.loc (c : Thread nD τ) ↦[(rowM (tgt 2 c)).view.set]{fullShare} f)) ∗ reached ER (recvCell 4 c) 0) := by
  rw [payload_bar_tgt]; rfl
theorem pl_send_2 (c : Dev nD) (d : Fin 7) : (exRd (F := F) m).payload (sendCell 2 c) 0 d
    = ((rowM c).view.loc (c : Thread nD τ) ↦[(rowM c).view.set]{Transfers.shareTok fullShare 7 (2 : Fin 7)} tbl m) := by
  rw [payload_send]; rfl
theorem pl_recv_2 (c : Dev nD) (d : Fin 7) : (exRd (F := F) m).payload (recvCell 2 c) 0 d
    = ((rowM (src 2 c)).view.loc (c : Thread nD τ) ↦[(rowM (src 2 c)).view.set]{fullShare} tbl m) := by
  rw [payload_recv]; rfl
theorem src_as_tgt2 (c : Dev nD) : src 2 c = tgt 4 c := by revert c; decide
theorem pl_bar_3 (c : Dev nD) : (exRd (F := F) m).payload (barCell (tgt 3 c)) 0 (3 : Fin 7)
    = iprop((∃ f, ((rowM (tgt 3 c)).view.loc (c : Thread nD τ) ↦[(rowM (tgt 3 c)).view.set]{fullShare} f)) ∗ reached ER (recvCell 3 c) 0) := by
  rw [payload_bar_tgt]; rfl
theorem pl_send_3 (c : Dev nD) (d : Fin 7) : (exRd (F := F) m).payload (sendCell 3 c) 0 d
    = ((rowM c).view.loc (c : Thread nD τ) ↦[(rowM c).view.set]{Transfers.shareTok fullShare 7 (3 : Fin 7)} tbl m) := by
  rw [payload_send]; rfl
theorem pl_recv_3 (c : Dev nD) (d : Fin 7) : (exRd (F := F) m).payload (recvCell 3 c) 0 d
    = ((rowM (src 3 c)).view.loc (c : Thread nD τ) ↦[(rowM (src 3 c)).view.set]{fullShare} tbl m) := by
  rw [payload_recv]; rfl
theorem src_as_tgt3 (c : Dev nD) : src 3 c = tgt 3 c := by revert c; decide
theorem pl_bar_4 (c : Dev nD) : (exRd (F := F) m).payload (barCell (tgt 4 c)) 0 (4 : Fin 7)
    = iprop((∃ f, ((rowM (tgt 4 c)).view.loc (c : Thread nD τ) ↦[(rowM (tgt 4 c)).view.set]{fullShare} f)) ∗ reached ER (recvCell 2 c) 0) := by
  rw [payload_bar_tgt]; rfl
theorem pl_send_4 (c : Dev nD) (d : Fin 7) : (exRd (F := F) m).payload (sendCell 4 c) 0 d
    = ((rowM c).view.loc (c : Thread nD τ) ↦[(rowM c).view.set]{Transfers.shareTok fullShare 7 (4 : Fin 7)} tbl m) := by
  rw [payload_send]; rfl
theorem pl_recv_4 (c : Dev nD) (d : Fin 7) : (exRd (F := F) m).payload (recvCell 4 c) 0 d
    = ((rowM (src 4 c)).view.loc (c : Thread nD τ) ↦[(rowM (src 4 c)).view.set]{fullShare} tbl m) := by
  rw [payload_recv]; rfl
theorem src_as_tgt4 (c : Dev nD) : src 4 c = tgt 2 c := by revert c; decide
theorem pl_bar_5 (c : Dev nD) : (exRd (F := F) m).payload (barCell (tgt 5 c)) 0 (5 : Fin 7)
    = iprop((∃ f, ((rowM (tgt 5 c)).view.loc (c : Thread nD τ) ↦[(rowM (tgt 5 c)).view.set]{fullShare} f)) ∗ reached ER (recvCell 1 c) 0) := by
  rw [payload_bar_tgt]; rfl
theorem pl_send_5 (c : Dev nD) (d : Fin 7) : (exRd (F := F) m).payload (sendCell 5 c) 0 d
    = ((rowM c).view.loc (c : Thread nD τ) ↦[(rowM c).view.set]{Transfers.shareTok fullShare 7 (5 : Fin 7)} tbl m) := by
  rw [payload_send]; rfl
theorem pl_recv_5 (c : Dev nD) (d : Fin 7) : (exRd (F := F) m).payload (recvCell 5 c) 0 d
    = ((rowM (src 5 c)).view.loc (c : Thread nD τ) ↦[(rowM (src 5 c)).view.set]{fullShare} tbl m) := by
  rw [payload_recv]; rfl
theorem src_as_tgt5 (c : Dev nD) : src 5 c = tgt 1 c := by revert c; decide
theorem pl_bar_6 (c : Dev nD) : (exRd (F := F) m).payload (barCell (tgt 6 c)) 0 (6 : Fin 7)
    = iprop((∃ f, ((rowM (tgt 6 c)).view.loc (c : Thread nD τ) ↦[(rowM (tgt 6 c)).view.set]{fullShare} f)) ∗ reached ER (recvCell 0 c) 0) := by
  rw [payload_bar_tgt]; rfl
theorem pl_send_6 (c : Dev nD) (d : Fin 7) : (exRd (F := F) m).payload (sendCell 6 c) 0 d
    = ((rowM c).view.loc (c : Thread nD τ) ↦[(rowM c).view.set]{Transfers.shareTok fullShare 7 (6 : Fin 7)} tbl m) := by
  rw [payload_send]; rfl
theorem pl_recv_6 (c : Dev nD) (d : Fin 7) : (exRd (F := F) m).payload (recvCell 6 c) 0 d
    = ((rowM (src 6 c)).view.loc (c : Thread nD τ) ↦[(rowM (src 6 c)).view.set]{fullShare} tbl m) := by
  rw [payload_recv]; rfl
theorem src_as_tgt6 (c : Dev nD) : src 6 c = tgt 0 c := by revert c; decide

/-- A row held under one name of a device is held under any equal name. -/
theorem row_retarget (c d d' : Dev nD) (h : d = d') (q : PosShare TreeShare) (f : Buf (Elt F) ((c : Thread nD τ).loc cc0_scratch0)) :
    (rowPts c d q f : sProp 𝕄) ⊢ rowPts c d' q f := by subst h; exact BI.Entails.refl _

/-- The seven payloads of the entry cell's round, each payer named as the device `c`'s own copy reaches. -/
theorem bar_payloads (c : Dev nD) : bigSep Finset.univ (fun d => (exRd (F := F) m).payload (barCell c) 0 d)
    = iprop(((∃ f, ((rowM c).view.loc (tgt 6 c : Thread nD τ) ↦[(rowM c).view.set]{fullShare} f)) ∗ reached ER (recvCell 6 (tgt 6 c)) 0)
      ∗ ((∃ f, ((rowM c).view.loc (tgt 5 c : Thread nD τ) ↦[(rowM c).view.set]{fullShare} f)) ∗ reached ER (recvCell 5 (tgt 5 c)) 0)
      ∗ ((∃ f, ((rowM c).view.loc (tgt 4 c : Thread nD τ) ↦[(rowM c).view.set]{fullShare} f)) ∗ reached ER (recvCell 4 (tgt 4 c)) 0)
      ∗ ((∃ f, ((rowM c).view.loc (tgt 3 c : Thread nD τ) ↦[(rowM c).view.set]{fullShare} f)) ∗ reached ER (recvCell 3 (tgt 3 c)) 0)
      ∗ ((∃ f, ((rowM c).view.loc (tgt 2 c : Thread nD τ) ↦[(rowM c).view.set]{fullShare} f)) ∗ reached ER (recvCell 2 (tgt 2 c)) 0)
      ∗ ((∃ f, ((rowM c).view.loc (tgt 1 c : Thread nD τ) ↦[(rowM c).view.set]{fullShare} f)) ∗ reached ER (recvCell 1 (tgt 1 c)) 0)
      ∗ ((∃ f, ((rowM c).view.loc (tgt 0 c : Thread nD τ) ↦[(rowM c).view.set]{fullShare} f)) ∗ reached ER (recvCell 0 (tgt 0 c)) 0)) := by
  rw [bigSep_fin7]
  simp only [payload_bar, src_as_tgt0, src_as_tgt1, src_as_tgt2, src_as_tgt3, src_as_tgt4, src_as_tgt5, src_as_tgt6]
  rfl

attribute [local sl_rounds] pl_bar_0 pl_send_0 pl_recv_0 pl_bar_1 pl_send_1 pl_recv_1 pl_bar_2 pl_send_2 pl_recv_2 pl_bar_3 pl_send_3 pl_recv_3 pl_bar_4 pl_send_4 pl_recv_4 pl_bar_5 pl_send_5 pl_recv_5 pl_bar_6 pl_send_6 pl_recv_6 duties_bar duties_send duties_recv amount_bar amount_send amount_recv expect_bar expect_send expect_recv
attribute [local sl_canon] sendS_spelt0 recvS_spelt0 sendS_spelt1 recvS_spelt1 sendS_spelt2 recvS_spelt2 sendS_spelt3 recvS_spelt3 sendS_spelt4 recvS_spelt4 sendS_spelt5 recvS_spelt5 sendS_spelt6 recvS_spelt6 dev1_eq dev2_eq dev3_eq dev4_eq dev5_eq dev6_eq dev7_eq dev8_eq dev9_eq dev10_eq dev11_eq dev12_eq dev13_eq dev14_eq

/-- The stored result, in the spelling the run leaves it in, is the device's result block. -/
theorem out_stored (c : Dev nD) (g2 : (cc0_stg2_0 : Ref sig .tc).ty.Contents (Elt F)) :
    ((oM : Memref sig .tc .vmem S1024x512 .bf16).access (Rect.unit (s := S1024x512) ![0, 0] S1024x512.size inb_S1024x512_S1024x512_0_0)).write (Elt F) g2
      (k0_pay4
        (k0_pay3
          (k0_pay1 ((xM : Memref sig .tc .vmem S1024x512 .f32).view.readAt (Elt F)
            (Rect.unit (s := S1024x512) ![0, 0] S1024x512.size inb_S1024x512_S1024x512_0_0).toLoadRect (xblk m c)))
          ((gM : Memref sig .tc .vmem S512 .f32).view.readAt (Elt F) (Rect.unit (s := S512) ![0] S512.size inb_S512_S512_0).toLoadRect (gblk m c)))
        ((cM : Memref sig .tc .vmem S8x1024 .f32).view.readAt (Elt F)
          (Rect.unit (s := S8x1024) ![0, 0] S8x1024.size inb_S8x1024_S8x1024_0_0).toLoadRect (tbl m))) Finset.univ
      = outAt m c := by
  rw [write_out, read_x, read_g, read_tbl]; exact out_val m c

/-! ## The body -/

set_option maxHeartbeats 16000000 in
theorem sound_body : SoundBody m ρ := by
  intro K c Kt
  -- the continuation's premise is kept closed during the run
  generalize hPost : bodyPost m ρ c = Post
  unfold bodyPre ghost pers lin credsOf
  iintro ⟨⟨⟨⟨⟨#HIb, #HIs0, #HIs1, #HIs2, #HIs3, #HIs4, #HIs5, #HIs6, #HIr0, #HIr1, #HIr2, #HIr3, #HIr4, #HIr5, #HIr6, #HIbt0, #HIbt1, #HIbt2, #HIbt3, #HIbt4, #HIbt5, #HIbt6, #HIrt0, #HIrt1, #HIrt2, #HIrt3, #HIrt4, #HIrt5, #HIrt6, #HRbt0, #HRbt1, #HRbt2, #HRbt3, #HRbt4, #HRbt5, #HRbt6, #HRrt0, #HRrt1, #HRrt2, #HRrt3, #HRrt4, #HRrt5, #HRrt6, #HRs0, #HRs1, #HRs2, #HRs3, #HRs4, #HRs5, #HRs6, #HRr0, #HRr1, #HRr2, #HRr3, #HRr4, #HRr5, #HRr6⟩, HaB, HaS0, HaS1, HaS2, HaS3, HaS4, HaS5, HaS6, HaR0, HaR1, HaR2, HaR3, HaR4, HaR5, HaR6, HtB0, HtB1, HtB2, HtB3, HtB4, HtB5, HtB6, HtR0, HtR1, HtR2, HtR3, HtR4, HtR5, HtR6, HtS0, HtS1, HtS2, HtS3, HtS4, HtS5, HtS6⟩, ⟨HcB, HcR0, HcR1, HcR2, HcR3, HcR4, HcR5, HcR6⟩, #Hlev, ⟨%f0, Hscr⟩⟩,
    Ho, ⟨%d0, %g0, %hg0, Hx0⟩, ⟨%d1, %g1, %hg1, Hg0⟩, ⟨%d2, %g2, %hg2, Hout0⟩⟩, Hk⟩
  have hx : g0 = xblk m c := by rw [hg0]; unfold Dat.before; rw [if_pos (fetch0_0 t0_0)]; rfl
  have hg : g1 = gblk m c := by rw [hg1]; unfold Dat.before; rw [if_pos (fetch0_1 t0_0)]; rfl
  subst hx; subst hg
  clear hg0 hg1 hg2
  unfold Dat.owesAt Pipeline.owesWithin
  icases Ho with ⟨%W, %hW, HO⟩
  clear hW
  rw [show (dats m ρ 0 c).owed t0_0.castSucc = O₀ c from rfl]
  unfold O₀ OB1 OB2 OB3 OB4 OB5 OB6 OR0 OR1 OR2 OR3 OR4 OR5 OR6 rT bT
  -- the staging buffers, through their views
  ihave Hx := (Entails.of_eq (show ((((c : Thread nD τ).loc cc0_stg0_0) ↦{fullShare} xblk m c : sProp 𝕄)) = (xM.view.loc (c : Thread nD τ) ↦{fullShare} xblk m c) from rfl)) $$ Hx0
  ihave Hg := (Entails.of_eq (show ((((c : Thread nD τ).loc cc0_stg1_0) ↦{fullShare} gblk m c : sProp 𝕄)) = (gM.view.loc (c : Thread nD τ) ↦{fullShare} gblk m c) from rfl)) $$ Hg0
  ihave Hout := (Entails.of_eq (show ((((c : Thread nD τ).loc cc0_stg2_0) ↦{fullShare} g2 : sProp 𝕄)) = (oM.view.loc (c : Thread nD τ) ↦{fullShare} g2) from rfl)) $$ Hout0
  -- the table by rows: its own, and the row of each device a signal reaches
  unfold scrPts
  ihave Hrows := (table_rows_split c fullShare f0) $$ Hscr
  icases Hrows with ⟨Hown0, R0, R1, R2, R3, R4, R5, R6⟩
  ihave Hrow0 := (row_retarget c _ _ (src_as_tgt6 c) fullShare f0) $$ R6
  ihave Hrow1 := (row_retarget c _ _ (src_as_tgt5 c) fullShare f0) $$ R5
  ihave Hrow2 := (row_retarget c _ _ (src_as_tgt4 c) fullShare f0) $$ R4
  ihave Hrow3 := (row_retarget c _ _ (src_as_tgt3 c) fullShare f0) $$ R3
  ihave Hrow4 := (row_retarget c _ _ (src_as_tgt2 c) fullShare f0) $$ R2
  ihave Hrow5 := (row_retarget c _ _ (src_as_tgt1 c) fullShare f0) $$ R1
  ihave Hrow6 := (row_retarget c _ _ (src_as_tgt0 c) fullShare f0) $$ R0
  ihave Hown := (row_retarget c c c rfl fullShare f0) $$ Hown0
  unfold rowPts
  have hmw := mayWait_bar (F := F) c
  unfold OR0 OR1 OR2 OR3 OR4 OR5 OR6 rT at hmw
  sl_unfold [cc0_body]
  -- the seven signals, the row sums, their store, the entry wait
  sl_exec (disch := simp only [dev8_eq, dev9_eq, dev10_eq, dev11_eq, dev12_eq, dev13_eq, dev14_eq])
  ihave Hp := (Entails.of_eq (bar_payloads m c)) $$ HaB_pay1
  icases Hp with ⟨P6, P5, P4, P3, P2, P1, P0⟩
  ihave Hown' := (Entails.of_eq (pointsTo_congr (g := tbl m) (fun i hi => stored_row m c f0 i hi))) $$ Hown
  ihave Hs := (Transfers.pointsTo_toks_split fullShare 7) $$ Hown'
  icases Hs with ⟨Hrem, Htoks⟩
  ihave Htoks' := (Entails.of_eq (bigSep_fin7 _)) $$ Htoks
  icases Htoks' with ⟨Hk0, Hk1, Hk2, Hk3, Hk4, Hk5, Hk6⟩
  -- copy 0
  icases P0 with ⟨⟨%fd0, Hd0⟩, -⟩
  iapply (wp_send_row m c _ 0 rfl (K (c, 1)) (K (tgt 0 c, 8)) fd0 _ _) $$ [HO Hk0 Hd0 HtS0 HtR0]
  · unfold rowPts
    isplitr; · iexact HIs0
    isplitr; · iexact HIrt0
    isplitl [Hk0]; · iexact Hk0
    isplitl [Hd0]; · iexact Hd0
    isplitl [HO]; · iexact HO
    isplitl [HtS0]; · iexact HtS0
    isplitr; · iexact HRs0
    isplitl [HtR0]; · iexact HtR0
    iexact HRrt0
  iintro ⟨HcS0, HO⟩
  sl_exec (disch := simp only [dev8_eq, dev9_eq, dev10_eq, dev11_eq, dev12_eq, dev13_eq, dev14_eq])
  -- copy 1
  icases P1 with ⟨⟨%fd1, Hd1⟩, -⟩
  iapply (wp_send_row m c _ 1 rfl (K (c, 2)) (K (tgt 1 c, 9)) fd1 _ _) $$ [HO Hk1 Hd1 HtS1 HtR1]
  · unfold rowPts
    isplitr; · iexact HIs1
    isplitr; · iexact HIrt1
    isplitl [Hk1]; · iexact Hk1
    isplitl [Hd1]; · iexact Hd1
    isplitl [HO]; · iexact HO
    isplitl [HtS1]; · iexact HtS1
    isplitr; · iexact HRs1
    isplitl [HtR1]; · iexact HtR1
    iexact HRrt1
  iintro ⟨HcS1, HO⟩
  sl_exec (disch := simp only [dev8_eq, dev9_eq, dev10_eq, dev11_eq, dev12_eq, dev13_eq, dev14_eq])
  -- copy 2
  icases P2 with ⟨⟨%fd2, Hd2⟩, -⟩
  iapply (wp_send_row m c _ 2 rfl (K (c, 3)) (K (tgt 2 c, 10)) fd2 _ _) $$ [HO Hk2 Hd2 HtS2 HtR2]
  · unfold rowPts
    isplitr; · iexact HIs2
    isplitr; · iexact HIrt2
    isplitl [Hk2]; · iexact Hk2
    isplitl [Hd2]; · iexact Hd2
    isplitl [HO]; · iexact HO
    isplitl [HtS2]; · iexact HtS2
    isplitr; · iexact HRs2
    isplitl [HtR2]; · iexact HtR2
    iexact HRrt2
  iintro ⟨HcS2, HO⟩
  sl_exec (disch := simp only [dev8_eq, dev9_eq, dev10_eq, dev11_eq, dev12_eq, dev13_eq, dev14_eq])
  -- copy 3
  icases P3 with ⟨⟨%fd3, Hd3⟩, -⟩
  iapply (wp_send_row m c _ 3 rfl (K (c, 4)) (K (tgt 3 c, 11)) fd3 _ _) $$ [HO Hk3 Hd3 HtS3 HtR3]
  · unfold rowPts
    isplitr; · iexact HIs3
    isplitr; · iexact HIrt3
    isplitl [Hk3]; · iexact Hk3
    isplitl [Hd3]; · iexact Hd3
    isplitl [HO]; · iexact HO
    isplitl [HtS3]; · iexact HtS3
    isplitr; · iexact HRs3
    isplitl [HtR3]; · iexact HtR3
    iexact HRrt3
  iintro ⟨HcS3, HO⟩
  sl_exec (disch := simp only [dev8_eq, dev9_eq, dev10_eq, dev11_eq, dev12_eq, dev13_eq, dev14_eq])
  -- copy 4
  icases P4 with ⟨⟨%fd4, Hd4⟩, -⟩
  iapply (wp_send_row m c _ 4 rfl (K (c, 5)) (K (tgt 4 c, 12)) fd4 _ _) $$ [HO Hk4 Hd4 HtS4 HtR4]
  · unfold rowPts
    isplitr; · iexact HIs4
    isplitr; · iexact HIrt4
    isplitl [Hk4]; · iexact Hk4
    isplitl [Hd4]; · iexact Hd4
    isplitl [HO]; · iexact HO
    isplitl [HtS4]; · iexact HtS4
    isplitr; · iexact HRs4
    isplitl [HtR4]; · iexact HtR4
    iexact HRrt4
  iintro ⟨HcS4, HO⟩
  sl_exec (disch := simp only [dev8_eq, dev9_eq, dev10_eq, dev11_eq, dev12_eq, dev13_eq, dev14_eq])
  -- copy 5
  icases P5 with ⟨⟨%fd5, Hd5⟩, -⟩
  iapply (wp_send_row m c _ 5 rfl (K (c, 6)) (K (tgt 5 c, 13)) fd5 _ _) $$ [HO Hk5 Hd5 HtS5 HtR5]
  · unfold rowPts
    isplitr; · iexact HIs5
    isplitr; · iexact HIrt5
    isplitl [Hk5]; · iexact Hk5
    isplitl [Hd5]; · iexact Hd5
    isplitl [HO]; · iexact HO
    isplitl [HtS5]; · iexact HtS5
    isplitr; · iexact HRs5
    isplitl [HtR5]; · iexact HtR5
    iexact HRrt5
  iintro ⟨HcS5, HO⟩
  sl_exec (disch := simp only [dev8_eq, dev9_eq, dev10_eq, dev11_eq, dev12_eq, dev13_eq, dev14_eq])
  -- copy 6
  icases P6 with ⟨⟨%fd6, Hd6⟩, -⟩
  iapply (wp_send_row m c _ 6 rfl (K (c, 7)) (K (tgt 6 c, 14)) fd6 _ _) $$ [HO Hk6 Hd6 HtS6 HtR6]
  · unfold rowPts
    isplitr; · iexact HIs6
    isplitr; · iexact HIrt6
    isplitl [Hk6]; · iexact Hk6
    isplitl [Hd6]; · iexact Hd6
    isplitl [HO]; · iexact HO
    isplitl [HtS6]; · iexact HtS6
    isplitr; · iexact HRs6
    isplitl [HtR6]; · iexact HtR6
    iexact HRrt6
  iintro ⟨HcS6, HO⟩
  sl_exec (disch := simp only [dev8_eq, dev9_eq, dev10_eq, dev11_eq, dev12_eq, dev13_eq, dev14_eq])
  -- every landed row: its full share as the remainder and seven read tokens; the table at the remainder share
  ihave U0 := (Transfers.pointsTo_toks_split fullShare 7) $$ HaR0_pay1
  icases U0 with ⟨D0, TT0⟩
  ihave U1 := (Transfers.pointsTo_toks_split fullShare 7) $$ HaR1_pay1
  icases U1 with ⟨D1, TT1⟩
  ihave U2 := (Transfers.pointsTo_toks_split fullShare 7) $$ HaR2_pay1
  icases U2 with ⟨D2, TT2⟩
  ihave U3 := (Transfers.pointsTo_toks_split fullShare 7) $$ HaR3_pay1
  icases U3 with ⟨D3, TT3⟩
  ihave U4 := (Transfers.pointsTo_toks_split fullShare 7) $$ HaR4_pay1
  icases U4 with ⟨D4, TT4⟩
  ihave U5 := (Transfers.pointsTo_toks_split fullShare 7) $$ HaR5_pay1
  icases U5 with ⟨D5, TT5⟩
  ihave U6 := (Transfers.pointsTo_toks_split fullShare 7) $$ HaR6_pay1
  icases U6 with ⟨D6, TT6⟩
  ihave Htab := (table_rows_join c (Transfers.shareDrop fullShare 7) (tbl m)) $$ [Hrem D0 D1 D2 D3 D4 D5 D6]
  · unfold rowPts
    isplitl [Hrem]; · iexact Hrem
    isplitl [D0]; · iexact D0
    isplitl [D1]; · iexact D1
    isplitl [D2]; · iexact D2
    isplitl [D3]; · iexact D3
    isplitl [D4]; · iexact D4
    isplitl [D5]; · iexact D5
    iexact D6
  -- the column sums, the scaling, the store of the result, the seven ends of reading
  sl_exec (disch := simp only [dev8_eq, dev9_eq, dev10_eq, dev11_eq, dev12_eq, dev13_eq, dev14_eq])
  -- the table back whole at the full share: the own row from the remainder and the seven tokens its copies return,
  -- every landed row from its remainder and its seven tokens
  ihave Hr := (table_rows_split c (Transfers.shareDrop fullShare 7) (tbl m)) $$ Htab
  icases Hr with ⟨Hrem, D0, D1, D2, D3, D4, D5, D6⟩
  unfold rowPts
  ihave Hks := (Entails.of_eq (bigSep_fin7 (fun i : Fin 7 => ((rowM c).view.loc (c : Thread nD τ) ↦[(rowM c).view.set]{Transfers.shareTok fullShare 7 i} tbl m : sProp 𝕄))).symm) $$ [HaS0_pay1 HaS1_pay1 HaS2_pay1 HaS3_pay1 HaS4_pay1 HaS5_pay1 HaS6_pay1]
  · isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    iexact HaS6_pay1
  ihave Hc := (Transfers.pointsTo_toks_join fullShare 7) $$ [Hrem Hks]
  · isplitl [Hrem]; · iexact Hrem
    iexact Hks
  ihave F0 := (Transfers.pointsTo_toks_join fullShare 7) $$ [D0 TT0]
  · isplitl [D0]; · iexact D0
    iexact TT0
  ihave F1 := (Transfers.pointsTo_toks_join fullShare 7) $$ [D1 TT1]
  · isplitl [D1]; · iexact D1
    iexact TT1
  ihave F2 := (Transfers.pointsTo_toks_join fullShare 7) $$ [D2 TT2]
  · isplitl [D2]; · iexact D2
    iexact TT2
  ihave F3 := (Transfers.pointsTo_toks_join fullShare 7) $$ [D3 TT3]
  · isplitl [D3]; · iexact D3
    iexact TT3
  ihave F4 := (Transfers.pointsTo_toks_join fullShare 7) $$ [D4 TT4]
  · isplitl [D4]; · iexact D4
    iexact TT4
  ihave F5 := (Transfers.pointsTo_toks_join fullShare 7) $$ [D5 TT5]
  · isplitl [D5]; · iexact D5
    iexact TT5
  ihave F6 := (Transfers.pointsTo_toks_join fullShare 7) $$ [D6 TT6]
  · isplitl [D6]; · iexact D6
    iexact TT6
  ihave Htable := (table_rows_join c fullShare (tbl m)) $$ [Hc F0 F1 F2 F3 F4 F5 F6]
  · unfold rowPts
    isplitl [Hc]; · iexact Hc
    isplitl [F0]; · iexact F0
    isplitl [F1]; · iexact F1
    isplitl [F2]; · iexact F2
    isplitl [F3]; · iexact F3
    isplitl [F4]; · iexact F4
    isplitl [F5]; · iexact F5
    iexact F6
  -- the fourteen own cells close: their counters at zero are the device's again
  imod (Rounds.cell_close ER (exRd m) (Set.mem_univ (K (c, 1))) (fun h => h) (R := 1) (duties_later m (sendCell 0 c))) $$ [HaS0] with HzS0
  · isplitr; · iexact HIs0
    iexact HaS0
  imod (Rounds.cell_close ER (exRd m) (Set.mem_univ (K (c, 2))) (fun h => h) (R := 1) (duties_later m (sendCell 1 c))) $$ [HaS1] with HzS1
  · isplitr; · iexact HIs1
    iexact HaS1
  imod (Rounds.cell_close ER (exRd m) (Set.mem_univ (K (c, 3))) (fun h => h) (R := 1) (duties_later m (sendCell 2 c))) $$ [HaS2] with HzS2
  · isplitr; · iexact HIs2
    iexact HaS2
  imod (Rounds.cell_close ER (exRd m) (Set.mem_univ (K (c, 4))) (fun h => h) (R := 1) (duties_later m (sendCell 3 c))) $$ [HaS3] with HzS3
  · isplitr; · iexact HIs3
    iexact HaS3
  imod (Rounds.cell_close ER (exRd m) (Set.mem_univ (K (c, 5))) (fun h => h) (R := 1) (duties_later m (sendCell 4 c))) $$ [HaS4] with HzS4
  · isplitr; · iexact HIs4
    iexact HaS4
  imod (Rounds.cell_close ER (exRd m) (Set.mem_univ (K (c, 6))) (fun h => h) (R := 1) (duties_later m (sendCell 5 c))) $$ [HaS5] with HzS5
  · isplitr; · iexact HIs5
    iexact HaS5
  imod (Rounds.cell_close ER (exRd m) (Set.mem_univ (K (c, 7))) (fun h => h) (R := 1) (duties_later m (sendCell 6 c))) $$ [HaS6] with HzS6
  · isplitr; · iexact HIs6
    iexact HaS6
  imod (Rounds.cell_close ER (exRd m) (Set.mem_univ (K (c, 8))) (fun h => h) (R := 1) (duties_later m (recvCell 0 c))) $$ [HaR0] with HzR0
  · isplitr; · iexact HIr0
    iexact HaR0
  imod (Rounds.cell_close ER (exRd m) (Set.mem_univ (K (c, 9))) (fun h => h) (R := 1) (duties_later m (recvCell 1 c))) $$ [HaR1] with HzR1
  · isplitr; · iexact HIr1
    iexact HaR1
  imod (Rounds.cell_close ER (exRd m) (Set.mem_univ (K (c, 10))) (fun h => h) (R := 1) (duties_later m (recvCell 2 c))) $$ [HaR2] with HzR2
  · isplitr; · iexact HIr2
    iexact HaR2
  imod (Rounds.cell_close ER (exRd m) (Set.mem_univ (K (c, 11))) (fun h => h) (R := 1) (duties_later m (recvCell 3 c))) $$ [HaR3] with HzR3
  · isplitr; · iexact HIr3
    iexact HaR3
  imod (Rounds.cell_close ER (exRd m) (Set.mem_univ (K (c, 12))) (fun h => h) (R := 1) (duties_later m (recvCell 4 c))) $$ [HaR4] with HzR4
  · isplitr; · iexact HIr4
    iexact HaR4
  imod (Rounds.cell_close ER (exRd m) (Set.mem_univ (K (c, 13))) (fun h => h) (R := 1) (duties_later m (recvCell 5 c))) $$ [HaR5] with HzR5
  · isplitr; · iexact HIr5
    iexact HaR5
  imod (Rounds.cell_close ER (exRd m) (Set.mem_univ (K (c, 14))) (fun h => h) (R := 1) (duties_later m (recvCell 6 c))) $$ [HaR6] with HzR6
  · isplitr; · iexact HIr6
    iexact HaR6
  sl_step
  subst hPost
  iapply Hk
  unfold bodyPost Φ₁ Dat.owesAt Pipeline.owesWithin
  rw [show (dats m ρ 0 c).owed t0_0.succ = 0 from rfl]
  isplitl [Htable HzS0 HzS1 HzS2 HzS3 HzS4 HzS5 HzS6 HzR0 HzR1 HzR2 HzR3 HzR4 HzR5 HzR6]
  · isplitl [Htable]; · iexists (tbl m); unfold scrPts; iexact Htable
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]
  · iexists _; isplitr
    rotate_left
    · iexact HO
    · ipureintro; exact fun _ _ => Or.inl trivial
  isplitl [Hx]
  · iexists _; isplitr; · (ipureintro; rfl)
    iexact Hx
  isplitl [Hg]
  · iexists _; isplitr; · (ipureintro; rfl)
    iexact Hg
  iexists _; isplitr
  rotate_left
  · iexact Hout
  · ipureintro; exact out_stored m c g2

/-- info: 'Cert.Kernel.Proto.sound_body' depends on axioms: [propext, Classical.choice, Quot.sound] -/
#guard_msgs in #print axioms sound_body

end Cert.Kernel.Proto

end
-- ==== Proof.lean ====
/-
  The five claims about the row-normalisation kernel on eight devices, from its parts.

  The kernel cuts a 1024 × 4096 array into eight blocks of 512 columns, one per device. Each device sums the squares of
  its block along the rows, the eight devices exchange these partial sums over remote copies guarded by an entry
  handshake, and each device scales its block by the scale vector and by the reciprocal root of (the row's whole sum of
  squares / 4096 + ε). The body of one device is shown, once for every float instance, to run safely from the ghost
  state, credit and staging buffers the launch hands it to the result block in its output buffer. The launch theorem
  turns that into the run of all eight devices: the program terminates, each device's result array holds its result
  block, and its argument arrays are unchanged. Read at the word-level instance this is the kernel's frame; read at the
  extended reals it is the idealized kernel's frame and, joined to the reference's run by the identity between a
  device's result block and its block of the reference's result, the algebraic claim. The idealization rewrote no
  operation, so there is nothing to preserve.
-/
import proofs.«900465_g7700000000000466_dist_rmsnorm_colshard_i_m1024_n512_v7x_i8_bf16_1_alg».proof.Defs
import proofs.«900465_g7700000000000466_dist_rmsnorm_colshard_i_m1024_n512_v7x_i8_bf16_1_alg».proof.Proof.Bridge
import proofs.«900465_g7700000000000466_dist_rmsnorm_colshard_i_m1024_n512_v7x_i8_bf16_1_alg».proof.Proof.LaunchPost
import proofs.«900465_g7700000000000466_dist_rmsnorm_colshard_i_m1024_n512_v7x_i8_bf16_1_alg».proof.Proof.BodyObl
import proofs.«900465_g7700000000000466_dist_rmsnorm_colshard_i_m1024_n512_v7x_i8_bf16_1_alg».proof.Proof.Body
import proofs.«900465_g7700000000000466_dist_rmsnorm_colshard_i_m1024_n512_v7x_i8_bf16_1_alg».proof.Proof.Bits.LaunchPost
import proofs.«900465_g7700000000000466_dist_rmsnorm_colshard_i_m1024_n512_v7x_i8_bf16_1_alg».proof.Proof.Bits.BodyObl
import proofs.«900465_g7700000000000466_dist_rmsnorm_colshard_i_m1024_n512_v7x_i8_bf16_1_alg».proof.Proof.Bits.Body
import Idealize.ShloMosaic.Adequacy
import Idealize.ShloMosaic.Init

noncomputable section

namespace Cert.Proof

open Idealize.ShloMosaic Idealize.SL.Sem

/-- The word-level kernel runs and leaves its argument arrays unchanged: its run with the result forgotten. -/
theorem frame_Kernel : Cert.frame_Kernel := fun m g _ =>
  (θ_run Cert.Kernel.defs _ _).mono (fun _ h c => (h c).2)
    (Cert.Kernel.Proto.run_post (F := Bits) m g (Cert.Kernel.Proto.body_obligation m g (Cert.Kernel.Proto.sound_body m g)))

/-- So does the idealized kernel. -/
theorem frame_KernelIdeal : Cert.frame_KernelIdeal := fun m g _ =>
  (θ_run Cert.KernelIdeal.defs _ _).mono (fun _ h c => (h c).2)
    (Cert.KernelIdeal.Proto.run_post (F := Ideal) m g (Cert.KernelIdeal.Proto.body_obligation m g (Cert.KernelIdeal.Proto.sound_body m g)))

/-- And the reference. -/
theorem frame_ReferenceIdeal : Cert.frame_ReferenceIdeal := Cert.Bridge.frame_ref

/-- The idealization rewrote no operation. -/
theorem preserves : Cert.preserves_Kernel_KernelIdeal := trivial

/-- On the extended reals, from memories where each device holds its blocks of the reference's arrays: both programs
    run, each device's result array ends at its block of the reference's result, and all arguments end unchanged. -/
theorem algebraic : Cert.algebraic_KernelIdeal_ReferenceIdeal := fun m g m' g' hpre hagree =>
  ⟨Cert.Bridge.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h c).1.trans (Cert.Bridge.out_eq_block m m' hpre hagree c), (h c).2⟩)
      (Cert.KernelIdeal.Proto.run_post (F := Ideal) m g (Cert.KernelIdeal.Proto.body_obligation m g (Cert.KernelIdeal.Proto.sound_body m g))),
    Cert.Bridge.ref_run m' g'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, preserves, algebraic⟩

/-- info: 'Cert.Proof.claim' depends on axioms: [propext, Classical.choice, Quot.sound] -/
#guard_msgs in #print axioms claim

end Cert.Proof

end
